-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v47_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v47_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S200000x128 : Shape := ⟨2, ![200000, 128]⟩
abbrev S134x128 : Shape := ⟨2, ![134, 128]⟩
abbrev S128 : Shape := ⟨1, ![128]⟩
abbrev S128x32 : Shape := ⟨2, ![128, 32]⟩
abbrev S32 : Shape := ⟨1, ![32]⟩
abbrev S200000x3 : Shape := ⟨2, ![200000, 3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S134x128 : S_.BroadcastsInDim S134x128 (![] : Fin 0 → Fin S134x128.rank)
  reducesTo_S134x128_S_d0_1 : S134x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S128x32 .f32) (main_arg5 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x3 .f32) (main_arg1 : FVec F S200000x128 .f32) (main_arg2 : FVec F S134x128 .f32) (main_arg3 : FVec F S128 .f32) (main_arg4 : FVec F S128x32 .f32) (main_arg5 : FVec F S32 .f32) (main_arg6 : IVec S200000x3 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S134x128 .f32 := Host.absf main_arg2
  let main_cst_2 : FVec F S_ .f32 := constant S_ .f32 0x7F800000#32
  let main_v10 : FVec F S134x128 .f32 := broadcastInDim S134x128 ![] bcast_S_S134x128 main_cst_2
  let main_v11 : IVec S134x128 1 := cmpf .olt main_v9 main_v10
  let main_c_3 : IVec S_ 1 := constantI S_ 1 1#1
  let main_v12 : IVec S_ 1 := (fun x v => Host.reduce IntOp.andi x v reducesTo_S134x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x3 : Shape := ⟨2, ![100000, 3]⟩
abbrev S200000x128 : Shape := ⟨2, ![200000, 128]⟩
abbrev S134x128 : Shape := ⟨2, ![134, 128]⟩
abbrev S128 : Shape := ⟨1, ![128]⟩
abbrev S128x32 : Shape := ⟨2, ![128, 32]⟩
abbrev S32 : Shape := ⟨1, ![32]⟩
abbrev S200000x3 : Shape := ⟨2, ![200000, 3]⟩
abbrev S200000x1 : Shape := ⟨2, ![200000, 1]⟩
abbrev S200000 : Shape := ⟨1, ![200000]⟩
abbrev S_ : Shape := ⟨0, ![]⟩
abbrev S200000x18 : Shape := ⟨2, ![200000, 18]⟩
abbrev S6x128 : Shape := ⟨2, ![6, 128]⟩
abbrev S128x128 : Shape := ⟨2, ![128, 128]⟩
abbrev S1x128 : Shape := ⟨2, ![1, 128]⟩
abbrev S1x32 : Shape := ⟨2, ![1, 32]⟩
abbrev S6x384 : Shape := ⟨2, ![6, 384]⟩
abbrev S18x384 : Shape := ⟨2, ![18, 384]⟩
abbrev S200000x9 : Shape := ⟨2, ![200000, 9]⟩
abbrev S200000x29 : Shape := ⟨2, ![200000, 29]⟩
abbrev S4000x18 : Shape := ⟨2, ![4000, 18]⟩
abbrev S4000x128 : Shape := ⟨2, ![4000, 128]⟩
abbrev S4000x9 : Shape := ⟨2, ![4000, 9]⟩
abbrev S4000x29 : Shape := ⟨2, ![4000, 29]⟩
abbrev S4000x384 : Shape := ⟨2, ![4000, 384]⟩
abbrev S4000x32 : Shape := ⟨2, ![4000, 32]⟩
abbrev S4000x3 : Shape := ⟨2, ![4000, 3]⟩
abbrev S600000x3 : Shape := ⟨2, ![600000, 3]⟩
abbrev S600000 : Shape := ⟨1, ![600000]⟩
abbrev S600000x1 : Shape := ⟨2, ![600000, 1]⟩
abbrev S100000 : Shape := ⟨1, ![100000]⟩
abbrev S100000x1 : Shape := ⟨2, ![100000, 1]⟩

abbrev nBuf : Space → Nat
  | .hbm => 92
  | .vmem => 13
  | .smem => 0
  | _ => 0

abbrev bufTy : (tb : Table) → Fin (tcTables nBuf tb) → BufTy
  | .hbm, ⟨0, _⟩ => ⟨S100000x3, .f32⟩
  | .hbm, ⟨1, _⟩ => ⟨S200000x128, .f32⟩
  | .hbm, ⟨2, _⟩ => ⟨S134x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S200000x3, .i32⟩
  | .hbm, ⟨7, _⟩ => ⟨S200000x1, .i32⟩
  | .hbm, ⟨8, _⟩ => ⟨S200000, .i32⟩
  | .hbm, ⟨9, _⟩ => ⟨S_, .i32⟩
  | .hbm, ⟨10, _⟩ => ⟨S200000, .i32⟩
  | .hbm, ⟨11, _⟩ => ⟨S200000, .i1⟩
  | .hbm, ⟨12, _⟩ => ⟨S_, .i32⟩
  | .hbm, ⟨13, _⟩ => ⟨S200000, .i32⟩
  | .hbm, ⟨14, _⟩ => ⟨S200000, .i32⟩
  | .hbm, ⟨15, _⟩ => ⟨S200000, .i32⟩
  | .hbm, ⟨16, _⟩ => ⟨S200000x1, .i32⟩
  | .hbm, ⟨17, _⟩ => ⟨S200000x3, .f32⟩
  | .hbm, ⟨18, _⟩ => ⟨S200000x1, .i32⟩
  | .hbm, ⟨19, _⟩ => ⟨S200000, .i32⟩
  | .hbm, ⟨20, _⟩ => ⟨S_, .i32⟩
  | .hbm, ⟨21, _⟩ => ⟨S200000, .i32⟩
  | .hbm, ⟨22, _⟩ => ⟨S200000, .i1⟩
  | .hbm, ⟨23, _⟩ => ⟨S_, .i32⟩
  | .hbm, ⟨24, _⟩ => ⟨S200000, .i32⟩
  | .hbm, ⟨25, _⟩ => ⟨S200000, .i32⟩
  | .hbm, ⟨26, _⟩ => ⟨S200000, .i32⟩
  | .hbm, ⟨27, _⟩ => ⟨S200000x1, .i32⟩
  | .hbm, ⟨28, _⟩ => ⟨S200000x3, .f32⟩
  | .hbm, ⟨29, _⟩ => ⟨S200000x1, .i32⟩
  | .hbm, ⟨30, _⟩ => ⟨S200000, .i32⟩
  | .hbm, ⟨31, _⟩ => ⟨S_, .i32⟩
  | .hbm, ⟨32, _⟩ => ⟨S200000, .i32⟩
  | .hbm, ⟨33, _⟩ => ⟨S200000, .i1⟩
  | .hbm, ⟨34, _⟩ => ⟨S_, .i32⟩
  | .hbm, ⟨35, _⟩ => ⟨S200000, .i32⟩
  | .hbm, ⟨36, _⟩ => ⟨S200000, .i32⟩
  | .hbm, ⟨37, _⟩ => ⟨S200000, .i32⟩
  | .hbm, ⟨38, _⟩ => ⟨S200000x1, .i32⟩
  | .hbm, ⟨39, _⟩ => ⟨S200000x3, .f32⟩
  | .hbm, ⟨40, _⟩ => ⟨S200000x3, .f32⟩
  | .hbm, ⟨41, _⟩ => ⟨S200000x3, .f32⟩
  | .hbm, ⟨42, _⟩ => ⟨S200000x3, .f32⟩
  | .hbm, ⟨43, _⟩ => ⟨S200000x3, .f32⟩
  | .hbm, ⟨44, _⟩ => ⟨S200000x3, .f32⟩
  | .hbm, ⟨45, _⟩ => ⟨S200000x3, .f32⟩
  | .hbm, ⟨46, _⟩ => ⟨S200000x18, .f32⟩
  | .hbm, ⟨47, _⟩ => ⟨S200000x18, .bf16⟩
  | .hbm, ⟨48, _⟩ => ⟨S6x128, .f32⟩
  | .hbm, ⟨49, _⟩ => ⟨S6x128, .bf16⟩
  | .hbm, ⟨50, _⟩ => ⟨S128x128, .f32⟩
  | .hbm, ⟨51, _⟩ => ⟨S128x128, .bf16⟩
  | .hbm, ⟨52, _⟩ => ⟨S128x32, .bf16⟩
  | .hbm, ⟨53, _⟩ => ⟨S1x128, .f32⟩
  | .hbm, ⟨54, _⟩ => ⟨S1x32, .f32⟩
  | .hbm, ⟨55, _⟩ => ⟨S_, .bf16⟩
  | .hbm, ⟨56, _⟩ => ⟨S6x128, .bf16⟩
  | .hbm, ⟨57, _⟩ => ⟨S6x384, .bf16⟩
  | .hbm, ⟨58, _⟩ => ⟨S6x384, .bf16⟩
  | .hbm, ⟨59, _⟩ => ⟨S6x384, .bf16⟩
  | .hbm, ⟨60, _⟩ => ⟨S18x384, .bf16⟩
  | .hbm, ⟨61, _⟩ => ⟨S200000x9, .f32⟩
  | .hbm, ⟨62, _⟩ => ⟨S200000x29, .f32⟩
  | .hbm, ⟨63, _⟩ => ⟨S200000x3, .f32⟩
  | .hbm, ⟨64, _⟩ => ⟨S200000x3, .f32⟩
  | .hbm, ⟨65, _⟩ => ⟨S200000x3, .f32⟩
  | .hbm, ⟨66, _⟩ => ⟨S600000x3, .f32⟩
  | .hbm, ⟨67, _⟩ => ⟨S200000x1, .i32⟩
  | .hbm, ⟨68, _⟩ => ⟨S200000, .i32⟩
  | .hbm, ⟨69, _⟩ => ⟨S200000x1, .i32⟩
  | .hbm, ⟨70, _⟩ => ⟨S200000, .i32⟩
  | .hbm, ⟨71, _⟩ => ⟨S200000x1, .i32⟩
  | .hbm, ⟨72, _⟩ => ⟨S200000, .i32⟩
  | .hbm, ⟨73, _⟩ => ⟨S600000, .i32⟩
  | .hbm, ⟨74, _⟩ => ⟨S_, .f32⟩
  | .hbm, ⟨75, _⟩ => ⟨S100000x3, .f32⟩
  | .hbm, ⟨76, _⟩ => ⟨S600000x1, .i32⟩
  | .hbm, ⟨77, _⟩ => ⟨S100000x3, .f32⟩
  | .hbm, ⟨78, _⟩ => ⟨S_, .f32⟩
  | .hbm, ⟨79, _⟩ => ⟨S600000, .f32⟩
  | .hbm, ⟨80, _⟩ => ⟨S_, .f32⟩
  | .hbm, ⟨81, _⟩ => ⟨S100000, .f32⟩
  | .hbm, ⟨82, _⟩ => ⟨S600000x1, .i32⟩
  | .hbm, ⟨83, _⟩ => ⟨S100000, .f32⟩
  | .hbm, ⟨84, _⟩ => ⟨S_, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S100000x1, .f32⟩
  | .hbm, ⟨89, _⟩ => ⟨S100000x3, .f32⟩
  | .hbm, ⟨90, _⟩ => ⟨S100000x3, .f32⟩
  | .hbm, ⟨91, _⟩ => ⟨S100000x3, .f32⟩
  | .local _ .vmem, ⟨0, _⟩ => ⟨S4000x18, .bf16⟩
  | .local _ .vmem, ⟨1, _⟩ => ⟨S4000x18, .bf16⟩
  | .local _ .vmem, ⟨2, _⟩ => ⟨S4000x128, .f32⟩
  | .local _ .vmem, ⟨3, _⟩ => ⟨S4000x128, .f32⟩
  | .local _ .vmem, ⟨4, _⟩ => ⟨S18x384, .bf16⟩
  | .local _ .vmem, ⟨5, _⟩ => ⟨S128x128, .bf16⟩
  | .local _ .vmem, ⟨6, _⟩ => ⟨S1x128, .f32⟩
  | .local _ .vmem, ⟨7, _⟩ => ⟨S128x32, .bf16⟩
  | .local _ .vmem, ⟨8, _⟩ => ⟨S1x32, .f32⟩
  | .local _ .vmem, ⟨9, _⟩ => ⟨S4000x9, .f32⟩
  | .local _ .vmem, ⟨10, _⟩ => ⟨S4000x9, .f32⟩
  | .local _ .vmem, ⟨11, _⟩ => ⟨S4000x29, .f32⟩
  | .local _ .vmem, ⟨12, _⟩ => ⟨S4000x29, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47_0 : Ref sig .tc := ⟨.hbm, 61, rfl⟩
abbrev main_v47_1 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_call0_v0 : Ref sig .tc := ⟨.hbm, 85, rfl⟩
abbrev main_call0_v1 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x18 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S18x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x9 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x29 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S200000x3_S200000x1_0_0 : S200000x3.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x3_S200000x1_0_1 : S200000x3.Slices ![0, 1] S200000x1
  slices_S200000x3_S200000x1_0_2 : S200000x3.Slices ![0, 2] S200000x1
  concatenates_S200000x3_S200000x3_S200000x3_S200000x3_S200000x3_S200000x3_S200000x18_d1 : Shape.Concatenates [S200000x3, S200000x3, S200000x3, S200000x3, S200000x3, S200000x3] S200000x18 1
  bitsLt_bf16_f32 : FTy.bits .bf16 < FTy.bits .f32
  slices_S134x128_S6x128_0_0 : S134x128.Slices ![0, 0] S6x128
  slices_S134x128_S128x128_6_0 : S134x128.Slices ![6, 0] S128x128
  shapeCasts_S128_S1x128 : S128.ShapeCasts S1x128
  shapeCasts_S32_S1x32 : S32.ShapeCasts S1x32
  bcast_S_S6x128 : S_.BroadcastsInDim S6x128 (![] : Fin 0 → Fin S6x128.rank)
  concatenates_S6x128_S6x128_S6x128_S6x384_d1 : Shape.Concatenates [S6x128, S6x128, S6x128] S6x384 1
  concatenates_S6x384_S6x384_S6x384_S18x384_d0 : Shape.Concatenates [S6x384, S6x384, S6x384] S18x384 0
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S4000x18_S4000x18_0_0 : ∀ a, (![0, 0] : Fin 2 → Nat) a + S4000x18.size a ≤ S4000x18.size a
  h_S4000x18 : 0 < S4000x18.numel
  shapeCasts_S4000x18_S4000x18 : S4000x18.ShapeCasts S4000x18
  inb_S18x384_S18x384_0_0 : ∀ a, (![0, 0] : Fin 2 → Nat) a + S18x384.size a ≤ S18x384.size a
  h_S18x384 : 0 < S18x384.numel
  shapeCasts_S18x384_S18x384 : S18x384.ShapeCasts S18x384
  slices_S4000x384_o0_0_S4000x128 : S4000x384.Slices ![0, 0] S4000x128
  broadcasts_S1x128_S4000x128 : S1x128.Broadcasts S4000x128
  broadcasts_S1x32_S4000x32 : S1x32.Broadcasts S4000x32
  slices_S4000x32_o0_0_S4000x3 : S4000x32.Slices ![0, 0] S4000x3
  slices_S4000x32_o0_3_S4000x29 : S4000x32.Slices ![0, 3] S4000x29
  slices_S4000x384_o0_128_S4000x128 : S4000x384.Slices ![0, 128] S4000x128
  slices_S4000x384_o0_256_S4000x128 : S4000x384.Slices ![0, 256] S4000x128
  concatenates_S4000x3_S4000x3_S4000x3_S4000x9_d1 : Shape.Concatenates [S4000x3, S4000x3, S4000x3] S4000x9 1
  inb_S4000x9_S4000x9_0_0 : ∀ a, (![0, 0] : Fin 2 → Nat) a + S4000x9.size a ≤ S4000x9.size a
  h_S4000x9 : 0 < S4000x9.numel
  inb_S4000x29_S4000x29_0_0 : ∀ a, (![0, 0] : Fin 2 → Nat) a + S4000x29.size a ≤ S4000x29.size a
  h_S4000x29 : 0 < S4000x29.numel
  slices_S200000x9_S200000x3_0_0 : S200000x9.Slices ![0, 0] S200000x3
  slices_S200000x9_S200000x3_0_3 : S200000x9.Slices ![0, 3] S200000x3
  slices_S200000x9_S200000x3_0_6 : S200000x9.Slices ![0, 6] S200000x3
  concatenates_S200000x3_S200000x3_S200000x3_S600000x3_d0 : Shape.Concatenates [S200000x3, S200000x3, S200000x3] S600000x3 0
  concatenates_S200000_S200000_S200000_S600000_d0 : Shape.Concatenates [S200000, S200000, S200000] S600000 0
  bcast_S_S100000x3 : S_.BroadcastsInDim S100000x3 (![] : Fin 0 → Fin S100000x3.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  gather_S100000x3_S200000x1_S200000x3_1_0_n_n_0_1_13_wf : GatherDims.WF S100000x3 S200000x1 S200000x3 [1] [0] [] [0] [] 1 ![1, 3]
  dot_S4000x128_S128x128_S4000x128_1_0_0_1_n_n_wf : DotDims.WF S4000x128 S128x128 S4000x128 [1] [0] [0] [1] [] []
  dot_S4000x18_S18x384_S4000x384_1_0_0_1_n_n_wf : DotDims.WF S4000x18 S18x384 S4000x384 [1] [0] [0] [1] [] []
  dot_S4000x128_S128x32_S4000x32_1_0_0_1_n_n_wf : DotDims.WF S4000x128 S128x32 S4000x32 [1] [0] [0] [1] [] []
  scatter_S100000x3_S600000x1_S600000x3_1_0_0_1_wf : ScatterDims.WF S100000x3 S600000x1 S600000x3 [1] [0] [0] 1
  scatter_S100000_S600000x1_S600000_n_0_0_1_wf : ScatterDims.WF S100000 S600000x1 S600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x18.size a ≤ S200000x18.size a
  hwx0_0 : ∀ i : grid0.Coords, EltTy.bits .bf16 = 32 ∨ (Rect.block (s := S200000x18) S4000x18.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S18x384.size a ≤ S18x384.size a
  hwx0_2 : ∀ i : grid0.Coords, EltTy.bits .bf16 = 32 ∨ (Rect.block (s := S18x384) S18x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .bf16 = 32 ∨ (Rect.block (s := S128x32) S128x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x9.size a ≤ S200000x9.size a
  hwx0_7 : ∀ i : grid0.Coords, EltTy.bits .f32 = 32 ∨ (Rect.block (s := S200000x9) S4000x9.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x29.size a ≤ S200000x29.size a
  hwx0_8 : ∀ i : grid0.Coords, EltTy.bits .f32 = 32 ∨ (Rect.block (s := S200000x29) S4000x29.size (cc0_transform_8 i) (hinb0_8 i)).WholeWords (EltTy.packing .f32)

variable [Facts₀]

def gather_S100000x3_S200000x1_S200000x3_1_0_n_n_0_1_13 : GatherDims S100000x3 S200000x1 S200000x3 where
  offsetDims := [1]
  collapsedSliceDims := [0]
  operandBatchingDims := []
  startIndicesBatchingDims := []
  startIndexMap := [0]
  indexVectorDim := 1
  sliceSizes := ![1, 3]
  wf := gather_S100000x3_S200000x1_S200000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x18_S18x384_S4000x384_1_0_0_1_n_n : DotDims S4000x18 S18x384 S4000x384 where
  lhsContracting := [1]
  rhsContracting := [0]
  lhsNonContracting := [0]
  rhsNonContracting := [1]
  lhsBatch := []
  rhsBatch := []
  wf := dot_S4000x18_S18x384_S4000x384_1_0_0_1_n_n_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def scatter_S100000x3_S600000x1_S600000x3_1_0_0_1 : ScatterDims S100000x3 S600000x1 S600000x3 where
  updateWindowDims := [1]
  insertedWindowDims := [0]
  scatterDimsToOperandDims := [0]
  indexVectorDim := 1
  wf := scatter_S100000x3_S600000x1_S600000x3_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf

abbrev win0_0 : Pipeline.Window sig grid0 :=
  Pipeline.Window.ofSpec (Memref.whole main_v34) S4000x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S18x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47_0) S4000x9.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v47_1) S4000x29.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x3 : Shape := ⟨2, ![100000, 3]⟩
abbrev S200000x128 : Shape := ⟨2, ![200000, 128]⟩
abbrev S134x128 : Shape := ⟨2, ![134, 128]⟩
abbrev S128 : Shape := ⟨1, ![128]⟩
abbrev S128x32 : Shape := ⟨2, ![128, 32]⟩
abbrev S32 : Shape := ⟨1, ![32]⟩
abbrev S200000x3 : Shape := ⟨2, ![200000, 3]⟩
abbrev S200000x1 : Shape := ⟨2, ![200000, 1]⟩
abbrev S200000 : Shape := ⟨1, ![200000]⟩
abbrev S_ : Shape := ⟨0, ![]⟩
abbrev S200000x134 : Shape := ⟨2, ![200000, 134]⟩
abbrev S1x128 : Shape := ⟨2, ![1, 128]⟩
abbrev S200000x32 : Shape := ⟨2, ![200000, 32]⟩
abbrev S1x32 : Shape := ⟨2, ![1, 32]⟩
abbrev S200000x29 : Shape := ⟨2, ![200000, 29]⟩
abbrev S600000x3 : Shape := ⟨2, ![600000, 3]⟩
abbrev S600000 : Shape := ⟨1, ![600000]⟩
abbrev S600000x1 : Shape := ⟨2, ![600000, 1]⟩
abbrev S100000 : Shape := ⟨1, ![100000]⟩
abbrev S100000x1 : Shape := ⟨2, ![100000, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S200000x128, .f32⟩
  | .hbm, ⟨2, _⟩ => ⟨S134x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S200000x3, .i32⟩
  | .hbm, ⟨7, _⟩ => ⟨S200000x1, .i32⟩
  | .hbm, ⟨8, _⟩ => ⟨S200000, .i32⟩
  | .hbm, ⟨9, _⟩ => ⟨S_, .i32⟩
  | .hbm, ⟨10, _⟩ => ⟨S200000, .i32⟩
  | .hbm, ⟨11, _⟩ => ⟨S200000, .i1⟩
  | .hbm, ⟨12, _⟩ => ⟨S_, .i32⟩
  | .hbm, ⟨13, _⟩ => ⟨S200000, .i32⟩
  | .hbm, ⟨14, _⟩ => ⟨S200000, .i32⟩
  | .hbm, ⟨15, _⟩ => ⟨S200000, .i32⟩
  | .hbm, ⟨16, _⟩ => ⟨S200000x1, .i32⟩
  | .hbm, ⟨17, _⟩ => ⟨S200000x3, .f32⟩
  | .hbm, ⟨18, _⟩ => ⟨S200000x1, .i32⟩
  | .hbm, ⟨19, _⟩ => ⟨S200000, .i32⟩
  | .hbm, ⟨20, _⟩ => ⟨S_, .i32⟩
  | .hbm, ⟨21, _⟩ => ⟨S200000, .i32⟩
  | .hbm, ⟨22, _⟩ => ⟨S200000, .i1⟩
  | .hbm, ⟨23, _⟩ => ⟨S_, .i32⟩
  | .hbm, ⟨24, _⟩ => ⟨S200000, .i32⟩
  | .hbm, ⟨25, _⟩ => ⟨S200000, .i32⟩
  | .hbm, ⟨26, _⟩ => ⟨S200000, .i32⟩
  | .hbm, ⟨27, _⟩ => ⟨S200000x1, .i32⟩
  | .hbm, ⟨28, _⟩ => ⟨S200000x3, .f32⟩
  | .hbm, ⟨29, _⟩ => ⟨S200000x1, .i32⟩
  | .hbm, ⟨30, _⟩ => ⟨S200000, .i32⟩
  | .hbm, ⟨31, _⟩ => ⟨S_, .i32⟩
  | .hbm, ⟨32, _⟩ => ⟨S200000, .i32⟩
  | .hbm, ⟨33, _⟩ => ⟨S200000, .i1⟩
  | .hbm, ⟨34, _⟩ => ⟨S_, .i32⟩
  | .hbm, ⟨35, _⟩ => ⟨S200000, .i32⟩
  | .hbm, ⟨36, _⟩ => ⟨S200000, .i32⟩
  | .hbm, ⟨37, _⟩ => ⟨S200000, .i32⟩
  | .hbm, ⟨38, _⟩ => ⟨S200000x1, .i32⟩
  | .hbm, ⟨39, _⟩ => ⟨S200000x3, .f32⟩
  | .hbm, ⟨40, _⟩ => ⟨S200000x3, .f32⟩
  | .hbm, ⟨41, _⟩ => ⟨S200000x3, .f32⟩
  | .hbm, ⟨42, _⟩ => ⟨S200000x134, .f32⟩
  | .hbm, ⟨43, _⟩ => ⟨S200000x128, .f32⟩
  | .hbm, ⟨44, _⟩ => ⟨S1x128, .f32⟩
  | .hbm, ⟨45, _⟩ => ⟨S200000x128, .f32⟩
  | .hbm, ⟨46, _⟩ => ⟨S200000x128, .f32⟩
  | .hbm, ⟨47, _⟩ => ⟨S_, .f32⟩
  | .hbm, ⟨48, _⟩ => ⟨S200000x128, .f32⟩
  | .hbm, ⟨49, _⟩ => ⟨S200000x128, .f32⟩
  | .hbm, ⟨50, _⟩ => ⟨S200000x32, .f32⟩
  | .hbm, ⟨51, _⟩ => ⟨S1x32, .f32⟩
  | .hbm, ⟨52, _⟩ => ⟨S200000x32, .f32⟩
  | .hbm, ⟨53, _⟩ => ⟨S200000x32, .f32⟩
  | .hbm, ⟨54, _⟩ => ⟨S200000x3, .f32⟩
  | .hbm, ⟨55, _⟩ => ⟨S200000x3, .f32⟩
  | .hbm, ⟨56, _⟩ => ⟨S200000x134, .f32⟩
  | .hbm, ⟨57, _⟩ => ⟨S200000x128, .f32⟩
  | .hbm, ⟨58, _⟩ => ⟨S1x128, .f32⟩
  | .hbm, ⟨59, _⟩ => ⟨S200000x128, .f32⟩
  | .hbm, ⟨60, _⟩ => ⟨S200000x128, .f32⟩
  | .hbm, ⟨61, _⟩ => ⟨S_, .f32⟩
  | .hbm, ⟨62, _⟩ => ⟨S200000x128, .f32⟩
  | .hbm, ⟨63, _⟩ => ⟨S200000x128, .f32⟩
  | .hbm, ⟨64, _⟩ => ⟨S200000x32, .f32⟩
  | .hbm, ⟨65, _⟩ => ⟨S1x32, .f32⟩
  | .hbm, ⟨66, _⟩ => ⟨S200000x32, .f32⟩
  | .hbm, ⟨67, _⟩ => ⟨S200000x32, .f32⟩
  | .hbm, ⟨68, _⟩ => ⟨S200000x3, .f32⟩
  | .hbm, ⟨69, _⟩ => ⟨S200000x3, .f32⟩
  | .hbm, ⟨70, _⟩ => ⟨S200000x134, .f32⟩
  | .hbm, ⟨71, _⟩ => ⟨S200000x128, .f32⟩
  | .hbm, ⟨72, _⟩ => ⟨S1x128, .f32⟩
  | .hbm, ⟨73, _⟩ => ⟨S200000x128, .f32⟩
  | .hbm, ⟨74, _⟩ => ⟨S200000x128, .f32⟩
  | .hbm, ⟨75, _⟩ => ⟨S_, .f32⟩
  | .hbm, ⟨76, _⟩ => ⟨S200000x128, .f32⟩
  | .hbm, ⟨77, _⟩ => ⟨S200000x128, .f32⟩
  | .hbm, ⟨78, _⟩ => ⟨S200000x32, .f32⟩
  | .hbm, ⟨79, _⟩ => ⟨S1x32, .f32⟩
  | .hbm, ⟨80, _⟩ => ⟨S200000x32, .f32⟩
  | .hbm, ⟨81, _⟩ => ⟨S200000x32, .f32⟩
  | .hbm, ⟨82, _⟩ => ⟨S200000x29, .f32⟩
  | .hbm, ⟨83, _⟩ => ⟨S200000x29, .f32⟩
  | .hbm, ⟨84, _⟩ => ⟨S200000x29, .f32⟩
  | .hbm, ⟨85, _⟩ => ⟨S200000x29, .f32⟩
  | .hbm, ⟨86, _⟩ => ⟨S200000x29, .f32⟩
  | .hbm, ⟨87, _⟩ => ⟨S_, .f32⟩
  | .hbm, ⟨88, _⟩ => ⟨S200000x29, .f32⟩
  | .hbm, ⟨89, _⟩ => ⟨S200000x29, .f32⟩
  | .hbm, ⟨90, _⟩ => ⟨S200000x3, .f32⟩
  | .hbm, ⟨91, _⟩ => ⟨S200000x3, .f32⟩
  | .hbm, ⟨92, _⟩ => ⟨S200000x3, .f32⟩
  | .hbm, ⟨93, _⟩ => ⟨S600000x3, .f32⟩
  | .hbm, ⟨94, _⟩ => ⟨S200000x1, .i32⟩
  | .hbm, ⟨95, _⟩ => ⟨S200000, .i32⟩
  | .hbm, ⟨96, _⟩ => ⟨S200000x1, .i32⟩
  | .hbm, ⟨97, _⟩ => ⟨S200000, .i32⟩
  | .hbm, ⟨98, _⟩ => ⟨S200000x1, .i32⟩
  | .hbm, ⟨99, _⟩ => ⟨S200000, .i32⟩
  | .hbm, ⟨100, _⟩ => ⟨S600000, .i32⟩
  | .hbm, ⟨101, _⟩ => ⟨S_, .f32⟩
  | .hbm, ⟨102, _⟩ => ⟨S100000x3, .f32⟩
  | .hbm, ⟨103, _⟩ => ⟨S600000x1, .i32⟩
  | .hbm, ⟨104, _⟩ => ⟨S100000x3, .f32⟩
  | .hbm, ⟨105, _⟩ => ⟨S_, .f32⟩
  | .hbm, ⟨106, _⟩ => ⟨S600000, .f32⟩
  | .hbm, ⟨107, _⟩ => ⟨S_, .f32⟩
  | .hbm, ⟨108, _⟩ => ⟨S100000, .f32⟩
  | .hbm, ⟨109, _⟩ => ⟨S600000x1, .i32⟩
  | .hbm, ⟨110, _⟩ => ⟨S100000, .f32⟩
  | .hbm, ⟨111, _⟩ => ⟨S_, .f32⟩
  | .hbm, ⟨112, _⟩ => ⟨S_, .f32⟩
  | .hbm, ⟨113, _⟩ => ⟨S100000, .f32⟩
  | .hbm, ⟨114, _⟩ => ⟨S100000, .f32⟩
  | .hbm, ⟨115, _⟩ => ⟨S100000x1, .f32⟩
  | .hbm, ⟨116, _⟩ => ⟨S100000x3, .f32⟩
  | .hbm, ⟨117, _⟩ => ⟨S100000x3, .f32⟩
  | .hbm, ⟨118, _⟩ => ⟨S100000x3, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_cst : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call1_cst : Ref sig .tc := ⟨.hbm, 61, rfl⟩
abbrev main_call1_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_call2_cst : Ref sig .tc := ⟨.hbm, 75, rfl⟩
abbrev main_call2_v0 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_5 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_6 : Ref sig .tc := ⟨.hbm, 105, rfl⟩
abbrev main_v84 : Ref sig .tc := ⟨.hbm, 106, rfl⟩
abbrev main_cst_7 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_8 : Ref sig .tc := ⟨.hbm, 111, rfl⟩
abbrev main_call3_v0 : Ref sig .tc := ⟨.hbm, 112, rfl⟩
abbrev main_call3_v1 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩

abbrev nD : Nat := 1
abbrev τ : Topo := Topo.v7x

variable {F : FTy → Type} [FloatOps F]

class Facts₀ : Prop where
  slices_S200000x3_S200000x1_0_0 : S200000x3.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x3_S200000x1_0_1 : S200000x3.Slices ![0, 1] S200000x1
  slices_S200000x3_S200000x1_0_2 : S200000x3.Slices ![0, 2] S200000x1
  concatenates_S200000x3_S200000x3_S200000x128_S200000x134_d1 : Shape.Concatenates [S200000x3, S200000x3, S200000x128] S200000x134 1
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  slices_S200000x32_S200000x29_0_3 : S200000x32.Slices ![0, 3] S200000x29
  bcast_S_S200000x29 : S_.BroadcastsInDim S200000x29 (![] : Fin 0 → Fin S200000x29.rank)
  slices_S200000x32_S200000x3_0_0 : S200000x32.Slices ![0, 0] S200000x3
  concatenates_S200000x3_S200000x3_S200000x3_S600000x3_d0 : Shape.Concatenates [S200000x3, S200000x3, S200000x3] S600000x3 0
  concatenates_S200000_S200000_S200000_S600000_d0 : Shape.Concatenates [S200000, S200000, S200000] S600000 0
  bcast_S_S100000x3 : S_.BroadcastsInDim S100000x3 (![] : Fin 0 → Fin S100000x3.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  gather_S100000x3_S200000x1_S200000x3_1_0_n_n_0_1_13_wf : GatherDims.WF S100000x3 S200000x1 S200000x3 [1] [0] [] [0] [] 1 ![1, 3]
  dot_S200000x134_S134x128_S200000x128_1_0_0_1_n_n_wf : DotDims.WF S200000x134 S134x128 S200000x128 [1] [0] [0] [1] [] []
  dot_S200000x128_S128x32_S200000x32_1_0_0_1_n_n_wf : DotDims.WF S200000x128 S128x32 S200000x32 [1] [0] [0] [1] [] []
  scatter_S100000x3_S600000x1_S600000x3_1_0_0_1_wf : ScatterDims.WF S100000x3 S600000x1 S600000x3 [1] [0] [0] 1
  scatter_S100000_S600000x1_S600000_n_0_0_1_wf : ScatterDims.WF S100000 S600000x1 S600000 [] [0] [0] 1

variable [Facts₀]

def gather_S100000x3_S200000x1_S200000x3_1_0_n_n_0_1_13 : GatherDims S100000x3 S200000x1 S200000x3 where
  offsetDims := [1]
  collapsedSliceDims := [0]
  operandBatchingDims := []
  startIndicesBatchingDims := []
  startIndexMap := [0]
  indexVectorDim := 1
  sliceSizes := ![1, 3]
  wf := gather_S100000x3_S200000x1_S200000x3_1_0_n_n_0_1_13_wf
def dot_S200000x134_S134x128_S200000x128_1_0_0_1_n_n : DotDims S200000x134 S134x128 S200000x128 where
  lhsContracting := [1]
  rhsContracting := [0]
  lhsNonContracting := [0]
  rhsNonContracting := [1]
  lhsBatch := []
  rhsBatch := []
  wf := dot_S200000x134_S134x128_S200000x128_1_0_0_1_n_n_wf
def dot_S200000x128_S128x32_S200000x32_1_0_0_1_n_n : DotDims S200000x128 S128x32 S200000x32 where
  lhsContracting := [1]
  rhsContracting := [0]
  lhsNonContracting := [0]
  rhsNonContracting := [1]
  lhsBatch := []
  rhsBatch := []
  wf := dot_S200000x128_S128x32_S200000x32_1_0_0_1_n_n_wf
def scatter_S100000x3_S600000x1_S600000x3_1_0_0_1 : ScatterDims S100000x3 S600000x1 S600000x3 where
  updateWindowDims := [1]
  insertedWindowDims := [0]
  scatterDimsToOperandDims := [0]
  indexVectorDim := 1
  wf := scatter_S100000x3_S600000x1_S600000x3_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf

class Facts : Prop extends Facts₀ where

variable [Facts]
-- ==== Proof.KernelHost.lean ====
/-
  The host side of `Kernel`'s run: @main is a stretch of host operations (the three gathers of corner positions, the six
  edge differences joined into 18 columns, the weight slices and the block-diagonal weight), ONE kernel region over the
  fifty blocks of 4000 faces, and three more stretches (the scatter of the per-corner position updates onto the nodes,
  the count clipped below by one, the quotient and the new positions).

  Stated here, at any float instance: what every buffer holds when the region is entered (`V`: the fold of the first
  stretch over the initial memory); that @main reduces to the region continued by the later stretches; that those
  later stretches touch only buffers they may, allocate nothing and write no array of the pipeline; that no host
  operation writes an argument array; and each window's block at a grid point, which an input window's staging buffer
  holds whenever the body runs there, whether or not the pipeline fetched it at that very point.
-/
import proofs.«142834_j6528350290204_2_alg».proof.Proof.Gen.Kernel.Launch
import proofs.«142834_j6528350290204_2_alg».proof.Proof.Gen.Kernel.Skeleton
import proofs.«142834_j6528350290204_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Host

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- Core `c`'s buffer contents when the region is entered: the first stretch of host operations folded over the
    initial memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The three stretches after the region, in order. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the first stretch, the region, and the later stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later stretches touch the pipeline's arrays and the buffers that bypass the region only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No operation of the stretch right after the region writes an array of the pipeline: each writes its own result
    buffer, which is none of the nine. -/
theorem keeps1 : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.reshape_writes, StableHlo.nary_writes, Finset.mem_singleton]
  repeat' apply And.intro
  all_goals intro w; fin_cases w <;> exact StableHlo.devRef_ne_of_ne (by decide)
theorem keeps1_1 : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.reshape_writes, StableHlo.nary_writes, Finset.mem_singleton]
  repeat' apply And.intro
  all_goals intro w; fin_cases w <;> exact StableHlo.devRef_ne_of_ne (by decide)
theorem keeps1_2 : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.reshape_writes, StableHlo.nary_writes, Finset.mem_singleton]
  repeat' apply And.intro
  all_goals intro w; fin_cases w <;> exact StableHlo.devRef_ne_of_ne (by decide)

/-- So the later stretches keep the pipeline's arrays. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl
  · exact (List.forall_iff_forall_mem.mp keeps1) op hop
  · exact (List.forall_iff_forall_mem.mp keeps1_1) op hop
  · exact (List.forall_iff_forall_mem.mp keeps1_2) op hop

/-! ## The argument arrays are written by no host operation -/

/-- No operation before the region writes argument 0: the region finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the region writes argument 1: the region finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the region writes argument 2: the region finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the region writes argument 3: the region finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the region writes argument 4: the region finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the region writes argument 5: the region finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the region writes argument 6: the region finds it as it was at the start. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation after the region writes argument 0, and it is no array of the pipeline: it ends as it started. -/
theorem W_main_arg0 (dats : (p : Fin 1) → (c : Dev nD) → Dat τ (Elt F) Unit ℕ (UR sig nD τ) ℕ (cfgs p) c) (c : Dev nD) :
    Pipeline.afterTail₀ cfgs dats 0 (V0 m) (tailOps (F := F)) c main_arg0 = m ((c : Thread nD τ).loc main_arg0) := by
  unfold Pipeline.afterTail₀ tailOps
  rw [StableHlo.after_of_forall_not_mem (b := Proc.devRef .tc main_arg0) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No operation after the region writes argument 2, and it is no array of the pipeline: it ends as it started. -/
theorem W_main_arg2 (dats : (p : Fin 1) → (c : Dev nD) → Dat τ (Elt F) Unit ℕ (UR sig nD τ) ℕ (cfgs p) c) (c : Dev nD) :
    Pipeline.afterTail₀ cfgs dats 0 (V0 m) (tailOps (F := F)) c main_arg2 = m ((c : Thread nD τ).loc main_arg2) := by
  unfold Pipeline.afterTail₀ tailOps
  rw [StableHlo.after_of_forall_not_mem (b := Proc.devRef .tc main_arg2) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation after the region writes argument 3, and it is no array of the pipeline: it ends as it started. -/
theorem W_main_arg3 (dats : (p : Fin 1) → (c : Dev nD) → Dat τ (Elt F) Unit ℕ (UR sig nD τ) ℕ (cfgs p) c) (c : Dev nD) :
    Pipeline.afterTail₀ cfgs dats 0 (V0 m) (tailOps (F := F)) c main_arg3 = m ((c : Thread nD τ).loc main_arg3) := by
  unfold Pipeline.afterTail₀ tailOps
  rw [StableHlo.after_of_forall_not_mem (b := Proc.devRef .tc main_arg3) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation after the region writes argument 4, and it is no array of the pipeline: it ends as it started. -/
theorem W_main_arg4 (dats : (p : Fin 1) → (c : Dev nD) → Dat τ (Elt F) Unit ℕ (UR sig nD τ) ℕ (cfgs p) c) (c : Dev nD) :
    Pipeline.afterTail₀ cfgs dats 0 (V0 m) (tailOps (F := F)) c main_arg4 = m ((c : Thread nD τ).loc main_arg4) := by
  unfold Pipeline.afterTail₀ tailOps
  rw [StableHlo.after_of_forall_not_mem (b := Proc.devRef .tc main_arg4) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No operation after the region writes argument 5, and it is no array of the pipeline: it ends as it started. -/
theorem W_main_arg5 (dats : (p : Fin 1) → (c : Dev nD) → Dat τ (Elt F) Unit ℕ (UR sig nD τ) ℕ (cfgs p) c) (c : Dev nD) :
    Pipeline.afterTail₀ cfgs dats 0 (V0 m) (tailOps (F := F)) c main_arg5 = m ((c : Thread nD τ).loc main_arg5) := by
  unfold Pipeline.afterTail₀ tailOps
  rw [StableHlo.after_of_forall_not_mem (b := Proc.devRef .tc main_arg5) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No operation after the region writes argument 6, and it is no array of the pipeline: it ends as it started. -/
theorem W_main_arg6 (dats : (p : Fin 1) → (c : Dev nD) → Dat τ (Elt F) Unit ℕ (UR sig nD τ) ℕ (cfgs p) c) (c : Dev nD) :
    Pipeline.afterTail₀ cfgs dats 0 (V0 m) (tailOps (F := F)) c main_arg6 = m ((c : Thread nD τ).loc main_arg6) := by
  unfold Pipeline.afterTail₀ tailOps
  rw [StableHlo.after_of_forall_not_mem (b := Proc.devRef .tc main_arg6) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Host

end
-- ==== Proof.KernelRun.lean ====
/-
  `Kernel`'s kernel body and the run of @main around it, at any float instance.

  At a grid point the body reads seven whole blocks — the 4000 × 18 edge columns, the 4000 × 128 face features, the
  18 × 384 block-diagonal weight, the 128 × 128 feature weight, the two bias rows and the 128 × 32 output weight — and
  writes two whole blocks: 4000 × 9 (three position updates per face, one per corner) and 4000 × 29 (the mean of
  the three corners' feature outputs). What it writes is named here as a function of what it read (`posBlock`,
  `featBlock`: the generated payloads at the loaded blocks); the body's triple says the inputs' buffers are left as
  they were and the outputs' hold those two values; the proof data says so at every point; and the run of @main
  follows: every weakly fair execution terminates without a fault, each array of the pipeline ends at what its
  blocks wrote and every other buffer at what the later host operations leave. The argument arrays end unchanged.
-/
import proofs.«142834_j6528350290204_2_alg».proof.Proof.KernelHost

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and store is of a whole block -/

abbrev r0 : Rect S4000x18 := Rect.unit (s := S4000x18) ![0, 0] S4000x18.size inb_S4000x18_S4000x18_0_0
abbrev r1 : Rect S4000x128 := Rect.unit (s := S4000x128) ![0, 0] S4000x128.size inb_S4000x128_S4000x128_0_0
abbrev r2 : Rect S18x384 := Rect.unit (s := S18x384) ![0, 0] S18x384.size inb_S18x384_S18x384_0_0
abbrev r3 : Rect S128x128 := Rect.unit (s := S128x128) ![0, 0] S128x128.size inb_S128x128_S128x128_0_0
abbrev r4 : Rect S1x128 := Rect.unit (s := S1x128) ![0, 0] S1x128.size inb_S1x128_S1x128_0_0
abbrev r5 : Rect S128x32 := Rect.unit (s := S128x32) ![0, 0] S128x32.size inb_S128x32_S128x32_0_0
abbrev r6 : Rect S1x32 := Rect.unit (s := S1x32) ![0, 0] S1x32.size inb_S1x32_S1x32_0_0
abbrev r7 : Rect S4000x9 := Rect.unit (s := S4000x9) ![0, 0] S4000x9.size inb_S4000x9_S4000x9_0_0
abbrev r8 : Rect S4000x29 := Rect.unit (s := S4000x29) ![0, 0] S4000x29.size inb_S4000x29_S4000x29_0_0

/-! ## What the body leaves in the two output blocks -/

/-- The 4000 × 9 block after the body: its one store, of the three corners' first three outputs side by side. -/
def posBlock (x0 : Vec F S4000x18 .bf16) (x1 : Vec F S4000x128 .f32) (x2 : Vec F S18x384 .bf16) (x3 : Vec F S128x128 .bf16) (x4 : Vec F S1x128 .f32) (x5 : Vec F S128x32 .bf16) (x6 : Vec F S1x32 .f32) : Vec F S4000x9 .f32 :=
  View.canon [⟨r7, k0_pay3 (k0_pay5 (View.ld x1 r1) (View.ld x3 r3)) (k0_pay6 (View.ld x4 r4)) (k0_pay7 (View.ld x5 r5)) (k0_pay8 (View.ld x6 r6)) (k0_pay9 (View.ld x0 r0) (View.ld x2 r2)) (k0_pay11 (View.ld x1 r1) (View.ld x3 r3) (View.ld x4 r4) (View.ld x5 r5) (View.ld x6 r6) (View.ld x0 r0) (View.ld x2 r2)) (k0_pay13 (View.ld x1 r1) (View.ld x3 r3) (View.ld x4 r4) (View.ld x5 r5) (View.ld x0 r0) (View.ld x2 r2))⟩]

/-- The 4000 × 29 block after the body: its one store, of the mean of the three corners' last 29 outputs. -/
def featBlock (x0 : Vec F S4000x18 .bf16) (x1 : Vec F S4000x128 .f32) (x2 : Vec F S18x384 .bf16) (x3 : Vec F S128x128 .bf16) (x4 : Vec F S1x128 .f32) (x5 : Vec F S128x32 .bf16) (x6 : Vec F S1x32 .f32) : Vec F S4000x29 .f32 :=
  View.canon [⟨r8, k0_pay4 (k0_pay5 (View.ld x1 r1) (View.ld x3 r3)) (k0_pay6 (View.ld x4 r4)) (k0_pay7 (View.ld x5 r5)) (k0_pay8 (View.ld x6 r6)) (k0_pay9 (View.ld x0 r0) (View.ld x2 r2)) (k0_pay12 (View.ld x1 r1) (View.ld x3 r3) (View.ld x4 r4) (View.ld x5 r5) (View.ld x6 r6) (View.ld x0 r0) (View.ld x2 r2)) (k0_pay13 (View.ld x1 r1) (View.ld x3 r3) (View.ld x4 r4) (View.ld x5 r5) (View.ld x0 r0) (View.ld x2 r2))⟩]

/-- A store of the whole block covers it. -/
theorem coverPos (p : Vec F S4000x9 .f32) (y : S4000x9.Idx) :
    ∃ pc ∈ ([⟨r7, p⟩] : List (View.Piece (Elt F) S4000x9 .f32)), y ∈ pc.1.set :=
  View.cover_of_tiled [⟨r7, p⟩] S4000x9.size (by rfl) y
theorem coverFeat (p : Vec F S4000x29 .f32) (y : S4000x29.Idx) :
    ∃ pc ∈ ([⟨r8, p⟩] : List (View.Piece (Elt F) S4000x29 .f32)), y ∈ pc.1.set :=
  View.cover_of_tiled [⟨r8, p⟩] S4000x29.size (by rfl) y

/-! ## The body's triple -/

set_option maxHeartbeats 4000000 in
/-- On whole staging buffers, the seven inputs' at read contents and the two outputs' at anything, the body runs to
    its continuation with the inputs' as they were and the outputs' at `posBlock` and `featBlock` of the inputs'. -/
theorem sound_kernel (c : Dev nD) (E : Set ℕ) (i : grid0.Coords) (arg1 : Memref sig .tc .vmem S4000x18 .bf16) (harg1 : arg1.IsWhole) (arg2 : Memref sig .tc .vmem S4000x128 .f32) (harg2 : arg2.IsWhole) (arg3 : Memref sig .tc .vmem S18x384 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x32 .bf16) (harg6 : arg6.IsWhole) (arg7 : Memref sig .tc .vmem S1x32 .f32) (harg7 : arg7.IsWhole) (arg8 : Memref sig .tc .vmem S4000x9 .f32) (harg8 : arg8.IsWhole) (arg9 : Memref sig .tc .vmem S4000x29 .f32) (harg9 : arg9.IsWhole)
    (x0 : Vec F S4000x18 .bf16) (x1 : Vec F S4000x128 .f32) (x2 : Vec F S18x384 .bf16) (x3 : Vec F S128x128 .bf16) (x4 : Vec F S1x128 .f32) (x5 : Vec F S128x32 .bf16) (x6 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (posBlock x0 x1 x2 x3 x4 x5 x6) ∗ owns (c : Thread nD τ) arg9 fullShare (featBlock x0 x1 x2 x3 x4 x5 x6)) -∗ K ⟨⟩))
      ⊢ wp frame (wpE (defs₀ (F := F)) Variants.none c none) E (cc0__face2node_kernel i arg1 harg1 arg2 harg2 arg3 harg3 arg4 harg4 arg5 harg5 arg6 harg6 arg7 harg7 arg8 harg8 arg9 harg9) K := by
  simp only [cc0__face2node_kernel_eq_skeleton]; unfold cc0__face2node_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverPos _)
  iexists _; isplitr
  swap; · iexact H8
  ipureintro
  exact View.read_writes_eq_canon _ _ _ (coverFeat _)

/-! ## The pipeline's proof data -/

/-- On core `c`: the arrays as the region finds them; after the body at point `t` each input's buffer at its block
    and the two outputs' at `posBlock` / `featBlock` of the input blocks; nothing else kept, nothing owed. -/
def dats (_ : Fin 1) (c : Dev nD) : Dat τ (Elt F) Unit ℕ (UR sig nD τ) ℕ cfg0 c where
  A w := Host.V m c (Pipeline.arrRef spec0 w)
  after w t := match w with
    | ⟨0, _⟩ => Host.iblk m c 0 t
    | ⟨1, _⟩ => Host.iblk m c 1 t
    | ⟨2, _⟩ => Host.iblk m c 2 t
    | ⟨3, _⟩ => Host.iblk m c 3 t
    | ⟨4, _⟩ => Host.iblk m c 4 t
    | ⟨5, _⟩ => Host.iblk m c 5 t
    | ⟨6, _⟩ => Host.iblk m c 6 t
    | ⟨7, _⟩ => posBlock (Host.iblk m c 0 t) (Host.iblk m c 1 t) (Host.iblk m c 2 t) (Host.iblk m c 3 t) (Host.iblk m c 4 t) (Host.iblk m c 5 t) (Host.iblk m c 6 t)
    | ⟨8, _⟩ => featBlock (Host.iblk m c 0 t) (Host.iblk m c 1 t) (Host.iblk m c 2 t) (Host.iblk m c 3 t) (Host.iblk m c 4 t) (Host.iblk m c 5 t) (Host.iblk m c 6 t)
  Φ _ := Pipeline.ΦA spec0 c
  q _ := fullShare
  owed _ := 0

theorem A_eq (c : Dev nD) (w : Fin cfg0.W) : (dats m 0 c).A w = Host.V m c (Pipeline.arrRef spec0 w) := by
  dsimp only [dats]

theorem after_0 (c : Dev nD) (t : Fin cfg0.N) : (dats m 0 c).after 0 t = Host.iblk m c 0 t := by dsimp only [dats]
theorem after_1 (c : Dev nD) (t : Fin cfg0.N) : (dats m 0 c).after 1 t = Host.iblk m c 1 t := by dsimp only [dats]
theorem after_2 (c : Dev nD) (t : Fin cfg0.N) : (dats m 0 c).after 2 t = Host.iblk m c 2 t := by dsimp only [dats]
theorem after_3 (c : Dev nD) (t : Fin cfg0.N) : (dats m 0 c).after 3 t = Host.iblk m c 3 t := by dsimp only [dats]
theorem after_4 (c : Dev nD) (t : Fin cfg0.N) : (dats m 0 c).after 4 t = Host.iblk m c 4 t := by dsimp only [dats]
theorem after_5 (c : Dev nD) (t : Fin cfg0.N) : (dats m 0 c).after 5 t = Host.iblk m c 5 t := by dsimp only [dats]
theorem after_6 (c : Dev nD) (t : Fin cfg0.N) : (dats m 0 c).after 6 t = Host.iblk m c 6 t := by dsimp only [dats]
theorem after_7 (c : Dev nD) (t : Fin cfg0.N) : (dats m 0 c).after 7 t = posBlock (Host.iblk m c 0 t) (Host.iblk m c 1 t) (Host.iblk m c 2 t) (Host.iblk m c 3 t) (Host.iblk m c 4 t) (Host.iblk m c 5 t) (Host.iblk m c 6 t) := by dsimp only [dats]
theorem after_8 (c : Dev nD) (t : Fin cfg0.N) : (dats m 0 c).after 8 t = featBlock (Host.iblk m c 0 t) (Host.iblk m c 1 t) (Host.iblk m c 2 t) (Host.iblk m c 3 t) (Host.iblk m c 4 t) (Host.iblk m c 5 t) (Host.iblk m c 6 t) := by dsimp only [dats]

/-! An input's staging buffer holds its block whenever the body runs, fetched at that point or not. -/
theorem before_0_of {c : Dev nD} (dat : Dat τ (Elt F) Unit ℕ (UR sig nD τ) ℕ cfg0 c) (hA : dat.A 0 = Host.V m c (Pipeline.arrRef spec0 0))
    (hafter : ∀ t, dat.after 0 t = Host.iblk m c 0 t) (t : Fin cfg0.N) (d) : dat.before 0 t d = Host.iblk m c 0 t :=
  (dat.before_in_eq_fetched 0 rfl (fun _ => rfl) (fun _ _ _ => rfl) (fun t => by rw [hafter]; unfold Dat.blockOf Host.iblk; rw [hA]; try rfl) t d).trans
    (by unfold Dat.fetched Dat.blockOf Host.iblk; rw [hA]; try rfl)
theorem before_1_of {c : Dev nD} (dat : Dat τ (Elt F) Unit ℕ (UR sig nD τ) ℕ cfg0 c) (hA : dat.A 1 = Host.V m c (Pipeline.arrRef spec0 1))
    (hafter : ∀ t, dat.after 1 t = Host.iblk m c 1 t) (t : Fin cfg0.N) (d) : dat.before 1 t d = Host.iblk m c 1 t :=
  (dat.before_in_eq_fetched 1 rfl (fun _ => rfl) (fun _ _ _ => rfl) (fun t => by rw [hafter]; unfold Dat.blockOf Host.iblk; rw [hA]; try rfl) t d).trans
    (by unfold Dat.fetched Dat.blockOf Host.iblk; rw [hA]; try rfl)
theorem before_2_of {c : Dev nD} (dat : Dat τ (Elt F) Unit ℕ (UR sig nD τ) ℕ cfg0 c) (hA : dat.A 2 = Host.V m c (Pipeline.arrRef spec0 2))
    (hafter : ∀ t, dat.after 2 t = Host.iblk m c 2 t) (t : Fin cfg0.N) (d) : dat.before 2 t d = Host.iblk m c 2 t :=
  (dat.before_in_eq_fetched 2 rfl (fun _ => rfl) (fun _ _ _ => rfl) (fun t => by rw [hafter]; unfold Dat.blockOf Host.iblk; rw [hA]; try rfl) t d).trans
    (by unfold Dat.fetched Dat.blockOf Host.iblk; rw [hA]; try rfl)
theorem before_3_of {c : Dev nD} (dat : Dat τ (Elt F) Unit ℕ (UR sig nD τ) ℕ cfg0 c) (hA : dat.A 3 = Host.V m c (Pipeline.arrRef spec0 3))
    (hafter : ∀ t, dat.after 3 t = Host.iblk m c 3 t) (t : Fin cfg0.N) (d) : dat.before 3 t d = Host.iblk m c 3 t :=
  (dat.before_in_eq_fetched 3 rfl (fun _ => rfl) (fun _ _ _ => rfl) (fun t => by rw [hafter]; unfold Dat.blockOf Host.iblk; rw [hA]; try rfl) t d).trans
    (by unfold Dat.fetched Dat.blockOf Host.iblk; rw [hA]; try rfl)
theorem before_4_of {c : Dev nD} (dat : Dat τ (Elt F) Unit ℕ (UR sig nD τ) ℕ cfg0 c) (hA : dat.A 4 = Host.V m c (Pipeline.arrRef spec0 4))
    (hafter : ∀ t, dat.after 4 t = Host.iblk m c 4 t) (t : Fin cfg0.N) (d) : dat.before 4 t d = Host.iblk m c 4 t :=
  (dat.before_in_eq_fetched 4 rfl (fun _ => rfl) (fun _ _ _ => rfl) (fun t => by rw [hafter]; unfold Dat.blockOf Host.iblk; rw [hA]; try rfl) t d).trans
    (by unfold Dat.fetched Dat.blockOf Host.iblk; rw [hA]; try rfl)
theorem before_5_of {c : Dev nD} (dat : Dat τ (Elt F) Unit ℕ (UR sig nD τ) ℕ cfg0 c) (hA : dat.A 5 = Host.V m c (Pipeline.arrRef spec0 5))
    (hafter : ∀ t, dat.after 5 t = Host.iblk m c 5 t) (t : Fin cfg0.N) (d) : dat.before 5 t d = Host.iblk m c 5 t :=
  (dat.before_in_eq_fetched 5 rfl (fun _ => rfl) (fun _ _ _ => rfl) (fun t => by rw [hafter]; unfold Dat.blockOf Host.iblk; rw [hA]; try rfl) t d).trans
    (by unfold Dat.fetched Dat.blockOf Host.iblk; rw [hA]; try rfl)
theorem before_6_of {c : Dev nD} (dat : Dat τ (Elt F) Unit ℕ (UR sig nD τ) ℕ cfg0 c) (hA : dat.A 6 = Host.V m c (Pipeline.arrRef spec0 6))
    (hafter : ∀ t, dat.after 6 t = Host.iblk m c 6 t) (t : Fin cfg0.N) (d) : dat.before 6 t d = Host.iblk m c 6 t :=
  (dat.before_in_eq_fetched 6 rfl (fun _ => rfl) (fun _ _ _ => rfl) (fun t => by rw [hafter]; unfold Dat.blockOf Host.iblk; rw [hA]; try rfl) t d).trans
    (by unfold Dat.fetched Dat.blockOf Host.iblk; rw [hA]; try rfl)

theorem before_0 (c : Dev nD) (t : Fin cfg0.N) (d) : (dats m 0 c).before 0 t d = Host.iblk m c 0 t :=
  before_0_of m (dats m 0 c) (A_eq m c 0) (after_0 m c) t d
theorem before_1 (c : Dev nD) (t : Fin cfg0.N) (d) : (dats m 0 c).before 1 t d = Host.iblk m c 1 t :=
  before_1_of m (dats m 0 c) (A_eq m c 1) (after_1 m c) t d
theorem before_2 (c : Dev nD) (t : Fin cfg0.N) (d) : (dats m 0 c).before 2 t d = Host.iblk m c 2 t :=
  before_2_of m (dats m 0 c) (A_eq m c 2) (after_2 m c) t d
theorem before_3 (c : Dev nD) (t : Fin cfg0.N) (d) : (dats m 0 c).before 3 t d = Host.iblk m c 3 t :=
  before_3_of m (dats m 0 c) (A_eq m c 3) (after_3 m c) t d
theorem before_4 (c : Dev nD) (t : Fin cfg0.N) (d) : (dats m 0 c).before 4 t d = Host.iblk m c 4 t :=
  before_4_of m (dats m 0 c) (A_eq m c 4) (after_4 m c) t d
theorem before_5 (c : Dev nD) (t : Fin cfg0.N) (d) : (dats m 0 c).before 5 t d = Host.iblk m c 5 t :=
  before_5_of m (dats m 0 c) (A_eq m c 5) (after_5 m c) t d
theorem before_6 (c : Dev nD) (t : Fin cfg0.N) (d) : (dats m 0 c).before 6 t d = Host.iblk m c 6 t :=
  before_6_of m (dats m 0 c) (A_eq m c 6) (after_6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (Host.iblk m c 0 t) (Host.iblk m c 1 t) (Host.iblk m c 2 t) (Host.iblk m c 3 t) (Host.iblk m c 4 t) (Host.iblk m c 5 t) (Host.iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; each array of the pipeline ends at what the
    proof data's blocks wrote into it, every other buffer at what the later host operations leave. -/
theorem run_main : θ_run defs (onTc (τ := τ) (main (F := F))) (s₀ m ρ)
    (Pipeline.FramePost cfgs (dats m) 0 (Pipeline.afterTail₀ cfgs (dats m) 0 (Host.V0 m) (Host.tailOps (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := Host.V0 m) (opss := Host.tailOps) (hsub := Host.tail_sub) (hfresh := Host.tail_fresh) (hkeep := Host.tail_keeps)
    (hmain := Host.hmain m Variants.none) (hA := A_eq m) (hΦ := fun _ _ => rfl)

/-- The argument arrays end as they started: the one the pipeline stages (the face features) because an input array is
    never written back, the others because no host operation writes them and they bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (Host.W_main_arg0 m (dats m) c),
     (((h c).1 1).trans ((dats m 0 c).arrAt_in 1 rfl _)).trans ((A_eq m c 1).trans (Host.V_main_arg1 m c)),
     ((h c).2 main_arg2 (Pipeline.mem_restRefs_of main_arg2 (by decide) (by decide))).trans (Host.W_main_arg2 m (dats m) c),
     ((h c).2 main_arg3 (Pipeline.mem_restRefs_of main_arg3 (by decide) (by decide))).trans (Host.W_main_arg3 m (dats m) c),
     ((h c).2 main_arg4 (Pipeline.mem_restRefs_of main_arg4 (by decide) (by decide))).trans (Host.W_main_arg4 m (dats m) c),
     ((h c).2 main_arg5 (Pipeline.mem_restRefs_of main_arg5 (by decide) (by decide))).trans (Host.W_main_arg5 m (dats m) c),
     ((h c).2 main_arg6 (Pipeline.mem_restRefs_of main_arg6 (by decide) (by decide))).trans (Host.W_main_arg6 m (dats m) c)⟩)
    (run_main m ρ)

end Cert.Kernel.Run

end
-- ==== Proof.KernelIdealHost.lean ====
/-
  The host side of `KernelIdeal`'s run: @main is a stretch of host operations (the three gathers of corner positions, the six
  edge differences joined into 18 columns, the weight slices and the block-diagonal weight), ONE kernel region over the
  fifty blocks of 4000 faces, and three more stretches (the scatter of the per-corner position updates onto the nodes,
  the count clipped below by one, the quotient and the new positions).

  Stated here, at any float instance: what every buffer holds when the region is entered (`V`: the fold of the first
  stretch over the initial memory); that @main reduces to the region continued by the later stretches; that those
  later stretches touch only buffers they may, allocate nothing and write no array of the pipeline; that no host
  operation writes an argument array; and each window's block at a grid point, which an input window's staging buffer
  holds whenever the body runs there, whether or not the pipeline fetched it at that very point.
-/
import proofs.«142834_j6528350290204_2_alg».proof.Proof.Gen.KernelIdeal.Launch
import proofs.«142834_j6528350290204_2_alg».proof.Proof.Gen.KernelIdeal.Skeleton
import proofs.«142834_j6528350290204_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Host

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- Core `c`'s buffer contents when the region is entered: the first stretch of host operations folded over the
    initial memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The three stretches after the region, in order. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the first stretch, the region, and the later stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later stretches touch the pipeline's arrays and the buffers that bypass the region only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No operation of the stretch right after the region writes an array of the pipeline: each writes its own result
    buffer, which is none of the nine. -/
theorem keeps1 : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.reshape_writes, StableHlo.nary_writes, Finset.mem_singleton]
  repeat' apply And.intro
  all_goals intro w; fin_cases w <;> exact StableHlo.devRef_ne_of_ne (by decide)
theorem keeps1_1 : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.reshape_writes, StableHlo.nary_writes, Finset.mem_singleton]
  repeat' apply And.intro
  all_goals intro w; fin_cases w <;> exact StableHlo.devRef_ne_of_ne (by decide)
theorem keeps1_2 : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.reshape_writes, StableHlo.nary_writes, Finset.mem_singleton]
  repeat' apply And.intro
  all_goals intro w; fin_cases w <;> exact StableHlo.devRef_ne_of_ne (by decide)

/-- So the later stretches keep the pipeline's arrays. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl
  · exact (List.forall_iff_forall_mem.mp keeps1) op hop
  · exact (List.forall_iff_forall_mem.mp keeps1_1) op hop
  · exact (List.forall_iff_forall_mem.mp keeps1_2) op hop

/-! ## The argument arrays are written by no host operation -/

/-- No operation before the region writes argument 0: the region finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the region writes argument 1: the region finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the region writes argument 2: the region finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the region writes argument 3: the region finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the region writes argument 4: the region finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the region writes argument 5: the region finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the region writes argument 6: the region finds it as it was at the start. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation after the region writes argument 0, and it is no array of the pipeline: it ends as it started. -/
theorem W_main_arg0 (dats : (p : Fin 1) → (c : Dev nD) → Dat τ (Elt F) Unit ℕ (UR sig nD τ) ℕ (cfgs p) c) (c : Dev nD) :
    Pipeline.afterTail₀ cfgs dats 0 (V0 m) (tailOps (F := F)) c main_arg0 = m ((c : Thread nD τ).loc main_arg0) := by
  unfold Pipeline.afterTail₀ tailOps
  rw [StableHlo.after_of_forall_not_mem (b := Proc.devRef .tc main_arg0) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No operation after the region writes argument 2, and it is no array of the pipeline: it ends as it started. -/
theorem W_main_arg2 (dats : (p : Fin 1) → (c : Dev nD) → Dat τ (Elt F) Unit ℕ (UR sig nD τ) ℕ (cfgs p) c) (c : Dev nD) :
    Pipeline.afterTail₀ cfgs dats 0 (V0 m) (tailOps (F := F)) c main_arg2 = m ((c : Thread nD τ).loc main_arg2) := by
  unfold Pipeline.afterTail₀ tailOps
  rw [StableHlo.after_of_forall_not_mem (b := Proc.devRef .tc main_arg2) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation after the region writes argument 3, and it is no array of the pipeline: it ends as it started. -/
theorem W_main_arg3 (dats : (p : Fin 1) → (c : Dev nD) → Dat τ (Elt F) Unit ℕ (UR sig nD τ) ℕ (cfgs p) c) (c : Dev nD) :
    Pipeline.afterTail₀ cfgs dats 0 (V0 m) (tailOps (F := F)) c main_arg3 = m ((c : Thread nD τ).loc main_arg3) := by
  unfold Pipeline.afterTail₀ tailOps
  rw [StableHlo.after_of_forall_not_mem (b := Proc.devRef .tc main_arg3) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation after the region writes argument 4, and it is no array of the pipeline: it ends as it started. -/
theorem W_main_arg4 (dats : (p : Fin 1) → (c : Dev nD) → Dat τ (Elt F) Unit ℕ (UR sig nD τ) ℕ (cfgs p) c) (c : Dev nD) :
    Pipeline.afterTail₀ cfgs dats 0 (V0 m) (tailOps (F := F)) c main_arg4 = m ((c : Thread nD τ).loc main_arg4) := by
  unfold Pipeline.afterTail₀ tailOps
  rw [StableHlo.after_of_forall_not_mem (b := Proc.devRef .tc main_arg4) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No operation after the region writes argument 5, and it is no array of the pipeline: it ends as it started. -/
theorem W_main_arg5 (dats : (p : Fin 1) → (c : Dev nD) → Dat τ (Elt F) Unit ℕ (UR sig nD τ) ℕ (cfgs p) c) (c : Dev nD) :
    Pipeline.afterTail₀ cfgs dats 0 (V0 m) (tailOps (F := F)) c main_arg5 = m ((c : Thread nD τ).loc main_arg5) := by
  unfold Pipeline.afterTail₀ tailOps
  rw [StableHlo.after_of_forall_not_mem (b := Proc.devRef .tc main_arg5) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No operation after the region writes argument 6, and it is no array of the pipeline: it ends as it started. -/
theorem W_main_arg6 (dats : (p : Fin 1) → (c : Dev nD) → Dat τ (Elt F) Unit ℕ (UR sig nD τ) ℕ (cfgs p) c) (c : Dev nD) :
    Pipeline.afterTail₀ cfgs dats 0 (V0 m) (tailOps (F := F)) c main_arg6 = m ((c : Thread nD τ).loc main_arg6) := by
  unfold Pipeline.afterTail₀ tailOps
  rw [StableHlo.after_of_forall_not_mem (b := Proc.devRef .tc main_arg6) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Host

end
-- ==== Proof.KernelIdealRun.lean ====
/-
  `KernelIdeal`'s kernel body and the run of @main around it, at any float instance.

  At a grid point the body reads seven whole blocks — the 4000 × 18 edge columns, the 4000 × 128 face features, the
  18 × 384 block-diagonal weight, the 128 × 128 feature weight, the two bias rows and the 128 × 32 output weight — and
  writes two whole blocks: 4000 × 9 (three position updates per face, one per corner) and 4000 × 29 (the mean of
  the three corners' feature outputs). What it writes is named here as a function of what it read (`posBlock`,
  `featBlock`: the generated payloads at the loaded blocks); the body's triple says the inputs' buffers are left as
  they were and the outputs' hold those two values; the proof data says so at every point; and the run of @main
  follows: every weakly fair execution terminates without a fault, each array of the pipeline ends at what its
  blocks wrote and every other buffer at what the later host operations leave. The argument arrays end unchanged.
-/
import proofs.«142834_j6528350290204_2_alg».proof.Proof.KernelIdealHost

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and store is of a whole block -/

abbrev r0 : Rect S4000x18 := Rect.unit (s := S4000x18) ![0, 0] S4000x18.size inb_S4000x18_S4000x18_0_0
abbrev r1 : Rect S4000x128 := Rect.unit (s := S4000x128) ![0, 0] S4000x128.size inb_S4000x128_S4000x128_0_0
abbrev r2 : Rect S18x384 := Rect.unit (s := S18x384) ![0, 0] S18x384.size inb_S18x384_S18x384_0_0
abbrev r3 : Rect S128x128 := Rect.unit (s := S128x128) ![0, 0] S128x128.size inb_S128x128_S128x128_0_0
abbrev r4 : Rect S1x128 := Rect.unit (s := S1x128) ![0, 0] S1x128.size inb_S1x128_S1x128_0_0
abbrev r5 : Rect S128x32 := Rect.unit (s := S128x32) ![0, 0] S128x32.size inb_S128x32_S128x32_0_0
abbrev r6 : Rect S1x32 := Rect.unit (s := S1x32) ![0, 0] S1x32.size inb_S1x32_S1x32_0_0
abbrev r7 : Rect S4000x9 := Rect.unit (s := S4000x9) ![0, 0] S4000x9.size inb_S4000x9_S4000x9_0_0
abbrev r8 : Rect S4000x29 := Rect.unit (s := S4000x29) ![0, 0] S4000x29.size inb_S4000x29_S4000x29_0_0

/-! ## What the body leaves in the two output blocks -/

/-- The 4000 × 9 block after the body: its one store, of the three corners' first three outputs side by side. -/
def posBlock (x0 : Vec F S4000x18 .bf16) (x1 : Vec F S4000x128 .f32) (x2 : Vec F S18x384 .bf16) (x3 : Vec F S128x128 .bf16) (x4 : Vec F S1x128 .f32) (x5 : Vec F S128x32 .bf16) (x6 : Vec F S1x32 .f32) : Vec F S4000x9 .f32 :=
  View.canon [⟨r7, k0_pay3 (k0_pay5 (View.ld x1 r1) (View.ld x3 r3)) (k0_pay6 (View.ld x4 r4)) (k0_pay7 (View.ld x5 r5)) (k0_pay8 (View.ld x6 r6)) (k0_pay9 (View.ld x0 r0) (View.ld x2 r2)) (k0_pay11 (View.ld x1 r1) (View.ld x3 r3) (View.ld x4 r4) (View.ld x5 r5) (View.ld x6 r6) (View.ld x0 r0) (View.ld x2 r2)) (k0_pay13 (View.ld x1 r1) (View.ld x3 r3) (View.ld x4 r4) (View.ld x5 r5) (View.ld x0 r0) (View.ld x2 r2))⟩]

/-- The 4000 × 29 block after the body: its one store, of the mean of the three corners' last 29 outputs. -/
def featBlock (x0 : Vec F S4000x18 .bf16) (x1 : Vec F S4000x128 .f32) (x2 : Vec F S18x384 .bf16) (x3 : Vec F S128x128 .bf16) (x4 : Vec F S1x128 .f32) (x5 : Vec F S128x32 .bf16) (x6 : Vec F S1x32 .f32) : Vec F S4000x29 .f32 :=
  View.canon [⟨r8, k0_pay4 (k0_pay5 (View.ld x1 r1) (View.ld x3 r3)) (k0_pay6 (View.ld x4 r4)) (k0_pay7 (View.ld x5 r5)) (k0_pay8 (View.ld x6 r6)) (k0_pay9 (View.ld x0 r0) (View.ld x2 r2)) (k0_pay12 (View.ld x1 r1) (View.ld x3 r3) (View.ld x4 r4) (View.ld x5 r5) (View.ld x6 r6) (View.ld x0 r0) (View.ld x2 r2)) (k0_pay13 (View.ld x1 r1) (View.ld x3 r3) (View.ld x4 r4) (View.ld x5 r5) (View.ld x0 r0) (View.ld x2 r2))⟩]

/-- A store of the whole block covers it. -/
theorem coverPos (p : Vec F S4000x9 .f32) (y : S4000x9.Idx) :
    ∃ pc ∈ ([⟨r7, p⟩] : List (View.Piece (Elt F) S4000x9 .f32)), y ∈ pc.1.set :=
  View.cover_of_tiled [⟨r7, p⟩] S4000x9.size (by rfl) y
theorem coverFeat (p : Vec F S4000x29 .f32) (y : S4000x29.Idx) :
    ∃ pc ∈ ([⟨r8, p⟩] : List (View.Piece (Elt F) S4000x29 .f32)), y ∈ pc.1.set :=
  View.cover_of_tiled [⟨r8, p⟩] S4000x29.size (by rfl) y

/-! ## The body's triple -/

set_option maxHeartbeats 4000000 in
/-- On whole staging buffers, the seven inputs' at read contents and the two outputs' at anything, the body runs to
    its continuation with the inputs' as they were and the outputs' at `posBlock` and `featBlock` of the inputs'. -/
theorem sound_kernel (c : Dev nD) (E : Set ℕ) (i : grid0.Coords) (arg1 : Memref sig .tc .vmem S4000x18 .bf16) (harg1 : arg1.IsWhole) (arg2 : Memref sig .tc .vmem S4000x128 .f32) (harg2 : arg2.IsWhole) (arg3 : Memref sig .tc .vmem S18x384 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x32 .bf16) (harg6 : arg6.IsWhole) (arg7 : Memref sig .tc .vmem S1x32 .f32) (harg7 : arg7.IsWhole) (arg8 : Memref sig .tc .vmem S4000x9 .f32) (harg8 : arg8.IsWhole) (arg9 : Memref sig .tc .vmem S4000x29 .f32) (harg9 : arg9.IsWhole)
    (x0 : Vec F S4000x18 .bf16) (x1 : Vec F S4000x128 .f32) (x2 : Vec F S18x384 .bf16) (x3 : Vec F S128x128 .bf16) (x4 : Vec F S1x128 .f32) (x5 : Vec F S128x32 .bf16) (x6 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (posBlock x0 x1 x2 x3 x4 x5 x6) ∗ owns (c : Thread nD τ) arg9 fullShare (featBlock x0 x1 x2 x3 x4 x5 x6)) -∗ K ⟨⟩))
      ⊢ wp frame (wpE (defs₀ (F := F)) Variants.none c none) E (cc0__face2node_kernel i arg1 harg1 arg2 harg2 arg3 harg3 arg4 harg4 arg5 harg5 arg6 harg6 arg7 harg7 arg8 harg8 arg9 harg9) K := by
  simp only [cc0__face2node_kernel_eq_skeleton]; unfold cc0__face2node_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverPos _)
  iexists _; isplitr
  swap; · iexact H8
  ipureintro
  exact View.read_writes_eq_canon _ _ _ (coverFeat _)

/-! ## The pipeline's proof data -/

/-- On core `c`: the arrays as the region finds them; after the body at point `t` each input's buffer at its block
    and the two outputs' at `posBlock` / `featBlock` of the input blocks; nothing else kept, nothing owed. -/
def dats (_ : Fin 1) (c : Dev nD) : Dat τ (Elt F) Unit ℕ (UR sig nD τ) ℕ cfg0 c where
  A w := Host.V m c (Pipeline.arrRef spec0 w)
  after w t := match w with
    | ⟨0, _⟩ => Host.iblk m c 0 t
    | ⟨1, _⟩ => Host.iblk m c 1 t
    | ⟨2, _⟩ => Host.iblk m c 2 t
    | ⟨3, _⟩ => Host.iblk m c 3 t
    | ⟨4, _⟩ => Host.iblk m c 4 t
    | ⟨5, _⟩ => Host.iblk m c 5 t
    | ⟨6, _⟩ => Host.iblk m c 6 t
    | ⟨7, _⟩ => posBlock (Host.iblk m c 0 t) (Host.iblk m c 1 t) (Host.iblk m c 2 t) (Host.iblk m c 3 t) (Host.iblk m c 4 t) (Host.iblk m c 5 t) (Host.iblk m c 6 t)
    | ⟨8, _⟩ => featBlock (Host.iblk m c 0 t) (Host.iblk m c 1 t) (Host.iblk m c 2 t) (Host.iblk m c 3 t) (Host.iblk m c 4 t) (Host.iblk m c 5 t) (Host.iblk m c 6 t)
  Φ _ := Pipeline.ΦA spec0 c
  q _ := fullShare
  owed _ := 0

theorem A_eq (c : Dev nD) (w : Fin cfg0.W) : (dats m 0 c).A w = Host.V m c (Pipeline.arrRef spec0 w) := by
  dsimp only [dats]

theorem after_0 (c : Dev nD) (t : Fin cfg0.N) : (dats m 0 c).after 0 t = Host.iblk m c 0 t := by dsimp only [dats]
theorem after_1 (c : Dev nD) (t : Fin cfg0.N) : (dats m 0 c).after 1 t = Host.iblk m c 1 t := by dsimp only [dats]
theorem after_2 (c : Dev nD) (t : Fin cfg0.N) : (dats m 0 c).after 2 t = Host.iblk m c 2 t := by dsimp only [dats]
theorem after_3 (c : Dev nD) (t : Fin cfg0.N) : (dats m 0 c).after 3 t = Host.iblk m c 3 t := by dsimp only [dats]
theorem after_4 (c : Dev nD) (t : Fin cfg0.N) : (dats m 0 c).after 4 t = Host.iblk m c 4 t := by dsimp only [dats]
theorem after_5 (c : Dev nD) (t : Fin cfg0.N) : (dats m 0 c).after 5 t = Host.iblk m c 5 t := by dsimp only [dats]
theorem after_6 (c : Dev nD) (t : Fin cfg0.N) : (dats m 0 c).after 6 t = Host.iblk m c 6 t := by dsimp only [dats]
theorem after_7 (c : Dev nD) (t : Fin cfg0.N) : (dats m 0 c).after 7 t = posBlock (Host.iblk m c 0 t) (Host.iblk m c 1 t) (Host.iblk m c 2 t) (Host.iblk m c 3 t) (Host.iblk m c 4 t) (Host.iblk m c 5 t) (Host.iblk m c 6 t) := by dsimp only [dats]
theorem after_8 (c : Dev nD) (t : Fin cfg0.N) : (dats m 0 c).after 8 t = featBlock (Host.iblk m c 0 t) (Host.iblk m c 1 t) (Host.iblk m c 2 t) (Host.iblk m c 3 t) (Host.iblk m c 4 t) (Host.iblk m c 5 t) (Host.iblk m c 6 t) := by dsimp only [dats]

/-! An input's staging buffer holds its block whenever the body runs, fetched at that point or not. -/
theorem before_0_of {c : Dev nD} (dat : Dat τ (Elt F) Unit ℕ (UR sig nD τ) ℕ cfg0 c) (hA : dat.A 0 = Host.V m c (Pipeline.arrRef spec0 0))
    (hafter : ∀ t, dat.after 0 t = Host.iblk m c 0 t) (t : Fin cfg0.N) (d) : dat.before 0 t d = Host.iblk m c 0 t :=
  (dat.before_in_eq_fetched 0 rfl (fun _ => rfl) (fun _ _ _ => rfl) (fun t => by rw [hafter]; unfold Dat.blockOf Host.iblk; rw [hA]; try rfl) t d).trans
    (by unfold Dat.fetched Dat.blockOf Host.iblk; rw [hA]; try rfl)
theorem before_1_of {c : Dev nD} (dat : Dat τ (Elt F) Unit ℕ (UR sig nD τ) ℕ cfg0 c) (hA : dat.A 1 = Host.V m c (Pipeline.arrRef spec0 1))
    (hafter : ∀ t, dat.after 1 t = Host.iblk m c 1 t) (t : Fin cfg0.N) (d) : dat.before 1 t d = Host.iblk m c 1 t :=
  (dat.before_in_eq_fetched 1 rfl (fun _ => rfl) (fun _ _ _ => rfl) (fun t => by rw [hafter]; unfold Dat.blockOf Host.iblk; rw [hA]; try rfl) t d).trans
    (by unfold Dat.fetched Dat.blockOf Host.iblk; rw [hA]; try rfl)
theorem before_2_of {c : Dev nD} (dat : Dat τ (Elt F) Unit ℕ (UR sig nD τ) ℕ cfg0 c) (hA : dat.A 2 = Host.V m c (Pipeline.arrRef spec0 2))
    (hafter : ∀ t, dat.after 2 t = Host.iblk m c 2 t) (t : Fin cfg0.N) (d) : dat.before 2 t d = Host.iblk m c 2 t :=
  (dat.before_in_eq_fetched 2 rfl (fun _ => rfl) (fun _ _ _ => rfl) (fun t => by rw [hafter]; unfold Dat.blockOf Host.iblk; rw [hA]; try rfl) t d).trans
    (by unfold Dat.fetched Dat.blockOf Host.iblk; rw [hA]; try rfl)
theorem before_3_of {c : Dev nD} (dat : Dat τ (Elt F) Unit ℕ (UR sig nD τ) ℕ cfg0 c) (hA : dat.A 3 = Host.V m c (Pipeline.arrRef spec0 3))
    (hafter : ∀ t, dat.after 3 t = Host.iblk m c 3 t) (t : Fin cfg0.N) (d) : dat.before 3 t d = Host.iblk m c 3 t :=
  (dat.before_in_eq_fetched 3 rfl (fun _ => rfl) (fun _ _ _ => rfl) (fun t => by rw [hafter]; unfold Dat.blockOf Host.iblk; rw [hA]; try rfl) t d).trans
    (by unfold Dat.fetched Dat.blockOf Host.iblk; rw [hA]; try rfl)
theorem before_4_of {c : Dev nD} (dat : Dat τ (Elt F) Unit ℕ (UR sig nD τ) ℕ cfg0 c) (hA : dat.A 4 = Host.V m c (Pipeline.arrRef spec0 4))
    (hafter : ∀ t, dat.after 4 t = Host.iblk m c 4 t) (t : Fin cfg0.N) (d) : dat.before 4 t d = Host.iblk m c 4 t :=
  (dat.before_in_eq_fetched 4 rfl (fun _ => rfl) (fun _ _ _ => rfl) (fun t => by rw [hafter]; unfold Dat.blockOf Host.iblk; rw [hA]; try rfl) t d).trans
    (by unfold Dat.fetched Dat.blockOf Host.iblk; rw [hA]; try rfl)
theorem before_5_of {c : Dev nD} (dat : Dat τ (Elt F) Unit ℕ (UR sig nD τ) ℕ cfg0 c) (hA : dat.A 5 = Host.V m c (Pipeline.arrRef spec0 5))
    (hafter : ∀ t, dat.after 5 t = Host.iblk m c 5 t) (t : Fin cfg0.N) (d) : dat.before 5 t d = Host.iblk m c 5 t :=
  (dat.before_in_eq_fetched 5 rfl (fun _ => rfl) (fun _ _ _ => rfl) (fun t => by rw [hafter]; unfold Dat.blockOf Host.iblk; rw [hA]; try rfl) t d).trans
    (by unfold Dat.fetched Dat.blockOf Host.iblk; rw [hA]; try rfl)
theorem before_6_of {c : Dev nD} (dat : Dat τ (Elt F) Unit ℕ (UR sig nD τ) ℕ cfg0 c) (hA : dat.A 6 = Host.V m c (Pipeline.arrRef spec0 6))
    (hafter : ∀ t, dat.after 6 t = Host.iblk m c 6 t) (t : Fin cfg0.N) (d) : dat.before 6 t d = Host.iblk m c 6 t :=
  (dat.before_in_eq_fetched 6 rfl (fun _ => rfl) (fun _ _ _ => rfl) (fun t => by rw [hafter]; unfold Dat.blockOf Host.iblk; rw [hA]; try rfl) t d).trans
    (by unfold Dat.fetched Dat.blockOf Host.iblk; rw [hA]; try rfl)

theorem before_0 (c : Dev nD) (t : Fin cfg0.N) (d) : (dats m 0 c).before 0 t d = Host.iblk m c 0 t :=
  before_0_of m (dats m 0 c) (A_eq m c 0) (after_0 m c) t d
theorem before_1 (c : Dev nD) (t : Fin cfg0.N) (d) : (dats m 0 c).before 1 t d = Host.iblk m c 1 t :=
  before_1_of m (dats m 0 c) (A_eq m c 1) (after_1 m c) t d
theorem before_2 (c : Dev nD) (t : Fin cfg0.N) (d) : (dats m 0 c).before 2 t d = Host.iblk m c 2 t :=
  before_2_of m (dats m 0 c) (A_eq m c 2) (after_2 m c) t d
theorem before_3 (c : Dev nD) (t : Fin cfg0.N) (d) : (dats m 0 c).before 3 t d = Host.iblk m c 3 t :=
  before_3_of m (dats m 0 c) (A_eq m c 3) (after_3 m c) t d
theorem before_4 (c : Dev nD) (t : Fin cfg0.N) (d) : (dats m 0 c).before 4 t d = Host.iblk m c 4 t :=
  before_4_of m (dats m 0 c) (A_eq m c 4) (after_4 m c) t d
theorem before_5 (c : Dev nD) (t : Fin cfg0.N) (d) : (dats m 0 c).before 5 t d = Host.iblk m c 5 t :=
  before_5_of m (dats m 0 c) (A_eq m c 5) (after_5 m c) t d
theorem before_6 (c : Dev nD) (t : Fin cfg0.N) (d) : (dats m 0 c).before 6 t d = Host.iblk m c 6 t :=
  before_6_of m (dats m 0 c) (A_eq m c 6) (after_6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (Host.iblk m c 0 t) (Host.iblk m c 1 t) (Host.iblk m c 2 t) (Host.iblk m c 3 t) (Host.iblk m c 4 t) (Host.iblk m c 5 t) (Host.iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; each array of the pipeline ends at what the
    proof data's blocks wrote into it, every other buffer at what the later host operations leave. -/
theorem run_main : θ_run defs (onTc (τ := τ) (main (F := F))) (s₀ m ρ)
    (Pipeline.FramePost cfgs (dats m) 0 (Pipeline.afterTail₀ cfgs (dats m) 0 (Host.V0 m) (Host.tailOps (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := Host.V0 m) (opss := Host.tailOps) (hsub := Host.tail_sub) (hfresh := Host.tail_fresh) (hkeep := Host.tail_keeps)
    (hmain := Host.hmain m Variants.none) (hA := A_eq m) (hΦ := fun _ _ => rfl)

/-- The argument arrays end as they started: the one the pipeline stages (the face features) because an input array is
    never written back, the others because no host operation writes them and they bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (Host.W_main_arg0 m (dats m) c),
     (((h c).1 1).trans ((dats m 0 c).arrAt_in 1 rfl _)).trans ((A_eq m c 1).trans (Host.V_main_arg1 m c)),
     ((h c).2 main_arg2 (Pipeline.mem_restRefs_of main_arg2 (by decide) (by decide))).trans (Host.W_main_arg2 m (dats m) c),
     ((h c).2 main_arg3 (Pipeline.mem_restRefs_of main_arg3 (by decide) (by decide))).trans (Host.W_main_arg3 m (dats m) c),
     ((h c).2 main_arg4 (Pipeline.mem_restRefs_of main_arg4 (by decide) (by decide))).trans (Host.W_main_arg4 m (dats m) c),
     ((h c).2 main_arg5 (Pipeline.mem_restRefs_of main_arg5 (by decide) (by decide))).trans (Host.W_main_arg5 m (dats m) c),
     ((h c).2 main_arg6 (Pipeline.mem_restRefs_of main_arg6 (by decide) (by decide))).trans (Host.W_main_arg6 m (dats m) c)⟩)
    (run_main m ρ)

end Cert.KernelIdeal.Run

end
-- ==== Proof.KernelIdealBlocks.lean ====
/-
  From blocks to arrays. The grid has fifty points; point `t` owns rows `4000 t … 4000 t + 3999` of the two
  output arrays (and of the two row-blocked inputs, the edge columns and the face features), and sees the other five
  inputs whole. So each output array, after the run, is at row `f` what the body wrote at point `f / 4000`, row
  `f % 4000` of its block: the blocks are disjoint and together cover the array.
-/
import proofs.«142834_j6528350290204_2_alg».proof.Proof.KernelIdealRun
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Run
open Idealize.ShloMosaic Idealize.ShloMosaic.TcCoe Idealize.ShloMosaic.ValueIdx Idealize.SL.Sem
open Idealize.ShloMosaic.Pipeline (Dat)

variable {F : FTy → Type} [FloatOps F]

variable (m : (ℓ : Loc nD τ sig) → Buf (Elt F) ℓ)

/-- The printed index maps over the grid: the row-blocked windows sit at block row `t`, block column 0; the whole
    windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The point that owns row `f`. -/
def owner (f : Fin 200000) : Fin cfg0.N := ⟨f.val / 4000, by have h := f.isLt; have hN : cfg0.N = 50 := N_0; omega⟩

/-- The row inside its owner's block. -/
def inner (f : Fin 200000) : Fin 4000 := ⟨f.val % 4000, Nat.mod_lt _ (by decide)⟩

/-- The 200000 × 9 array after the run: at row `f`, the owner's 4000 × 9 block at the inner row. -/
def posArr (c : Dev nD) : S200000x9.Idx → Elt F .f32 := fun i =>
  posBlock (Host.iblk m c 0 (owner ⟨(i 0).val, (i 0).isLt⟩)) (Host.iblk m c 1 (owner ⟨(i 0).val, (i 0).isLt⟩)) (Host.iblk m c 2 (owner ⟨(i 0).val, (i 0).isLt⟩))
    (Host.iblk m c 3 (owner ⟨(i 0).val, (i 0).isLt⟩)) (Host.iblk m c 4 (owner ⟨(i 0).val, (i 0).isLt⟩)) (Host.iblk m c 5 (owner ⟨(i 0).val, (i 0).isLt⟩))
    (Host.iblk m c 6 (owner ⟨(i 0).val, (i 0).isLt⟩)) (ix2 (inner ⟨(i 0).val, (i 0).isLt⟩) ⟨(i 1).val, (i 1).isLt⟩)

/-- The 200000 × 29 array after the run, likewise. -/
def featArr (c : Dev nD) : S200000x29.Idx → Elt F .f32 := fun i =>
  featBlock (Host.iblk m c 0 (owner ⟨(i 0).val, (i 0).isLt⟩)) (Host.iblk m c 1 (owner ⟨(i 0).val, (i 0).isLt⟩)) (Host.iblk m c 2 (owner ⟨(i 0).val, (i 0).isLt⟩))
    (Host.iblk m c 3 (owner ⟨(i 0).val, (i 0).isLt⟩)) (Host.iblk m c 4 (owner ⟨(i 0).val, (i 0).isLt⟩)) (Host.iblk m c 5 (owner ⟨(i 0).val, (i 0).isLt⟩))
    (Host.iblk m c 6 (owner ⟨(i 0).val, (i 0).isLt⟩)) (ix2 (inner ⟨(i 0).val, (i 0).isLt⟩) ⟨(i 1).val, (i 1).isLt⟩)

/-- The block functions depend on the point and the index only through their values. -/
theorem posBlock_congr (c : Dev nD) (t t' : Fin cfg0.N) (h : t' = t) (j j' : S4000x9.Idx) (hj : j' = j) :
    posBlock (Host.iblk m c 0 t') (Host.iblk m c 1 t') (Host.iblk m c 2 t') (Host.iblk m c 3 t') (Host.iblk m c 4 t') (Host.iblk m c 5 t') (Host.iblk m c 6 t') j' = posBlock (Host.iblk m c 0 t) (Host.iblk m c 1 t) (Host.iblk m c 2 t) (Host.iblk m c 3 t) (Host.iblk m c 4 t) (Host.iblk m c 5 t) (Host.iblk m c 6 t) j := by
  subst h; subst hj; rfl
theorem featBlock_congr (c : Dev nD) (t t' : Fin cfg0.N) (h : t' = t) (j j' : S4000x29.Idx) (hj : j' = j) :
    featBlock (Host.iblk m c 0 t') (Host.iblk m c 1 t') (Host.iblk m c 2 t') (Host.iblk m c 3 t') (Host.iblk m c 4 t') (Host.iblk m c 5 t') (Host.iblk m c 6 t') j' = featBlock (Host.iblk m c 0 t) (Host.iblk m c 1 t) (Host.iblk m c 2 t) (Host.iblk m c 3 t) (Host.iblk m c 4 t) (Host.iblk m c 5 t) (Host.iblk m c 6 t) j := by
  subst h; subst hj; rfl

/-- Row `j` of point `t`'s block of the array is the block function at `t`, row `j`. -/
theorem posArr_emb (c : Dev nD) (t : Fin cfg0.N) (j : S4000x9.Idx) :
    posBlock (Host.iblk m c 0 t) (Host.iblk m c 1 t) (Host.iblk m c 2 t) (Host.iblk m c 3 t) (Host.iblk m c 4 t) (Host.iblk m c 5 t) (Host.iblk m c 6 t) j = posArr m c (((cfg0.win 7).blk t).view.emb j) := by
  obtain ⟨-, -, -, -, -, -, -, ⟨e0, e1⟩, -⟩ := idx_facts t
  have hj0 : (j 0).val < 4000 := (j 0).isLt
  have hj1 : (j 1).val < 9 := (j 1).isLt
  have ht : t.val < 50 := by have := t.isLt; have hN : cfg0.N = 50 := N_0; omega
  have r0 : ((((cfg0.win 7).blk t).view.emb j) 0).val = 4000 * t.val + (j 0).val := by
    show win0_7.index t (0 : Fin 2) * 4000 + 1 * (j 0).val = _; omega
  have r1 : ((((cfg0.win 7).blk t).view.emb j) 1).val = (j 1).val := by
    show win0_7.index t (1 : Fin 2) * 9 + 1 * (j 1).val = _; omega
  have ho : owner ⟨((((cfg0.win 7).blk t).view.emb j) 0).val, ((((cfg0.win 7).blk t).view.emb j) 0).isLt⟩ = t :=
    Fin.ext (by show ((((cfg0.win 7).blk t).view.emb j) 0).val / 4000 = t.val; rw [r0]; omega)
  have hi : ix2 (inner ⟨((((cfg0.win 7).blk t).view.emb j) 0).val, ((((cfg0.win 7).blk t).view.emb j) 0).isLt⟩)
      ⟨((((cfg0.win 7).blk t).view.emb j) 1).val, ((((cfg0.win 7).blk t).view.emb j) 1).isLt⟩ = j := by
    funext a; apply Fin.ext
    match a with
    | ⟨0, _⟩ => show ((((cfg0.win 7).blk t).view.emb j) 0).val % 4000 = (j 0).val; rw [r0]; omega
    | ⟨1, _⟩ => show ((((cfg0.win 7).blk t).view.emb j) 1).val = (j 1).val; exact r1
  exact (posBlock_congr m c t _ ho j _ hi).symm

/-- Row `j` of point `t`'s block of the array is the block function at `t`, row `j`. -/
theorem featArr_emb (c : Dev nD) (t : Fin cfg0.N) (j : S4000x29.Idx) :
    featBlock (Host.iblk m c 0 t) (Host.iblk m c 1 t) (Host.iblk m c 2 t) (Host.iblk m c 3 t) (Host.iblk m c 4 t) (Host.iblk m c 5 t) (Host.iblk m c 6 t) j = featArr m c (((cfg0.win 8).blk t).view.emb j) := by
  obtain ⟨-, -, -, -, -, -, -, -, ⟨e0, e1⟩⟩ := idx_facts t
  have hj0 : (j 0).val < 4000 := (j 0).isLt
  have hj1 : (j 1).val < 29 := (j 1).isLt
  have ht : t.val < 50 := by have := t.isLt; have hN : cfg0.N = 50 := N_0; omega
  have r0 : ((((cfg0.win 8).blk t).view.emb j) 0).val = 4000 * t.val + (j 0).val := by
    show win0_8.index t (0 : Fin 2) * 4000 + 1 * (j 0).val = _; omega
  have r1 : ((((cfg0.win 8).blk t).view.emb j) 1).val = (j 1).val := by
    show win0_8.index t (1 : Fin 2) * 29 + 1 * (j 1).val = _; omega
  have ho : owner ⟨((((cfg0.win 8).blk t).view.emb j) 0).val, ((((cfg0.win 8).blk t).view.emb j) 0).isLt⟩ = t :=
    Fin.ext (by show ((((cfg0.win 8).blk t).view.emb j) 0).val / 4000 = t.val; rw [r0]; omega)
  have hi : ix2 (inner ⟨((((cfg0.win 8).blk t).view.emb j) 0).val, ((((cfg0.win 8).blk t).view.emb j) 0).isLt⟩)
      ⟨((((cfg0.win 8).blk t).view.emb j) 1).val, ((((cfg0.win 8).blk t).view.emb j) 1).isLt⟩ = j := by
    funext a; apply Fin.ext
    match a with
    | ⟨0, _⟩ => show ((((cfg0.win 8).blk t).view.emb j) 0).val % 4000 = (j 0).val; rw [r0]; omega
    | ⟨1, _⟩ => show ((((cfg0.win 8).blk t).view.emb j) 1).val = (j 1).val; exact r1
  exact (featBlock_congr m c t _ ho j _ hi).symm

section WriteBack
-- the block functions and the region-entry contents are compared as they stand, never opened
attribute [local irreducible] posBlock featBlock posArr featArr Host.iblk

/-- What point `t` writes back to the 200000 × 9 array is block `t` of `posArr`. -/
theorem flushed7_eq (c : Dev nD) (t : Fin cfg0.N) :
    (dats m 0 c).flushed 7 t = ((cfg0.win 7).blk t).view.read (Elt F) (posArr m c) := by
  show (cfg0.win 7).cut (grid0.coords t) ((dats m 0 c).after 7 t) = _
  rw [after_7]
  funext j
  exact posArr_emb m c t j

/-- What point `t` writes back to the 200000 × 29 array is block `t` of `featArr`. -/
theorem flushed8_eq (c : Dev nD) (t : Fin cfg0.N) :
    (dats m 0 c).flushed 8 t = ((cfg0.win 8).blk t).view.read (Elt F) (featArr m c) := by
  show (cfg0.win 8).cut (grid0.coords t) ((dats m 0 c).after 8 t) = _
  rw [after_8]
  funext j
  exact featArr_emb m c t j

end WriteBack

/-- An index of the 200000 × 9 array lies in point `t`'s block iff each coordinate lies in the block's range. -/
theorem mem_blk7 (t : Fin cfg0.N) (i : S200000x9.Idx) :
    i ∈ ((cfg0.win 7).blk t).view.set ↔ ∀ a : Fin 2, win0_7.index t a * S4000x9.size a ≤ (i a).val ∧ (i a).val < win0_7.index t a * S4000x9.size a + S4000x9.size a := by
  show i ∈ ((View.whole main_v47_0).slice (win0_7.rect t)).set ↔ _
  rw [View.set_slice_whole, Rect.mem_set_unit]
  exact Iff.rfl
theorem mem_blk8 (t : Fin cfg0.N) (i : S200000x29.Idx) :
    i ∈ ((cfg0.win 8).blk t).view.set ↔ ∀ a : Fin 2, win0_8.index t a * S4000x29.size a ≤ (i a).val ∧ (i a).val < win0_8.index t a * S4000x29.size a + S4000x29.size a := by
  show i ∈ ((View.whole main_v47_1).slice (win0_8.rect t)).set ↔ _
  rw [View.set_slice_whole, Rect.mem_set_unit]
  exact Iff.rfl

/-- Every row is in its owner's block. -/
theorem cover7 (i : S200000x9.Idx) : ∃ t : Fin cfg0.N, (cfg0.win 7).flush t = true ∧ i ∈ ((cfg0.win 7).blk t).view.set := by
  have hi0 : (i 0).val < 200000 := (i 0).isLt
  have hi1 : (i 1).val < 9 := (i 1).isLt
  refine ⟨owner ⟨(i 0).val, hi0⟩, flush0_7 _, ?_⟩
  obtain ⟨-, -, -, -, -, -, -, ⟨e0, e1⟩, -⟩ := idx_facts (owner ⟨(i 0).val, hi0⟩)
  have ev : (owner ⟨(i 0).val, hi0⟩).val = (i 0).val / 4000 := rfl
  rw [mem_blk7]
  intro a
  match a with
  | ⟨0, _⟩ => show win0_7.index _ (0 : Fin 2) * 4000 ≤ (i 0).val ∧ (i 0).val < win0_7.index _ (0 : Fin 2) * 4000 + 4000; omega
  | ⟨1, _⟩ => show win0_7.index _ (1 : Fin 2) * 9 ≤ (i 1).val ∧ (i 1).val < win0_7.index _ (1 : Fin 2) * 9 + 9; omega
theorem cover8 (i : S200000x29.Idx) : ∃ t : Fin cfg0.N, (cfg0.win 8).flush t = true ∧ i ∈ ((cfg0.win 8).blk t).view.set := by
  have hi0 : (i 0).val < 200000 := (i 0).isLt
  have hi1 : (i 1).val < 29 := (i 1).isLt
  refine ⟨owner ⟨(i 0).val, hi0⟩, flush0_8 _, ?_⟩
  obtain ⟨-, -, -, -, -, -, -, -, ⟨e0, e1⟩⟩ := idx_facts (owner ⟨(i 0).val, hi0⟩)
  have ev : (owner ⟨(i 0).val, hi0⟩).val = (i 0).val / 4000 := rfl
  rw [mem_blk8]
  intro a
  match a with
  | ⟨0, _⟩ => show win0_8.index _ (0 : Fin 2) * 4000 ≤ (i 0).val ∧ (i 0).val < win0_8.index _ (0 : Fin 2) * 4000 + 4000; omega
  | ⟨1, _⟩ => show win0_8.index _ (1 : Fin 2) * 29 ≤ (i 1).val ∧ (i 1).val < win0_8.index _ (1 : Fin 2) * 29 + 29; omega

/-- The two output arrays after the run. -/
theorem final7 (c : Dev nD) : (dats m 0 c).arrAt 7 cfg0.N = posArr m c :=
  (dats m 0 c).arrAt_eq_of_cover 7 (posArr m c) (fun t _ => flushed7_eq m c t) cover7
theorem final8 (c : Dev nD) : (dats m 0 c).arrAt 8 cfg0.N = featArr m c :=
  (dats m 0 c).arrAt_eq_of_cover 8 (featArr m c) (fun t _ => flushed8_eq m c t) cover8

/-! ## An input block's entries are the array's -/

/-- Row `r` of point `t`'s block of a row-blocked input is row `4000 t + r` of the array; a whole window's block is the
    array. -/
theorem blk0_apply (c : Dev nD) (t : Fin cfg0.N) (r : Fin 4000) (k : Fin 18) (hr : 4000 * t.val + r.val < 200000) :
    Host.iblk m c 0 t (ix2 r k) = Host.V m c main_v34 (ix2 ⟨4000 * t.val + r.val, hr⟩ k) := by
  obtain ⟨⟨e0, e1⟩, -⟩ := idx_facts t
  show Host.V m c main_v34 (((cfg0.win 0).blk t).view.emb (ix2 r k)) = _
  refine congrArg _ (funext fun a => Fin.ext ?_)
  match a with
  | ⟨0, _⟩ => show win0_0.index t (0 : Fin 2) * 4000 + 1 * r.val = 4000 * t.val + r.val; omega
  | ⟨1, _⟩ => show win0_0.index t (1 : Fin 2) * 18 + 1 * k.val = k.val; omega
theorem blk1_apply (c : Dev nD) (t : Fin cfg0.N) (r : Fin 4000) (k : Fin 128) (hr : 4000 * t.val + r.val < 200000) :
    Host.iblk m c 1 t (ix2 r k) = Host.V m c main_arg1 (ix2 ⟨4000 * t.val + r.val, hr⟩ k) := by
  obtain ⟨-, ⟨e0, e1⟩, -⟩ := idx_facts t
  show Host.V m c main_arg1 (((cfg0.win 1).blk t).view.emb (ix2 r k)) = _
  refine congrArg _ (funext fun a => Fin.ext ?_)
  match a with
  | ⟨0, _⟩ => show win0_1.index t (0 : Fin 2) * 4000 + 1 * r.val = 4000 * t.val + r.val; omega
  | ⟨1, _⟩ => show win0_1.index t (1 : Fin 2) * 128 + 1 * k.val = k.val; omega
theorem blk2_apply (c : Dev nD) (t : Fin cfg0.N) (k : Fin 18) (n : Fin 384) :
    Host.iblk m c 2 t (ix2 k n) = Host.V m c main_v46 (ix2 k n) := by
  obtain ⟨-, -, ⟨e0, e1⟩, -⟩ := idx_facts t
  show Host.V m c main_v46 (((cfg0.win 2).blk t).view.emb (ix2 k n)) = _
  refine congrArg _ (funext fun a => Fin.ext ?_)
  match a with
  | ⟨0, _⟩ => show win0_2.index t (0 : Fin 2) * 18 + 1 * k.val = k.val; omega
  | ⟨1, _⟩ => show win0_2.index t (1 : Fin 2) * 384 + 1 * n.val = n.val; omega
theorem blk3_apply (c : Dev nD) (t : Fin cfg0.N) (k : Fin 128) (j : Fin 128) :
    Host.iblk m c 3 t (ix2 k j) = Host.V m c main_v38 (ix2 k j) := by
  obtain ⟨-, -, -, ⟨e0, e1⟩, -⟩ := idx_facts t
  show Host.V m c main_v38 (((cfg0.win 3).blk t).view.emb (ix2 k j)) = _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega
theorem blk4_apply (c : Dev nD) (t : Fin cfg0.N) (z : Fin 1) (j : Fin 128) :
    Host.iblk m c 4 t (ix2 z j) = Host.V m c main_v40 (ix2 z j) := by
  obtain ⟨-, -, -, -, ⟨e0, e1⟩, -⟩ := idx_facts t
  show Host.V m c main_v40 (((cfg0.win 4).blk t).view.emb (ix2 z j)) = _
  refine congrArg _ (funext fun a => Fin.ext ?_)
  match a with
  | ⟨0, _⟩ => show win0_4.index t (0 : Fin 2) * 1 + 1 * z.val = z.val; omega
  | ⟨1, _⟩ => show win0_4.index t (1 : Fin 2) * 128 + 1 * j.val = j.val; omega
theorem blk5_apply (c : Dev nD) (t : Fin cfg0.N) (j : Fin 128) (o : Fin 32) :
    Host.iblk m c 5 t (ix2 j o) = Host.V m c main_v39 (ix2 j o) := by
  obtain ⟨-, -, -, -, -, ⟨e0, e1⟩, -⟩ := idx_facts t
  show Host.V m c main_v39 (((cfg0.win 5).blk t).view.emb (ix2 j o)) = _
  refine congrArg _ (funext fun a => Fin.ext ?_)
  match a with
  | ⟨0, _⟩ => show win0_5.index t (0 : Fin 2) * 128 + 1 * j.val = j.val; omega
  | ⟨1, _⟩ => show win0_5.index t (1 : Fin 2) * 32 + 1 * o.val = o.val; omega
theorem blk6_apply (c : Dev nD) (t : Fin cfg0.N) (z : Fin 1) (o : Fin 32) :
    Host.iblk m c 6 t (ix2 z o) = Host.V m c main_v41 (ix2 z o) := by
  obtain ⟨-, -, -, -, -, -, ⟨e0, e1⟩, -⟩ := idx_facts t
  show Host.V m c main_v41 (((cfg0.win 6).blk t).view.emb (ix2 z o)) = _
  refine congrArg _ (funext fun a => Fin.ext ?_)
  match a with
  | ⟨0, _⟩ => show win0_6.index t (0 : Fin 2) * 1 + 1 * z.val = z.val; omega
  | ⟨1, _⟩ => show win0_6.index t (1 : Fin 2) * 32 + 1 * o.val = o.val; omega

end Cert.KernelIdeal.Blocks

end
-- ==== Proof.KernelIdealTail.lean ====
/-
  The host operations after the kernel region, as one function of what the region left.

  The region leaves a 200000 × 9 array: for each face, the three position updates of its three corners side by side.
  The operations after it cut that array into its three 200000 × 3 column groups and stack them into one 600000 × 3
  array (corner 0's rows, then corner 1's, then corner 2's); stack the three columns of the face table the same way
  into 600000 node indices; add each row of the stacked updates onto the row of a zero 100000 × 3 array its node index
  names; count, the same way, how many rows each node received; clip the count below at one; and divide the sums by
  the counts. That quotient is the per-node mean update (`nodeDelta`), and the new positions are the old ones plus it.

  Both results are read off the fold of those operations over the memory the region left, operation by operation; the
  region's array enters as a variable with its defining equation, and nothing of full extent is ever evaluated.
-/
import proofs.«142834_j6528350290204_2_alg».proof.Proof.KernelIdealRun
import Idealize.ShloMosaic.Lib.Pipeline.FrameSuffix
import Idealize.ShloMosaic.Lib.StableHlo.Run
import Idealize.ShloMosaic.PureOps.Ideal.Laws

set_option maxRecDepth 16384

noncomputable section

namespace Cert.KernelIdeal.Tail

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

/-! ## The operations' terms -/

/-- Columns 0 … 2 of the region's array: corner 0's updates. -/
def cut0 (g : FVec Ideal S200000x9 .f32) : FVec Ideal S200000x3 .f32 :=
  extractStridedSlice S200000x3 ![0, 0] g slices_S200000x9_S200000x3_0_0
/-- Columns 3 … 5: corner 1's updates. -/
def cut3 (g : FVec Ideal S200000x9 .f32) : FVec Ideal S200000x3 .f32 :=
  extractStridedSlice S200000x3 ![0, 3] g slices_S200000x9_S200000x3_0_3
/-- Columns 6 … 8: corner 2's updates. -/
def cut6 (g : FVec Ideal S200000x9 .f32) : FVec Ideal S200000x3 .f32 :=
  extractStridedSlice S200000x3 ![0, 6] g slices_S200000x9_S200000x3_0_6

/-- Three 200000 × 3 arrays stacked along the rows. -/
def stack3 (a b c : FVec Ideal S200000x3 .f32) : FVec Ideal S600000x3 .f32 :=
  concatenate S600000x3 0 [⟨S200000x3, a⟩, ⟨S200000x3, b⟩, ⟨S200000x3, c⟩] concatenates_S200000x3_S200000x3_S200000x3_S600000x3_d0

/-- The three columns of the face table stacked into one column of 600000 node indices. -/
def nodeIdx (faces : IVec S200000x3 32) : IVec S600000x1 32 :=
  broadcastInDim S600000x1 ![0] bcast_S600000_S600000x1_0
    (concatenate S600000 0
      [⟨S200000, fun i => shapeCast S200000 (extractStridedSlice S200000x1 ![0, 0] faces slices_S200000x3_S200000x1_0_0) shapeCasts_S200000x1_S200000 i⟩,
       ⟨S200000, fun i => shapeCast S200000 (extractStridedSlice S200000x1 ![0, 1] faces slices_S200000x3_S200000x1_0_1) shapeCasts_S200000x1_S200000 i⟩,
       ⟨S200000, fun i => shapeCast S200000 (extractStridedSlice S200000x1 ![0, 2] faces slices_S200000x3_S200000x1_0_2) shapeCasts_S200000x1_S200000 i⟩]
      concatenates_S200000_S200000_S200000_S600000_d0)

/-- The per-node mean update: the stacked rows added onto the nodes their indices name, divided by the number of rows
    each node received, that number clipped below at one. -/
def nodeDelta (vals : FVec Ideal S600000x3 .f32) (faces : IVec S200000x3 32) : FVec Ideal S100000x3 .f32 :=
  Host.divf (F := Ideal)
    (Host.scatterAdd (F := Ideal) scatter_S100000x3_S600000x1_S600000x3_1_0_0_1
      (broadcastInDim S100000x3 ![] bcast_S_S100000x3 (constant (F := Ideal) S_ .f32 0x00000000#32))
      (nodeIdx faces) vals)
    (broadcastInDim S100000x3 ![0, 1] bcast_S100000x1_S100000x3_0_1
      (broadcastInDim S100000x1 ![0] bcast_S100000_S100000x1_0
        (maximumf (F := Ideal)
          (broadcastInDim S100000 ![] bcast_S_S100000 (id (constant (F := Ideal) S_ .f32 0x3F800000#32)))
          (Host.scatterAdd (F := Ideal) scatter_S100000_S600000x1_S600000_n_0_0_1
            (broadcastInDim S100000 ![] bcast_S_S100000 (constant (F := Ideal) S_ .f32 0x00000000#32))
            (nodeIdx faces)
            (broadcastInDim S600000 ![] bcast_S_S600000 (constant (F := Ideal) S_ .f32 0x3F800000#32))))))

/-! ## Reading the fold -/

/-- Reads a fold of literal operations at a literal buffer: each operation's result at its own buffer is its function of
    its operands' contents, at any other buffer what was there; a literal family of references read at a literal
    position is that reference. One simplifier pass does what it can reach; inside the pieces of a concatenation, which
    it does not reach, the same facts are used one rewrite at a time. -/
macro "host_results" : tactic =>
  `(tactic| (simp only [Idealize.ShloMosaic.StableHlo.after_cons, Idealize.ShloMosaic.StableHlo.after_nil]
             repeat (first
               | simp (disch := decide) only [Idealize.ShloMosaic.StableHlo.nullary_result', Idealize.ShloMosaic.StableHlo.unary_result', Idealize.ShloMosaic.StableHlo.binary_result', Idealize.ShloMosaic.StableHlo.ternary_result',
                   Idealize.ShloMosaic.StableHlo.reshape_result', Idealize.ShloMosaic.StableHlo.nary_result', Idealize.ShloMosaic.StableHlo.nullary_result_ne', Idealize.ShloMosaic.StableHlo.unary_result_ne', Idealize.ShloMosaic.StableHlo.binary_result_ne',
                   Idealize.ShloMosaic.StableHlo.ternary_result_ne', Idealize.ShloMosaic.StableHlo.reshape_result_ne', Idealize.ShloMosaic.StableHlo.nary_result_ne', Matrix.cons_val]
               | (rw [Idealize.ShloMosaic.StableHlo.unary_result_ne]; rotate_left; decide)
               | (rw [Idealize.ShloMosaic.StableHlo.reshape_result_ne]; rotate_left; decide)
               | (rw [Idealize.ShloMosaic.StableHlo.nary_result_ne]; rotate_left; decide)
               | rw [Idealize.ShloMosaic.StableHlo.unary_result] | rw [Idealize.ShloMosaic.StableHlo.reshape_result]
               | (rw [Idealize.ShloMosaic.StableHlo.nullary_result_ne]; rotate_left; decide)
               | (rw [Idealize.ShloMosaic.StableHlo.binary_result_ne]; rotate_left; decide)
               | (rw [Idealize.ShloMosaic.StableHlo.ternary_result_ne]; rotate_left; decide)
               | rw [Idealize.ShloMosaic.StableHlo.nullary_result] | rw [Idealize.ShloMosaic.StableHlo.binary_result] | rw [Idealize.ShloMosaic.StableHlo.ternary_result] | rw [Idealize.ShloMosaic.StableHlo.nary_result])))

variable (m : (ℓ : Loc nD τ sig) → Buf (Elt Ideal) ℓ)

/-- The region's output array, the face table and the old positions, as the operations after the region find them. -/
theorem left_v47_0 (c : Dev nD) (G7 : S200000x9.Idx → EReal) (h7 : (Run.dats m 0 c).arrAt 7 cfg0.N = G7) :
    Pipeline.withArrays spec0 c (Host.V0 m c) (fun w => (Run.dats m 0 c).arrAt w cfg0.N) (Proc.devRef .tc main_v47_0) = G7 :=
  (Pipeline.withArrays_arr spec0 launch0.win.arr_inj c _ _ 7).trans h7

theorem left_arg6 (c : Dev nD) :
    Pipeline.withArrays spec0 c (Host.V0 m c) (fun w => (Run.dats m 0 c).arrAt w cfg0.N) (Proc.devRef .tc main_arg6)
      = m ((c : Thread nD τ).loc main_arg6) :=
  (Pipeline.withArrays_of_ne _ c (Host.V0 m c) _ main_arg6 (by exact (by decide : ∀ w, Pipeline.arrRef spec0 w ≠ main_arg6))).trans
    (Host.V_main_arg6 m c)

theorem left_arg0 (c : Dev nD) :
    Pipeline.withArrays spec0 c (Host.V0 m c) (fun w => (Run.dats m 0 c).arrAt w cfg0.N) (Proc.devRef .tc main_arg0)
      = m ((c : Thread nD τ).loc main_arg0) :=
  (Pipeline.withArrays_of_ne _ c (Host.V0 m c) _ main_arg0 (by exact (by decide : ∀ w, Pipeline.arrRef spec0 w ≠ main_arg0))).trans
    (Host.V_main_arg0 m c)

/-! ## The two results over any contents of the buffers at the region's exit -/

/-- The stretches after the region, as one list. -/
abbrev tailList : List (HloOp τ sig (Elt Ideal)) := hostOps1 ++ (hostOps1_1 ++ hostOps1_2)

/-- The per-node mean update, from whatever the region's output array and the face table hold at the region's exit. -/
theorem delta_of (W : Valuation τ sig (Elt Ideal)) :
    StableHlo.after tailList W (Proc.devRef .tc main_v69)
      = nodeDelta (stack3 (cut0 (W (Proc.devRef .tc main_v47_0))) (cut3 (W (Proc.devRef .tc main_v47_0))) (cut6 (W (Proc.devRef .tc main_v47_0))))
          (W (Proc.devRef .tc main_arg6)) := by
  simp only [tailList, hostOps1, hostOps1_1, hostOps1_2, List.cons_append, List.nil_append]
  host_results
  rfl

/-- The new positions: the old ones, as they are at the region's exit, plus the per-node mean update. -/
theorem newpos_of (W : Valuation τ sig (Elt Ideal)) :
    StableHlo.after tailList W (Proc.devRef .tc main_v70)
      = addf (F := Ideal) (W (Proc.devRef .tc main_arg0))
          (nodeDelta (stack3 (cut0 (W (Proc.devRef .tc main_v47_0))) (cut3 (W (Proc.devRef .tc main_v47_0))) (cut6 (W (Proc.devRef .tc main_v47_0))))
            (W (Proc.devRef .tc main_arg6))) := by
  simp only [tailList, hostOps1, hostOps1_1, hostOps1_2, List.cons_append, List.nil_append]
  host_results
  rfl

/-! ## The two results of the run -/

/-- The per-node mean update the run ends with, from the region's output array and the face table. -/
theorem tail_delta (c : Dev nD) (G7 : S200000x9.Idx → EReal) (h7 : (Run.dats m 0 c).arrAt 7 cfg0.N = G7) :
    Pipeline.afterTail₀ cfgs (Run.dats m) 0 (Host.V0 m) Host.tailOps c main_v69
      = nodeDelta (stack3 (cut0 G7) (cut3 G7) (cut6 G7)) (m ((c : Thread nD τ).loc main_arg6)) := by
  unfold Pipeline.afterTail₀ Host.tailOps
  simp only [List.flatten_cons, List.flatten_nil, List.append_nil]
  show StableHlo.after tailList (Pipeline.withArrays spec0 c (Host.V0 m c) (fun w => (Run.dats m 0 c).arrAt w cfg0.N))
      (Proc.devRef .tc main_v69) = _
  rw [delta_of, left_v47_0 m c G7 h7, left_arg6 m c]

/-- The new positions the run ends with: the old ones plus the per-node mean update. -/
theorem tail_newpos (c : Dev nD) (G7 : S200000x9.Idx → EReal) (h7 : (Run.dats m 0 c).arrAt 7 cfg0.N = G7) :
    Pipeline.afterTail₀ cfgs (Run.dats m) 0 (Host.V0 m) Host.tailOps c main_v70
      = addf (F := Ideal) (m ((c : Thread nD τ).loc main_arg0))
          (nodeDelta (stack3 (cut0 G7) (cut3 G7) (cut6 G7)) (m ((c : Thread nD τ).loc main_arg6))) := by
  unfold Pipeline.afterTail₀ Host.tailOps
  simp only [List.flatten_cons, List.flatten_nil, List.append_nil]
  show StableHlo.after tailList (Pipeline.withArrays spec0 c (Host.V0 m c) (fun w => (Run.dats m 0 c).arrAt w cfg0.N))
      (Proc.devRef .tc main_v70) = _
  rw [newpos_of, left_v47_0 m c G7 h7, left_arg6 m c, left_arg0 m c]

end Cert.KernelIdeal.Tail

end
-- ==== Proof.FaceMlp.lean ====
/-
  The mathematics of the face-to-node message step, stated once over plain functions into the extended reals,
  with no program in sight.

  A face has three corners. For corner `c` the layer input of face `f` is the row of 134 numbers made of two
  edge vectors of the triangle seen from that corner (three coordinates each) followed by the face's 128
  features; the output is `relu (x · W1 + b1) · W2 + b2`, 32 numbers (`mlp`).

  The same 32 numbers can be computed another way (`outK`): all six edge vectors of the face are laid side by
  side as 18 numbers and multiplied by an 18 × 384 matrix that carries the first six rows of `W1` three times
  along its diagonal and zeros elsewhere (`blockDiag`), so that columns `128 c … 128 c + 127` of the product are
  corner `c`'s six-term part of `x · W1`; the 128-term part, which does not depend on the corner, is computed
  once and added. The two agree because a sum may be regrouped and a product with zero is zero, on the whole
  extended real line (no finiteness is used).
-/
import Mathlib.Data.EReal.Basic
import Mathlib.Data.EReal.Operations
import Mathlib.Algebra.BigOperators.Fin

noncomputable section

namespace FaceMlp

open scoped BigOperators

variable {α : Type}

/-- Row `f` of one corner's layer input: the corner's two edge vectors, then the face's features. -/
def input (da db : α → Fin 3 → EReal) (X : α → Fin 128 → EReal) (f : α) (k : Fin 134) : EReal :=
  if h : k.val < 3 then da f ⟨k.val, h⟩
  else if h' : k.val < 6 then db f ⟨k.val - 3, by omega⟩
  else X f ⟨k.val - 6, by omega⟩

/-- The two layers on a row: `relu (x · W1 + b1) · W2 + b2`. -/
def mlp (x : α → Fin 134 → EReal) (W1 : Fin 134 → Fin 128 → EReal) (b1 : Fin 128 → EReal)
    (W2 : Fin 128 → Fin 32 → EReal) (b2 : Fin 32 → EReal) (f : α) (o : Fin 32) : EReal :=
  (∑ j : Fin 128, max ((∑ k : Fin 134, x f k * W1 k j) + b1 j) 0 * W2 j o) + b2 o

/-- The first edge vector of corner `c`, from the three corner positions `P0 P1 P2` of each face. -/
def edgeA (P0 P1 P2 : α → Fin 3 → EReal) (c : Fin 3) (f : α) (e : Fin 3) : EReal :=
  match c with
  | ⟨0, _⟩ => P1 f e - P0 f e
  | ⟨1, _⟩ => P2 f e - P1 f e
  | ⟨_ + 2, _⟩ => P0 f e - P2 f e

/-- The second edge vector of corner `c`. -/
def edgeB (P0 P1 P2 : α → Fin 3 → EReal) (c : Fin 3) (f : α) (e : Fin 3) : EReal :=
  match c with
  | ⟨0, _⟩ => P2 f e - P0 f e
  | ⟨1, _⟩ => P0 f e - P1 f e
  | ⟨_ + 2, _⟩ => P1 f e - P2 f e

/-- All six edge vectors of a face side by side: corner 0's two, corner 1's two, corner 2's two. -/
def edges18 (P0 P1 P2 : α → Fin 3 → EReal) (f : α) (k : Fin 18) : EReal :=
  if h : k.val % 6 < 3 then edgeA P0 P1 P2 ⟨k.val / 6, by omega⟩ f ⟨k.val % 6, h⟩
  else edgeB P0 P1 P2 ⟨k.val / 6, by omega⟩ f ⟨k.val % 6 - 3, by omega⟩

/-- Six rows of a weight repeated three times along the diagonal of an 18 × 384 matrix, zeros elsewhere. -/
def blockDiag (W : Fin 6 → Fin 128 → EReal) (k : Fin 18) (n : Fin 384) : EReal :=
  if k.val / 6 = n.val / 128 then W ⟨k.val % 6, by omega⟩ ⟨n.val % 128, by omega⟩ else 0

/-- The hidden layer of corner `c` computed through the 18-column product and the shared 128-column product. -/
def hiddenK (D : α → Fin 18 → EReal) (B : Fin 18 → Fin 384 → EReal) (X : α → Fin 128 → EReal)
    (Wf : Fin 128 → Fin 128 → EReal) (b1 : Fin 128 → EReal) (c : Fin 3) (f : α) (j : Fin 128) : EReal :=
  max (((∑ k : Fin 18, D f k * B k ⟨128 * c.val + j.val, by omega⟩) + ∑ k : Fin 128, X f k * Wf k j) + b1 j) 0

/-- The 32 outputs of corner `c` computed that way. -/
def outK (D : α → Fin 18 → EReal) (B : Fin 18 → Fin 384 → EReal) (X : α → Fin 128 → EReal)
    (Wf : Fin 128 → Fin 128 → EReal) (b1 : Fin 128 → EReal) (W2 : Fin 128 → Fin 32 → EReal) (b2 : Fin 32 → EReal)
    (c : Fin 3) (f : α) (o : Fin 32) : EReal :=
  (∑ j : Fin 128, hiddenK D B X Wf b1 c f j * W2 j o) + b2 o

end FaceMlp

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.BodyEntry.lean ====
/-
  The kernel body's two stored values, read one entry at a time over the extended reals.

  The body works on a block of 4000 faces. It forms one product of the 18 edge columns with the 18 × 384 block-diagonal
  weight and one product of the 128 face features with the lower 128 rows of the first weight; for corner `c` it cuts
  columns `128 c … 128 c + 127` out of the first product, adds the second product and the bias row, clamps at zero, and
  multiplies by the second weight and adds its bias row: 32 numbers per face and corner. The first three of each corner's
  32 numbers are laid side by side (nine columns: corner `c` at columns `3 c … 3 c + 2`); the other 29 are added up over
  the three corners, starting from zero, and divided by three.

  Each step is read at an entry `(r, q)`: a matrix product into a zero accumulator is the textbook sum, a column cut reads
  the source at the shifted column, a row broadcast reads the one row, a concatenation reads the piece that holds the
  column, rounding to a narrower format is the identity at the extended reals and so is a reshape to the same shape.
  Put together, an entry of the first stored value is `FaceMlp.outK` of the corner and one of the second is the mean over
  the corners of `FaceMlp.outK`.
-/
import proofs.«142834_j6528350290204_2_alg».proof.Proof.Gen.KernelIdeal.Skeleton
import proofs.«142834_j6528350290204_2_alg».proof.Proof.FaceMlp
import proofs.«142834_j6528350290204_2_alg».proof.Proof.LibPlainMatmul
import Idealize.ShloMosaic.Lib.ValueLayout
import Idealize.ShloMosaic.Lib.Pipeline.Value
import Idealize.ShloMosaic.PureOps.Ideal.Laws

noncomputable section

namespace Cert.KernelIdeal.BodyEntry

open Cert.KernelIdeal Cert.KernelIdeal.Gen Idealize.ShloMosaic Idealize.ShloMosaic.ValueIdx
open scoped BigOperators

/-! ## The three matrix products at an entry -/

/-- The face features times the lower 128 rows of the first weight: entry `(p, c)` is the sum over the 128 features. -/
theorem featProd_apply (lhs : FVec Ideal S4000x128 .bf16) (rhs : FVec Ideal S128x128 .bf16) (p : Fin 4000) (c : Fin 128) :
    matmul dot_S4000x128_S128x128_S4000x128_1_0_0_1_n_n none lhs rhs (constant S4000x128 .f32 0x00000000#32) (ix2 p c)
      = ∑ k : Fin 128, lhs (ix2 p k) * rhs (ix2 k c) :=
  Cert.LibPlainMatmul.matmul_zero_ix2 dot_S4000x128_S128x128_S4000x128_1_0_0_1_n_n none rfl rfl
    (fun i q => by
      unfold DotDims.lhsIdx
      rw [dif_neg (show ¬(0 : Fin S4000x128.rank) ∈ dot_S4000x128_S128x128_S4000x128_1_0_0_1_n_n.lhsBatch by decide),
        dif_pos (show (0 : Fin S4000x128.rank) ∈ dot_S4000x128_S128x128_S4000x128_1_0_0_1_n_n.lhsNonContracting by decide)]
      rfl)
    (fun i q => dot_S4000x128_S128x128_S4000x128_1_0_0_1_n_n.lhsIdx_val_of_single rfl i q)
    (fun i q => dot_S4000x128_S128x128_S4000x128_1_0_0_1_n_n.rhsIdx_val_of_single rfl i q)
    (fun i q => by
      unfold DotDims.rhsIdx
      rw [dif_neg (show ¬(1 : Fin S128x128.rank) ∈ dot_S4000x128_S128x128_S4000x128_1_0_0_1_n_n.rhsBatch by decide),
        dif_pos (show (1 : Fin S128x128.rank) ∈ dot_S4000x128_S128x128_S4000x128_1_0_0_1_n_n.rhsNonContracting by decide)]
      rfl)
    lhs rhs p c

/-- The 18 edge columns times the block-diagonal weight: entry `(p, c)` is the sum over the 18 columns. -/
theorem edgeProd_apply (lhs : FVec Ideal S4000x18 .bf16) (rhs : FVec Ideal S18x384 .bf16) (p : Fin 4000) (c : Fin 384) :
    matmul dot_S4000x18_S18x384_S4000x384_1_0_0_1_n_n none lhs rhs (constant S4000x384 .f32 0x00000000#32) (ix2 p c)
      = ∑ k : Fin 18, lhs (ix2 p k) * rhs (ix2 k c) :=
  Cert.LibPlainMatmul.matmul_zero_ix2 dot_S4000x18_S18x384_S4000x384_1_0_0_1_n_n none rfl rfl
    (fun i q => by
      unfold DotDims.lhsIdx
      rw [dif_neg (show ¬(0 : Fin S4000x18.rank) ∈ dot_S4000x18_S18x384_S4000x384_1_0_0_1_n_n.lhsBatch by decide),
        dif_pos (show (0 : Fin S4000x18.rank) ∈ dot_S4000x18_S18x384_S4000x384_1_0_0_1_n_n.lhsNonContracting by decide)]
      rfl)
    (fun i q => dot_S4000x18_S18x384_S4000x384_1_0_0_1_n_n.lhsIdx_val_of_single rfl i q)
    (fun i q => dot_S4000x18_S18x384_S4000x384_1_0_0_1_n_n.rhsIdx_val_of_single rfl i q)
    (fun i q => by
      unfold DotDims.rhsIdx
      rw [dif_neg (show ¬(1 : Fin S18x384.rank) ∈ dot_S4000x18_S18x384_S4000x384_1_0_0_1_n_n.rhsBatch by decide),
        dif_pos (show (1 : Fin S18x384.rank) ∈ dot_S4000x18_S18x384_S4000x384_1_0_0_1_n_n.rhsNonContracting by decide)]
      rfl)
    lhs rhs p c

/-- The hidden layer times the second weight: entry `(p, c)` is the sum over the 128 hidden units. -/
theorem outProd_apply (lhs : FVec Ideal S4000x128 .bf16) (rhs : FVec Ideal S128x32 .bf16) (p : Fin 4000) (c : Fin 32) :
    matmul dot_S4000x128_S128x32_S4000x32_1_0_0_1_n_n none lhs rhs (constant S4000x32 .f32 0x00000000#32) (ix2 p c)
      = ∑ k : Fin 128, lhs (ix2 p k) * rhs (ix2 k c) :=
  Cert.LibPlainMatmul.matmul_zero_ix2 dot_S4000x128_S128x32_S4000x32_1_0_0_1_n_n none rfl rfl
    (fun i q => by
      unfold DotDims.lhsIdx
      rw [dif_neg (show ¬(0 : Fin S4000x128.rank) ∈ dot_S4000x128_S128x32_S4000x32_1_0_0_1_n_n.lhsBatch by decide),
        dif_pos (show (0 : Fin S4000x128.rank) ∈ dot_S4000x128_S128x32_S4000x32_1_0_0_1_n_n.lhsNonContracting by decide)]
      rfl)
    (fun i q => dot_S4000x128_S128x32_S4000x32_1_0_0_1_n_n.lhsIdx_val_of_single rfl i q)
    (fun i q => dot_S4000x128_S128x32_S4000x32_1_0_0_1_n_n.rhsIdx_val_of_single rfl i q)
    (fun i q => by
      unfold DotDims.rhsIdx
      rw [dif_neg (show ¬(1 : Fin S128x32.rank) ∈ dot_S4000x128_S128x32_S4000x32_1_0_0_1_n_n.rhsBatch by decide),
        dif_pos (show (1 : Fin S128x32.rank) ∈ dot_S4000x128_S128x32_S4000x32_1_0_0_1_n_n.rhsNonContracting by decide)]
      rfl)
    lhs rhs p c

/-! ## The loaded weights and bias rows pass through unchanged; the two input products at an entry -/

theorem pay6_eq (v5 : Vec Ideal S1x128 .f32) : k0_pay6 (F := Ideal) v5 = v5 := shapeCast_self v5 _
theorem pay7_eq (v7 : Vec Ideal S128x32 .bf16) : k0_pay7 (F := Ideal) v7 = v7 := shapeCast_self v7 _
theorem pay8_eq (v9 : Vec Ideal S1x32 .f32) : k0_pay8 (F := Ideal) v9 = v9 := shapeCast_self v9 _

/-- The shared 128-term part of the first layer at `(r, j)`. -/
theorem pay5_apply (v0 : Vec Ideal S4000x128 .f32) (v2 : Vec Ideal S128x128 .bf16) (r : Fin 4000) (j : Fin 128) :
    k0_pay5 (F := Ideal) v0 v2 (ix2 r j) = ∑ k : Fin 128, v0 (ix2 r k) * v2 (ix2 k j) := by
  unfold k0_pay5
  refine (featProd_apply _ _ r j).trans ?_
  rw [shapeCast_self]
  rfl

/-- The 18-term product against the block-diagonal weight at `(r, n)`. -/
theorem pay9_apply (v11 : Vec Ideal S4000x18 .bf16) (v13 : Vec Ideal S18x384 .bf16) (r : Fin 4000) (n : Fin 384) :
    k0_pay9 (F := Ideal) v11 v13 (ix2 r n) = ∑ k : Fin 18, v11 (ix2 r k) * v13 (ix2 k n) := by
  unfold k0_pay9
  refine (edgeProd_apply _ _ r n).trans ?_
  rw [shapeCast_self, shapeCast_self]

/-! ## One corner: the hidden layer and the 32 outputs at an entry -/

/-- Columns `o … o + 127` of a wide array, plus a second array, plus a bias row, clamped below at zero: at `(r, j)`. -/
theorem hidden_apply (o : Nat) (h : S4000x384.Slices ![0, o] S4000x128)
    (X : FVec Ideal S4000x384 .f32) (A : FVec Ideal S4000x128 .f32) (b : FVec Ideal S1x128 .f32)
    (r : Fin 4000) (j : Fin 128) (k : Fin 384) (hk : k.val = o + j.val) :
    maximumf (addf (addf (extractStridedSlice S4000x128 ![0, o] X h) A) (broadcastTo S4000x128 b broadcasts_S1x128_S4000x128))
        (broadcast S4000x128 (Scalar.ofBits (F := Ideal) .f32 0x00000000#32)) (ix2 r j)
      = max ((X (ix2 r k) + A (ix2 r j)) + b (ix2 (0 : Fin 1) j)) 0 := by
  show max ((extractStridedSlice S4000x128 ![0, o] X h (ix2 r j) + A (ix2 r j))
      + broadcastTo S4000x128 b broadcasts_S1x128_S4000x128 (ix2 r j)) (Ideal.ofBits .f32 0x00000000#32) = _
  rw [slice2_axis1_apply o X h r j k hk, broadcastTo_1b_ab_apply b broadcasts_S1x128_S4000x128 r j, Ideal.ofBits_zero_f32]

/-- A hidden layer rounded for the product, times the second weight, plus its bias row: at `(r, q)`. -/
theorem outLayer_apply (H : FVec Ideal S4000x128 .f32) (W : FVec Ideal S128x32 .bf16) (b2 : FVec Ideal S1x32 .f32)
    (r : Fin 4000) (q : Fin 32) :
    addf (matmul dot_S4000x128_S128x32_S4000x32_1_0_0_1_n_n none (truncf .bf16 H bitsLt_bf16_f32) W (constant S4000x32 .f32 0x00000000#32))
        (broadcastTo S4000x32 b2 broadcasts_S1x32_S4000x32) (ix2 r q)
      = (∑ j : Fin 128, H (ix2 r j) * W (ix2 j q)) + b2 (ix2 (0 : Fin 1) q) := by
  show matmul dot_S4000x128_S128x32_S4000x32_1_0_0_1_n_n none (truncf .bf16 H bitsLt_bf16_f32) W (constant S4000x32 .f32 0x00000000#32) (ix2 r q)
      + broadcastTo S4000x32 b2 broadcasts_S1x32_S4000x32 (ix2 r q) = _
  rw [outProd_apply, broadcastTo_1b_ab_apply b2 broadcasts_S1x32_S4000x32 r q]
  rfl

/-- The hidden layer of the corner whose columns start at `o = 128 c`, as the body computes it, is `FaceMlp.hiddenK`. -/
theorem hidden_corner (v0 : Vec Ideal S4000x128 .f32) (v2 : Vec Ideal S128x128 .bf16) (v5 : Vec Ideal S1x128 .f32)
    (v11 : Vec Ideal S4000x18 .bf16) (v13 : Vec Ideal S18x384 .bf16)
    (c : Fin 3) (o : Nat) (hc : o = 128 * c.val) (h : S4000x384.Slices ![0, o] S4000x128) (r : Fin 4000) (j : Fin 128) :
    maximumf (addf (addf (extractStridedSlice S4000x128 ![0, o] (k0_pay9 (F := Ideal) v11 v13) h) (k0_pay5 (F := Ideal) v0 v2))
          (broadcastTo S4000x128 (k0_pay6 (F := Ideal) v5) broadcasts_S1x128_S4000x128))
        (broadcast S4000x128 (Scalar.ofBits (F := Ideal) .f32 0x00000000#32)) (ix2 r j)
      = FaceMlp.hiddenK (fun r k => v11 (ix2 r k)) (fun k n => v13 (ix2 k n)) (fun r k => v0 (ix2 r k)) (fun k j => v2 (ix2 k j))
        (fun j => v5 (ix2 0 j)) c r j := by
  refine (hidden_apply o h _ _ _ r j ⟨128 * c.val + j.val, by omega⟩ (by show 128 * c.val + j.val = o + j.val; omega)).trans ?_
  rw [pay9_apply, pay5_apply, pay6_eq]
  rfl

/-- The 32 outputs of that corner, as the body computes them, are `FaceMlp.outK`. -/
theorem out_corner (v0 : Vec Ideal S4000x128 .f32) (v2 : Vec Ideal S128x128 .bf16) (v5 : Vec Ideal S1x128 .f32)
    (v7 : Vec Ideal S128x32 .bf16) (v9 : Vec Ideal S1x32 .f32) (v11 : Vec Ideal S4000x18 .bf16) (v13 : Vec Ideal S18x384 .bf16)
    (c : Fin 3) (o : Nat) (hc : o = 128 * c.val) (h : S4000x384.Slices ![0, o] S4000x128) (r : Fin 4000) (q : Fin 32) :
    addf (matmul dot_S4000x128_S128x32_S4000x32_1_0_0_1_n_n none
          (truncf .bf16 (maximumf (addf (addf (extractStridedSlice S4000x128 ![0, o] (k0_pay9 (F := Ideal) v11 v13) h) (k0_pay5 (F := Ideal) v0 v2))
          (broadcastTo S4000x128 (k0_pay6 (F := Ideal) v5) broadcasts_S1x128_S4000x128))
        (broadcast S4000x128 (Scalar.ofBits (F := Ideal) .f32 0x00000000#32))) bitsLt_bf16_f32)
          (k0_pay7 (F := Ideal) v7) (constant S4000x32 .f32 0x00000000#32))
        (broadcastTo S4000x32 (k0_pay8 (F := Ideal) v9) broadcasts_S1x32_S4000x32) (ix2 r q)
      = FaceMlp.outK (fun r k => v11 (ix2 r k)) (fun k n => v13 (ix2 k n)) (fun r k => v0 (ix2 r k)) (fun k j => v2 (ix2 k j))
        (fun j => v5 (ix2 0 j)) (fun j o => v7 (ix2 j o)) (fun o => v9 (ix2 0 o)) c r q := by
  refine (outLayer_apply _ _ _ r q).trans ?_
  rw [pay7_eq, pay8_eq]
  refine congrArg (· + v9 (ix2 (0 : Fin 1) q)) (Finset.sum_congr rfl fun j _ => ?_)
  exact congrArg (· * v7 (ix2 j q)) (hidden_corner v0 v2 v5 v11 v13 c o hc h r j)

/-! ## The three corners' outputs as the body names them -/

/-- Corner 0 (columns 0 … 127 of the wide product). -/
theorem corner0_apply (v0 : Vec Ideal S4000x128 .f32) (v2 : Vec Ideal S128x128 .bf16) (v5 : Vec Ideal S1x128 .f32)
    (v7 : Vec Ideal S128x32 .bf16) (v9 : Vec Ideal S1x32 .f32) (v11 : Vec Ideal S4000x18 .bf16) (v13 : Vec Ideal S18x384 .bf16) (r : Fin 4000) (q : Fin 32) :
    k0_pay10 (F := Ideal) v0 v2 v5 v7 v9 v11 v13 (ix2 r q)
      = FaceMlp.outK (fun r k => v11 (ix2 r k)) (fun k n => v13 (ix2 k n)) (fun r k => v0 (ix2 r k)) (fun k j => v2 (ix2 k j))
        (fun j => v5 (ix2 0 j)) (fun j o => v7 (ix2 j o)) (fun o => v9 (ix2 0 o)) 0 r q := by
  unfold k0_pay10
  exact out_corner v0 v2 v5 v7 v9 v11 v13 0 0 rfl slices_S4000x384_o0_0_S4000x128 r q

/-- Corner 1 (columns 128 … 255). -/
theorem corner1_apply (v0 : Vec Ideal S4000x128 .f32) (v2 : Vec Ideal S128x128 .bf16) (v5 : Vec Ideal S1x128 .f32)
    (v7 : Vec Ideal S128x32 .bf16) (v9 : Vec Ideal S1x32 .f32) (v11 : Vec Ideal S4000x18 .bf16) (v13 : Vec Ideal S18x384 .bf16) (r : Fin 4000) (q : Fin 32) :
    k0_pay1 (F := Ideal) (k0_pay8 (F := Ideal) v9) (k0_pay13 (F := Ideal) v0 v2 v5 v7 v11 v13) (ix2 r q)
      = FaceMlp.outK (fun r k => v11 (ix2 r k)) (fun k n => v13 (ix2 k n)) (fun r k => v0 (ix2 r k)) (fun k j => v2 (ix2 k j))
        (fun j => v5 (ix2 0 j)) (fun j o => v7 (ix2 j o)) (fun o => v9 (ix2 0 o)) 1 r q := by
  unfold k0_pay1 k0_pay13
  exact out_corner v0 v2 v5 v7 v9 v11 v13 1 128 rfl slices_S4000x384_o0_128_S4000x128 r q

/-- Corner 2 (columns 256 … 383). -/
theorem corner2_apply (v0 : Vec Ideal S4000x128 .f32) (v2 : Vec Ideal S128x128 .bf16) (v5 : Vec Ideal S1x128 .f32)
    (v7 : Vec Ideal S128x32 .bf16) (v9 : Vec Ideal S1x32 .f32) (v11 : Vec Ideal S4000x18 .bf16) (v13 : Vec Ideal S18x384 .bf16) (r : Fin 4000) (q : Fin 32) :
    k0_pay2 (F := Ideal) (k0_pay5 (F := Ideal) v0 v2) (k0_pay6 (F := Ideal) v5) (k0_pay7 (F := Ideal) v7) (k0_pay8 (F := Ideal) v9) (k0_pay9 (F := Ideal) v11 v13) (ix2 r q)
      = FaceMlp.outK (fun r k => v11 (ix2 r k)) (fun k n => v13 (ix2 k n)) (fun r k => v0 (ix2 r k)) (fun k j => v2 (ix2 k j))
        (fun j => v5 (ix2 0 j)) (fun j o => v7 (ix2 j o)) (fun o => v9 (ix2 0 o)) 2 r q := by
  unfold k0_pay2
  exact out_corner v0 v2 v5 v7 v9 v11 v13 2 256 rfl slices_S4000x384_o0_256_S4000x128 r q

/-! ## Three [4000, 3] pieces side by side -/

/-- Read at column `col`: the first piece when `col = e`, the second when `col = 3 + e`, the third when `col = 6 + e`. -/
theorem concat3_apply (x0 x1 x2 : FVec Ideal S4000x3 .f32) (r : Fin 4000) (e : Fin 3) (col : Fin 9) :
    (col.val = e.val →
      concatenate S4000x9 1 [⟨S4000x3, x0⟩, ⟨S4000x3, x1⟩, ⟨S4000x3, x2⟩] concatenates_S4000x3_S4000x3_S4000x3_S4000x9_d1
        (ix2 r col) = x0 (ix2 r e))
    ∧ (col.val = 3 + e.val →
      concatenate S4000x9 1 [⟨S4000x3, x0⟩, ⟨S4000x3, x1⟩, ⟨S4000x3, x2⟩] concatenates_S4000x3_S4000x3_S4000x3_S4000x9_d1
        (ix2 r col) = x1 (ix2 r e))
    ∧ (col.val = 6 + e.val →
      concatenate S4000x9 1 [⟨S4000x3, x0⟩, ⟨S4000x3, x1⟩, ⟨S4000x3, x2⟩] concatenates_S4000x3_S4000x3_S4000x3_S4000x9_d1
        (ix2 r col) = x2 (ix2 r e)) := by
  refine ⟨fun hcol => ?_, fun hcol => ?_, fun hcol => ?_⟩
  · refine concatenate_apply_piece (1 : Fin S4000x9.rank) _ _ _ 0 (by show 0 < 3; omega) S4000x3 x0 rfl rfl 0 rfl (ix2 r e) ?_ ?_
    · intro b hb
      match b with
      | ⟨0, _⟩ => rfl
      | ⟨1, _⟩ => exact absurd rfl hb
    · show 0 + e.val = col.val
      omega
  · refine concatenate_apply_piece (1 : Fin S4000x9.rank) _ _ _ 1 (by show 1 < 3; omega) S4000x3 x1 rfl rfl 3 rfl (ix2 r e) ?_ ?_
    · intro b hb
      match b with
      | ⟨0, _⟩ => rfl
      | ⟨1, _⟩ => exact absurd rfl hb
    · show 3 + e.val = col.val
      omega
  · refine concatenate_apply_piece (1 : Fin S4000x9.rank) _ _ _ 2 (by show 2 < 3; omega) S4000x3 x2 rfl rfl 6 rfl (ix2 r e) ?_ ?_
    · intro b hb
      match b with
      | ⟨0, _⟩ => rfl
      | ⟨1, _⟩ => exact absurd rfl hb
    · show 6 + e.val = col.val
      omega

/-! ## The two stored values at an entry -/

/-- The first three outputs of a corner, cut out of its 32: at `(r, e)`. -/
theorem head3_apply (Y : FVec Ideal S4000x32 .f32) (r : Fin 4000) (e : Fin 3) :
    extractStridedSlice S4000x3 ![0, 0] Y slices_S4000x32_o0_0_S4000x3 (ix2 r e) = Y (ix2 r ⟨e.val, by omega⟩) :=
  slice2_axis1_apply 0 Y slices_S4000x32_o0_0_S4000x3 r e ⟨e.val, by omega⟩ (Nat.zero_add _).symm

/-- The other 29 outputs of a corner: at `(r, e)`. -/
theorem tail29_apply (Y : FVec Ideal S4000x32 .f32) (r : Fin 4000) (e : Fin 29) :
    extractStridedSlice S4000x29 ![0, 3] Y slices_S4000x32_o0_3_S4000x29 (ix2 r e) = Y (ix2 r ⟨3 + e.val, by omega⟩) :=
  slice2_axis1_apply 3 Y slices_S4000x32_o0_3_S4000x29 r e ⟨3 + e.val, by omega⟩ rfl

/-- The [4000, 9] stored value: column `3 c + e` of row `r` is output `e` of corner `c`. -/
theorem pos_entry (v0 : Vec Ideal S4000x128 .f32) (v2 : Vec Ideal S128x128 .bf16) (v5 : Vec Ideal S1x128 .f32)
    (v7 : Vec Ideal S128x32 .bf16) (v9 : Vec Ideal S1x32 .f32) (v11 : Vec Ideal S4000x18 .bf16) (v13 : Vec Ideal S18x384 .bf16) (r : Fin 4000) (c e : Fin 3) :
    k0_pay3 (F := Ideal) (k0_pay5 (F := Ideal) v0 v2) (k0_pay6 (F := Ideal) v5) (k0_pay7 (F := Ideal) v7) (k0_pay8 (F := Ideal) v9) (k0_pay9 (F := Ideal) v11 v13)
        (k0_pay11 (F := Ideal) v0 v2 v5 v7 v9 v11 v13) (k0_pay13 (F := Ideal) v0 v2 v5 v7 v11 v13)
        (ix2 r ⟨3 * c.val + e.val, by omega⟩)
      = FaceMlp.outK (fun r k => v11 (ix2 r k)) (fun k n => v13 (ix2 k n)) (fun r k => v0 (ix2 r k)) (fun k j => v2 (ix2 k j))
        (fun j => v5 (ix2 0 j)) (fun j o => v7 (ix2 j o)) (fun o => v9 (ix2 0 o)) c r ⟨e.val, by omega⟩ := by
  unfold k0_pay3
  match c with
  | ⟨0, _⟩ =>
    refine ((concat3_apply _ _ _ r e _).1 (by show 3 * 0 + e.val = e.val; omega)).trans ?_
    unfold k0_pay11
    refine (head3_apply _ r e).trans ?_
    exact corner0_apply v0 v2 v5 v7 v9 v11 v13 r ⟨e.val, by omega⟩
  | ⟨1, _⟩ =>
    refine ((concat3_apply _ _ _ r e _).2.1 (by show 3 * 1 + e.val = 3 + e.val; omega)).trans ?_
    refine (head3_apply _ r e).trans ?_
    exact corner1_apply v0 v2 v5 v7 v9 v11 v13 r ⟨e.val, by omega⟩
  | ⟨2, _⟩ =>
    refine ((concat3_apply _ _ _ r e _).2.2 (by show 3 * 2 + e.val = 6 + e.val; omega)).trans ?_
    refine (head3_apply _ r e).trans ?_
    exact corner2_apply v0 v2 v5 v7 v9 v11 v13 r ⟨e.val, by omega⟩

/-- The accumulator after corner 0: zero plus corner 0's other 29 outputs. -/
theorem pay12_apply (v0 : Vec Ideal S4000x128 .f32) (v2 : Vec Ideal S128x128 .bf16) (v5 : Vec Ideal S1x128 .f32)
    (v7 : Vec Ideal S128x32 .bf16) (v9 : Vec Ideal S1x32 .f32) (v11 : Vec Ideal S4000x18 .bf16) (v13 : Vec Ideal S18x384 .bf16) (r : Fin 4000) (e : Fin 29) :
    k0_pay12 (F := Ideal) v0 v2 v5 v7 v9 v11 v13 (ix2 r e)
      = FaceMlp.outK (fun r k => v11 (ix2 r k)) (fun k n => v13 (ix2 k n)) (fun r k => v0 (ix2 r k)) (fun k j => v2 (ix2 k j))
        (fun j => v5 (ix2 0 j)) (fun j o => v7 (ix2 j o)) (fun o => v9 (ix2 0 o)) 0 r ⟨3 + e.val, by omega⟩ := by
  unfold k0_pay12
  show Ideal.ofBits .f32 0x00000000#32
      + extractStridedSlice S4000x29 ![0, 3] (k0_pay10 (F := Ideal) v0 v2 v5 v7 v9 v11 v13) slices_S4000x32_o0_3_S4000x29 (ix2 r e) = _
  rw [Ideal.ofBits_zero_f32, zero_add, tail29_apply]
  exact corner0_apply v0 v2 v5 v7 v9 v11 v13 r ⟨3 + e.val, by omega⟩

/-- The [4000, 29] stored value: the three corners' output `3 + e` added up and divided by three. -/
theorem feat_entry (v0 : Vec Ideal S4000x128 .f32) (v2 : Vec Ideal S128x128 .bf16) (v5 : Vec Ideal S1x128 .f32)
    (v7 : Vec Ideal S128x32 .bf16) (v9 : Vec Ideal S1x32 .f32) (v11 : Vec Ideal S4000x18 .bf16) (v13 : Vec Ideal S18x384 .bf16) (r : Fin 4000) (e : Fin 29) :
    k0_pay4 (F := Ideal) (k0_pay5 (F := Ideal) v0 v2) (k0_pay6 (F := Ideal) v5) (k0_pay7 (F := Ideal) v7) (k0_pay8 (F := Ideal) v9) (k0_pay9 (F := Ideal) v11 v13)
        (k0_pay12 (F := Ideal) v0 v2 v5 v7 v9 v11 v13) (k0_pay13 (F := Ideal) v0 v2 v5 v7 v11 v13) (ix2 r e)
      = Ideal.div
          ((FaceMlp.outK (fun r k => v11 (ix2 r k)) (fun k n => v13 (ix2 k n)) (fun r k => v0 (ix2 r k)) (fun k j => v2 (ix2 k j))
        (fun j => v5 (ix2 0 j)) (fun j o => v7 (ix2 j o)) (fun o => v9 (ix2 0 o)) 0 r ⟨3 + e.val, by omega⟩
            + FaceMlp.outK (fun r k => v11 (ix2 r k)) (fun k n => v13 (ix2 k n)) (fun r k => v0 (ix2 r k)) (fun k j => v2 (ix2 k j))
        (fun j => v5 (ix2 0 j)) (fun j o => v7 (ix2 j o)) (fun o => v9 (ix2 0 o)) 1 r ⟨3 + e.val, by omega⟩)
            + FaceMlp.outK (fun r k => v11 (ix2 r k)) (fun k n => v13 (ix2 k n)) (fun r k => v0 (ix2 r k)) (fun k j => v2 (ix2 k j))
        (fun j => v5 (ix2 0 j)) (fun j o => v7 (ix2 j o)) (fun o => v9 (ix2 0 o)) 2 r ⟨3 + e.val, by omega⟩)
          (Ideal.ofBits .f32 0x40400000#32) := by
  have h0 := pay12_apply v0 v2 v5 v7 v9 v11 v13 r e
  have h1 := (tail29_apply (k0_pay1 (F := Ideal) (k0_pay8 (F := Ideal) v9) (k0_pay13 (F := Ideal) v0 v2 v5 v7 v11 v13)) r e).trans
    (corner1_apply v0 v2 v5 v7 v9 v11 v13 r ⟨3 + e.val, by omega⟩)
  have h2 := (tail29_apply (k0_pay2 (F := Ideal) (k0_pay5 (F := Ideal) v0 v2) (k0_pay6 (F := Ideal) v5) (k0_pay7 (F := Ideal) v7) (k0_pay8 (F := Ideal) v9) (k0_pay9 (F := Ideal) v11 v13)) r e).trans
    (corner2_apply v0 v2 v5 v7 v9 v11 v13 r ⟨3 + e.val, by omega⟩)
  unfold k0_pay4
  show Ideal.div
      ((k0_pay12 (F := Ideal) v0 v2 v5 v7 v9 v11 v13 (ix2 r e)
        + extractStridedSlice S4000x29 ![0, 3] (k0_pay1 (F := Ideal) (k0_pay8 (F := Ideal) v9) (k0_pay13 (F := Ideal) v0 v2 v5 v7 v11 v13)) slices_S4000x32_o0_3_S4000x29 (ix2 r e))
        + extractStridedSlice S4000x29 ![0, 3] (k0_pay2 (F := Ideal) (k0_pay5 (F := Ideal) v0 v2) (k0_pay6 (F := Ideal) v5) (k0_pay7 (F := Ideal) v7) (k0_pay8 (F := Ideal) v9) (k0_pay9 (F := Ideal) v11 v13)) slices_S4000x32_o0_3_S4000x29 (ix2 r e))
      (Ideal.ofBits .f32 0x40400000#32) = _
  rw [h0, h1, h2]

end Cert.KernelIdeal.BodyEntry

end
-- ==== Proof.KernelIdealBlockEntry.lean ====
/-
  The two output blocks the kernel body leaves, read one entry at a time over the extended reals.

  The body loads each of its seven input blocks whole and stores each of its two output blocks whole, at offset zero. A
  load of a whole block is the block and one covering store leaves its payload, so the block the body leaves is the
  stored value at the loaded blocks themselves: an entry of the 4000 × 9 block is `FaceMlp.outK` of the corner the
  column belongs to, and an entry of the 4000 × 29 block is the mean over the three corners of `FaceMlp.outK`.

  Also here: `FaceMlp.outK` depends on its arguments only through the values it reads — the row of edge columns and
  the row of features at the face, and the weights and biases entry by entry — so two spellings of those arguments that
  agree there give the same output, even over two different types of faces.
-/
import proofs.«142834_j6528350290204_2_alg».proof.Proof.KernelIdealRun
import proofs.«142834_j6528350290204_2_alg».proof.Proof.BodyEntry
import proofs.«142834_j6528350290204_2_alg».proof.Proof.FaceMlp
import Idealize.ShloMosaic.Lib.Pipeline.Value

noncomputable section

namespace FaceMlp

/-- The outputs of a corner at a face depend only on that face's two rows and on the entries of the weights and biases. -/
theorem outK_congr {α β : Type} (D : α → Fin 18 → EReal) (D' : β → Fin 18 → EReal) (B B' : Fin 18 → Fin 384 → EReal)
    (X : α → Fin 128 → EReal) (X' : β → Fin 128 → EReal) (Wf Wf' : Fin 128 → Fin 128 → EReal) (b1 b1' : Fin 128 → EReal)
    (W2 W2' : Fin 128 → Fin 32 → EReal) (b2 b2' : Fin 32 → EReal) (c : Fin 3) (r : α) (r' : β) (o : Fin 32)
    (hD : ∀ k, D r k = D' r' k) (hB : ∀ k n, B k n = B' k n) (hX : ∀ k, X r k = X' r' k)
    (hWf : ∀ k j, Wf k j = Wf' k j) (hb1 : ∀ j, b1 j = b1' j) (hW2 : ∀ j o, W2 j o = W2' j o) (hb2 : ∀ o, b2 o = b2' o) :
    outK D B X Wf b1 W2 b2 c r o = outK D' B' X' Wf' b1' W2' b2' c r' o := by
  simp only [outK, hiddenK, hD, hB, hX, hWf, hb1, hW2, hb2]

end FaceMlp

namespace Cert.KernelIdeal.BlockEntry

open Cert.KernelIdeal Cert.KernelIdeal.Gen Cert.KernelIdeal.Run Idealize.ShloMosaic Idealize.ShloMosaic.ValueIdx

/-- The zero offsets of a whole-block access, as the constant function. -/
theorem hz : (![0, 0] : Fin 2 → Nat) = fun _ => 0 := funext fun a => by fin_cases a <;> rfl

/-- The 4000 × 9 block after the body: column `3 c + e` of row `r` is output `e` of corner `c` at face `r`. -/
theorem posBlock_entry (x0 : Vec Ideal S4000x18 .bf16) (x1 : Vec Ideal S4000x128 .f32) (x2 : Vec Ideal S18x384 .bf16)
    (x3 : Vec Ideal S128x128 .bf16) (x4 : Vec Ideal S1x128 .f32) (x5 : Vec Ideal S128x32 .bf16) (x6 : Vec Ideal S1x32 .f32) (r : Fin 4000) (c e : Fin 3) :
    posBlock (F := Ideal) x0 x1 x2 x3 x4 x5 x6 (ix2 r ⟨3 * c.val + e.val, by omega⟩)
      = FaceMlp.outK (fun r k => x0 (ix2 r k)) (fun k n => x2 (ix2 k n)) (fun r k => x1 (ix2 r k)) (fun k j => x3 (ix2 k j))
        (fun j => x4 (ix2 0 j)) (fun j o => x5 (ix2 j o)) (fun o => x6 (ix2 0 o)) c r ⟨e.val, by omega⟩ := by
  unfold posBlock
  rw [View.canon_unit_zero hz]
  simp only [View.ld_unit_zero (S := S4000x18) hz, View.ld_unit_zero (S := S4000x128) hz, View.ld_unit_zero (S := S18x384) hz,
    View.ld_unit_zero (S := S128x128) hz, View.ld_unit_zero (S := S1x128) hz, View.ld_unit_zero (S := S128x32) hz,
    View.ld_unit_zero (S := S1x32) hz]
  exact Cert.KernelIdeal.BodyEntry.pos_entry x1 x3 x4 x5 x6 x0 x2 r c e

/-- The 4000 × 29 block after the body: the three corners' output `3 + e` at face `r`, added up and divided by three. -/
theorem featBlock_entry (x0 : Vec Ideal S4000x18 .bf16) (x1 : Vec Ideal S4000x128 .f32) (x2 : Vec Ideal S18x384 .bf16)
    (x3 : Vec Ideal S128x128 .bf16) (x4 : Vec Ideal S1x128 .f32) (x5 : Vec Ideal S128x32 .bf16) (x6 : Vec Ideal S1x32 .f32) (r : Fin 4000) (e : Fin 29) :
    featBlock (F := Ideal) x0 x1 x2 x3 x4 x5 x6 (ix2 r e)
      = Ideal.div
          ((FaceMlp.outK (fun r k => x0 (ix2 r k)) (fun k n => x2 (ix2 k n)) (fun r k => x1 (ix2 r k)) (fun k j => x3 (ix2 k j))
        (fun j => x4 (ix2 0 j)) (fun j o => x5 (ix2 j o)) (fun o => x6 (ix2 0 o)) 0 r ⟨3 + e.val, by omega⟩
            + FaceMlp.outK (fun r k => x0 (ix2 r k)) (fun k n => x2 (ix2 k n)) (fun r k => x1 (ix2 r k)) (fun k j => x3 (ix2 k j))
        (fun j => x4 (ix2 0 j)) (fun j o => x5 (ix2 j o)) (fun o => x6 (ix2 0 o)) 1 r ⟨3 + e.val, by omega⟩)
            + FaceMlp.outK (fun r k => x0 (ix2 r k)) (fun k n => x2 (ix2 k n)) (fun r k => x1 (ix2 r k)) (fun k j => x3 (ix2 k j))
        (fun j => x4 (ix2 0 j)) (fun j o => x5 (ix2 j o)) (fun o => x6 (ix2 0 o)) 2 r ⟨3 + e.val, by omega⟩)
          (Ideal.ofBits .f32 0x40400000#32) := by
  unfold featBlock
  rw [View.canon_unit_zero hz]
  simp only [View.ld_unit_zero (S := S4000x18) hz, View.ld_unit_zero (S := S4000x128) hz, View.ld_unit_zero (S := S18x384) hz,
    View.ld_unit_zero (S := S128x128) hz, View.ld_unit_zero (S := S1x128) hz, View.ld_unit_zero (S := S128x32) hz,
    View.ld_unit_zero (S := S1x32) hz]
  exact Cert.KernelIdeal.BodyEntry.feat_entry x1 x3 x4 x5 x6 x0 x2 r e

end Cert.KernelIdeal.BlockEntry

end
-- ==== Proof.PrefixEntry.lean ====
/-
  The arrays the host computes before the kernel region, read at an index, over the extended reals.

  Every array here is a rearrangement of the arguments: differences of gathered corner positions laid side by
  side (eighteen columns), rows cut from the first weight, a weight laid three times along a diagonal with
  zeros elsewhere, and biases given a leading unit axis. Over the extended reals a change of number format is
  the identity, so each array read at an index is one entry of an argument, a difference of two, or zero.
  The statements are over variables; no memory and no run appear.
-/
import proofs.«142834_j6528350290204_2_alg».proof.KernelIdeal
import proofs.«142834_j6528350290204_2_alg».proof.Proof.FaceMlp
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.PrefixEntry

open Cert.KernelIdeal Idealize.ShloMosaic Idealize.ShloMosaic.ValueIdx
open Cert.KernelIdeal.Facts₀

variable [Cert.KernelIdeal.Facts]

/-! ## Rows cut from a weight, a format change, and a bias as one row -/

/-- The last 128 rows of the first weight, narrowed: entry `(k, j)` is the weight's entry `(6 + k, j)`. -/
theorem featureWeight_apply (w : FVec Ideal S134x128 .f32) (k j : Fin 128) :
    truncf .bf16 (extractStridedSlice S128x128 ![6, 0] w slices_S134x128_S128x128_6_0) bitsLt_bf16_f32 (ix2 k j)
      = w (ix2 ⟨6 + k.val, by omega⟩ j) := by
  rw [truncf_apply]
  exact slice2_axis0_apply 6 w slices_S134x128_S128x128_6_0 k j ⟨6 + k.val, by omega⟩ rfl

/-- The first six rows of the first weight, narrowed: entry `(a, m)` is the weight's entry `(a, m)`. -/
theorem edgeWeight_apply (w : FVec Ideal S134x128 .f32) (a : Fin 6) (m : Fin 128) :
    truncf .bf16 (extractStridedSlice S6x128 ![0, 0] w slices_S134x128_S6x128_0_0) bitsLt_bf16_f32 (ix2 a m)
      = w (ix2 ⟨a.val, by omega⟩ m) := by
  rw [truncf_apply]
  exact slice2_axis0_apply 0 w slices_S134x128_S6x128_0_0 a m ⟨a.val, by omega⟩ (Nat.zero_add _).symm

/-- Narrowing the second weight changes nothing over the extended reals. -/
theorem secondWeight_eq (w2 : FVec Ideal S128x32 .f32) :
    (truncf .bf16 w2 bitsLt_bf16_f32 : S128x32.Idx → EReal) = w2 := rfl

/-- The same at an index. -/
theorem secondWeight_apply (w2 : FVec Ideal S128x32 .f32) (i : S128x32.Idx) :
    truncf .bf16 w2 bitsLt_bf16_f32 i = w2 i := rfl

/-- The first bias as one row: entry `(0, j)` is the bias's entry `j`. -/
theorem firstBias_apply (b : FVec Ideal S128 .f32) (u : Fin 1) (j : Fin 128) :
    shapeCast S1x128 b shapeCasts_S128_S1x128 (ix2 u j) = b (ix1 j) :=
  shapeCast_a_1a_apply b shapeCasts_S128_S1x128 u j

/-- The second bias as one row: entry `(0, o)` is the bias's entry `o`. -/
theorem secondBias_apply (b : FVec Ideal S32 .f32) (u : Fin 1) (o : Fin 32) :
    shapeCast S1x32 b shapeCasts_S32_S1x32 (ix2 u o) = b (ix1 o) :=
  shapeCast_a_1a_apply b shapeCasts_S32_S1x32 u o

/-! ## Pieces laid side by side, read at an index -/

section Pieces
variable {α : Type}

/-- Six three-column pieces side by side: column `3 n + e` is column `e` of piece `n`. -/
theorem sixPieces_apply (u0 u1 u2 u3 u4 u5 : S200000x3.Idx → α) (f : Fin 200000) (n : Fin 6) (e : Fin 3) :
    concatenate S200000x18 1 [⟨S200000x3, u0⟩, ⟨S200000x3, u1⟩, ⟨S200000x3, u2⟩, ⟨S200000x3, u3⟩, ⟨S200000x3, u4⟩, ⟨S200000x3, u5⟩]
        concatenates_S200000x3_S200000x3_S200000x3_S200000x3_S200000x3_S200000x3_S200000x18_d1 (ix2 f ⟨3 * n.val + e.val, by omega⟩)
      = ![u0, u1, u2, u3, u4, u5] n (ix2 f e) := by
  refine concatenate_ofFn_apply (t := S200000x18) (s₁ := S200000x3) 1 (fun i : Fin 6 => ![u0, u1, u2, u3, u4, u5] i)
    concatenates_S200000x3_S200000x3_S200000x3_S200000x3_S200000x3_S200000x3_S200000x18_d1 rfl 3 rfl
    (ix2 f ⟨3 * n.val + e.val, by omega⟩) n ?_ (ix2 f e) ?_ ?_
  · show (3 * n.val + e.val) / 3 = n.val
    omega
  · show e.val = (3 * n.val + e.val) % 3
    omega
  · intro b hb
    match b with
    | ⟨0, _⟩ => rfl
    | ⟨1, _⟩ => exact absurd rfl hb

end Pieces

section Pieces3
variable {α : Type}

/-- Three 128-column pieces side by side: column `128 d + m` is column `m` of piece `d`. -/
theorem threeColumnBlocks_apply (v0 v1 v2 : S6x128.Idx → α) (a : Fin 6) (d : Fin 3) (m : Fin 128) :
    concatenate S6x384 1 [⟨S6x128, v0⟩, ⟨S6x128, v1⟩, ⟨S6x128, v2⟩] concatenates_S6x128_S6x128_S6x128_S6x384_d1
        (ix2 a ⟨128 * d.val + m.val, by omega⟩)
      = ![v0, v1, v2] d (ix2 a m) := by
  refine concatenate_ofFn_apply (t := S6x384) (s₁ := S6x128) 1 (fun i : Fin 3 => ![v0, v1, v2] i)
    concatenates_S6x128_S6x128_S6x128_S6x384_d1 rfl 128 rfl
    (ix2 a ⟨128 * d.val + m.val, by omega⟩) d ?_ (ix2 a m) ?_ ?_
  · show (128 * d.val + m.val) / 128 = d.val
    omega
  · show m.val = (128 * d.val + m.val) % 128
    omega
  · intro b hb
    match b with
    | ⟨0, _⟩ => rfl
    | ⟨1, _⟩ => exact absurd rfl hb

/-- Three six-row pieces one above another: row `6 c + a` is row `a` of piece `c`. -/
theorem threeRowBlocks_apply (r0 r1 r2 : S6x384.Idx → α) (c : Fin 3) (a : Fin 6) (n : Fin 384) :
    concatenate S18x384 0 [⟨S6x384, r0⟩, ⟨S6x384, r1⟩, ⟨S6x384, r2⟩] concatenates_S6x384_S6x384_S6x384_S18x384_d0
        (ix2 ⟨6 * c.val + a.val, by omega⟩ n)
      = ![r0, r1, r2] c (ix2 a n) := by
  refine concatenate_ofFn_apply (t := S18x384) (s₁ := S6x384) 0 (fun i : Fin 3 => ![r0, r1, r2] i)
    concatenates_S6x384_S6x384_S6x384_S18x384_d0 rfl 6 rfl
    (ix2 ⟨6 * c.val + a.val, by omega⟩ n) c ?_ (ix2 a n) ?_ ?_
  · show (6 * c.val + a.val) / 6 = c.val
    omega
  · show a.val = (6 * c.val + a.val) % 6
    omega
  · intro b hb
    match b with
    | ⟨0, _⟩ => exact absurd rfl hb
    | ⟨1, _⟩ => rfl

end Pieces3

/-- The block of zeros: the bf16 zero word spread over six rows and 128 columns reads zero everywhere. -/
theorem zeroBlock_apply (i : S6x128.Idx) :
    broadcastInDim S6x128 ![] bcast_S_S6x128 (constant (F := Ideal) S_ .bf16 0x0000#16) i = (0 : EReal) := by
  rw [broadcastInDim_scalar_apply, constant_apply, Ideal.ofBits_zero_bf16]

/-! ## The eighteen edge columns -/

/-- The six edge vectors of every face side by side, narrowed: column `k` of face `f` is the entry the
    specification names. -/
theorem edges_apply (p0 p1 p2 : FVec Ideal S200000x3 .f32) (f : Fin 200000) (k : Fin 18) :
    truncf .bf16 (concatenate S200000x18 1 [⟨S200000x3, subf p1 p0⟩, ⟨S200000x3, subf p2 p0⟩, ⟨S200000x3, subf p2 p1⟩,
        ⟨S200000x3, subf p0 p1⟩, ⟨S200000x3, subf p0 p2⟩, ⟨S200000x3, subf p1 p2⟩]
        concatenates_S200000x3_S200000x3_S200000x3_S200000x3_S200000x3_S200000x3_S200000x18_d1) bitsLt_bf16_f32 (ix2 f k)
      = FaceMlp.edges18 (fun f e => p0 (ix2 f e)) (fun f e => p1 (ix2 f e)) (fun f e => p2 (ix2 f e)) f k := by
  rw [truncf_apply]
  obtain ⟨n, e, rfl⟩ : ∃ (n : Fin 6) (e : Fin 3), k = ⟨3 * n.val + e.val, by omega⟩ :=
    ⟨⟨k.val / 3, by omega⟩, ⟨k.val % 3, by omega⟩, Fin.ext (by show k.val = 3 * (k.val / 3) + k.val % 3; omega)⟩
  rw [sixPieces_apply]
  fin_cases n <;> fin_cases e <;> rfl

/-! ## The weight laid three times along a diagonal -/

/-- The specification's diagonal matrix at row `6 c + a` and column `128 d + m`: the weight's entry `(a, m)` on
    the diagonal blocks, zero off them. -/
theorem blockDiag_at (W : Fin 6 → Fin 128 → EReal) (c d : Fin 3) (a : Fin 6) (m : Fin 128) :
    FaceMlp.blockDiag W ⟨6 * c.val + a.val, by omega⟩ ⟨128 * d.val + m.val, by omega⟩ = if c = d then W a m else 0 := by
  have h1 : (6 * c.val + a.val) / 6 = c.val := by omega
  have h2 : (128 * d.val + m.val) / 128 = d.val := by omega
  have h3 : (⟨(6 * c.val + a.val) % 6, Nat.mod_lt _ (by omega)⟩ : Fin 6) = a := Fin.ext (by show (6 * c.val + a.val) % 6 = a.val; omega)
  have h4 : (⟨(128 * d.val + m.val) % 128, Nat.mod_lt _ (by omega)⟩ : Fin 128) = m :=
    Fin.ext (by show (128 * d.val + m.val) % 128 = m.val; omega)
  show (if (6 * c.val + a.val) / 6 = (128 * d.val + m.val) / 128
      then W ⟨(6 * c.val + a.val) % 6, _⟩ ⟨(128 * d.val + m.val) % 128, _⟩ else 0) = _
  rw [h1, h2, h3, h4]
  by_cases hcd : c = d
  · rw [if_pos hcd, if_pos (congrArg Fin.val hcd)]
  · rw [if_neg hcd, if_neg (fun h => hcd (Fin.ext h))]

/-- The 18 × 384 weight the host builds — the first six rows of the first weight, narrowed, three times along the
    diagonal, blocks of zeros elsewhere — is the specification's diagonal matrix of those six rows. -/
theorem blockWeight_apply (w : FVec Ideal S134x128 .f32) (k : Fin 18) (n : Fin 384) :
    concatenate S18x384 0
        [⟨S6x384, concatenate S6x384 1
            [⟨S6x128, truncf .bf16 (extractStridedSlice S6x128 ![0, 0] w slices_S134x128_S6x128_0_0) bitsLt_bf16_f32⟩,
             ⟨S6x128, broadcastInDim S6x128 ![] bcast_S_S6x128 (constant (F := Ideal) S_ .bf16 0x0000#16)⟩,
             ⟨S6x128, broadcastInDim S6x128 ![] bcast_S_S6x128 (constant (F := Ideal) S_ .bf16 0x0000#16)⟩]
            concatenates_S6x128_S6x128_S6x128_S6x384_d1⟩,
         ⟨S6x384, concatenate S6x384 1
            [⟨S6x128, broadcastInDim S6x128 ![] bcast_S_S6x128 (constant (F := Ideal) S_ .bf16 0x0000#16)⟩,
             ⟨S6x128, truncf .bf16 (extractStridedSlice S6x128 ![0, 0] w slices_S134x128_S6x128_0_0) bitsLt_bf16_f32⟩,
             ⟨S6x128, broadcastInDim S6x128 ![] bcast_S_S6x128 (constant (F := Ideal) S_ .bf16 0x0000#16)⟩]
            concatenates_S6x128_S6x128_S6x128_S6x384_d1⟩,
         ⟨S6x384, concatenate S6x384 1
            [⟨S6x128, broadcastInDim S6x128 ![] bcast_S_S6x128 (constant (F := Ideal) S_ .bf16 0x0000#16)⟩,
             ⟨S6x128, broadcastInDim S6x128 ![] bcast_S_S6x128 (constant (F := Ideal) S_ .bf16 0x0000#16)⟩,
             ⟨S6x128, truncf .bf16 (extractStridedSlice S6x128 ![0, 0] w slices_S134x128_S6x128_0_0) bitsLt_bf16_f32⟩]
            concatenates_S6x128_S6x128_S6x128_S6x384_d1⟩]
        concatenates_S6x384_S6x384_S6x384_S18x384_d0 (ix2 k n)
      = FaceMlp.blockDiag (fun a n => w (ix2 ⟨a.val, by omega⟩ n)) k n := by
  obtain ⟨c, a, rfl⟩ : ∃ (c : Fin 3) (a : Fin 6), k = ⟨6 * c.val + a.val, by omega⟩ :=
    ⟨⟨k.val / 6, by omega⟩, ⟨k.val % 6, by omega⟩, Fin.ext (by show k.val = 6 * (k.val / 6) + k.val % 6; omega)⟩
  obtain ⟨d, m, rfl⟩ : ∃ (d : Fin 3) (m : Fin 128), n = ⟨128 * d.val + m.val, by omega⟩ :=
    ⟨⟨n.val / 128, by omega⟩, ⟨n.val % 128, by omega⟩, Fin.ext (by show n.val = 128 * (n.val / 128) + n.val % 128; omega)⟩
  rw [threeRowBlocks_apply, blockDiag_at]
  fin_cases c <;> fin_cases d <;>
    first
    | exact (threeColumnBlocks_apply _ _ _ a _ m).trans (edgeWeight_apply w a m)
    | exact (threeColumnBlocks_apply _ _ _ a _ m).trans (zeroBlock_apply (ix2 a m))

end Cert.KernelIdeal.PrefixEntry

end
-- ==== Proof.KernelIdealPrefix.lean ====
/-
  What the buffers the kernel's windows read hold when the kernel region is entered, named over the arguments.

  Before the region the host gathers the three corner positions of every face, lays their six differences side
  by side, cuts the first weight into its six edge rows and its 128 feature rows, lays the edge rows three times
  along a diagonal, narrows the second weight and gives each bias a leading unit axis. Each of those buffers,
  read at an index, is an entry of the specification's arrays over the arguments as the run found them.
-/
import proofs.«142834_j6528350290204_2_alg».proof.Proof.KernelIdealHost
import proofs.«142834_j6528350290204_2_alg».proof.Proof.PrefixEntry
import proofs.«142834_j6528350290204_2_alg».proof.Proof.FaceMlp
import Idealize.ShloMosaic.Lib.StableHlo.Run

set_option maxRecDepth 16384

noncomputable section

namespace Cert.KernelIdeal.Prefix

open Cert.KernelIdeal Cert.KernelIdeal.PrefixEntry
open Idealize.ShloMosaic Idealize.ShloMosaic.TcCoe Idealize.ShloMosaic.ValueIdx Idealize.ShloMosaic.StableHlo
open Cert.KernelIdeal.Facts₀

variable (m : (ℓ : Loc nD τ sig) → Buf (Elt Ideal) ℓ) (c : Dev nD)

/-! ## Unfolding the host operations -/

/-- What a buffer holds after a literal list of host operations, unfolded: each operation's result at its own
    buffer is its function of the operands' contents, at any other buffer what was there; an operand named as an
    entry of a literal family is read at that entry, and the unfolding goes on from there. -/
macro "host_results" : tactic =>
  `(tactic| repeat (simp (disch := decide) only [after_cons, after_nil,
      nullary_result', unary_result', binary_result', ternary_result', reshape_result', nary_result',
      nullary_result_ne', unary_result_ne', binary_result_ne', ternary_result_ne', reshape_result_ne', nary_result_ne',
      Matrix.cons_val]))

/-! ## The three gathered corners -/

/-- One column of the faces' table as a vector of node numbers. -/
def faceColumn (off : Fin 2 → Nat) (h : S200000x3.Slices off S200000x1) (faces : IVec S200000x3 32) : IVec S200000 32 :=
  shapeCast S200000 (extractStridedSlice S200000x1 off faces h) shapeCasts_S200000x1_S200000

/-- The start indices the host gathers at: a negative node number has the number of nodes added, and the vector
    is given a trailing unit axis. -/
def startIndices (v : IVec S200000 32) : IVec S200000x1 32 :=
  broadcastInDim S200000x1 ![0] bcast_S200000_S200000x1_0
    (select (cmpi .slt v (broadcastInDim S200000 ![] bcast_S_S200000 (constantI S_ 32 0#32)))
      (addi v (broadcastInDim S200000 ![] bcast_S_S200000 (constantI S_ 32 100000#32))) v)

/-- The positions of every face's corner 0: the rows of `pos` the first column of `faces` names. -/
def corner0 (pos : FVec Ideal S100000x3 .f32) (faces : IVec S200000x3 32) : FVec Ideal S200000x3 .f32 :=
  Host.gather gather_S100000x3_S200000x1_S200000x3_1_0_n_n_0_1_13 pos
    (startIndices (faceColumn ![0, 0] slices_S200000x3_S200000x1_0_0 faces))

/-- The positions of every face's corner 1. -/
def corner1 (pos : FVec Ideal S100000x3 .f32) (faces : IVec S200000x3 32) : FVec Ideal S200000x3 .f32 :=
  Host.gather gather_S100000x3_S200000x1_S200000x3_1_0_n_n_0_1_13 pos
    (startIndices (faceColumn ![0, 1] slices_S200000x3_S200000x1_0_1 faces))

/-- The positions of every face's corner 2. -/
def corner2 (pos : FVec Ideal S100000x3 .f32) (faces : IVec S200000x3 32) : FVec Ideal S200000x3 .f32 :=
  Host.gather gather_S100000x3_S200000x1_S200000x3_1_0_n_n_0_1_13 pos
    (startIndices (faceColumn ![0, 2] slices_S200000x3_S200000x1_0_2 faces))

/-- When the region is entered, the buffer of the first gather holds corner 0's positions. -/
theorem V_corner0 :
    (Host.V m c main_v8 : S200000x3.Idx → EReal)
      = corner0 (m ((c : Thread nD τ).loc main_arg0)) (m ((c : Thread nD τ).loc main_arg6)) := by
  show StableHlo.after Gen.hostOps0 (fun b => m (c, b)) (Proc.devRef .tc main_v8) = _
  host_results
  rfl

/-- The buffer of the second gather holds corner 1's positions. -/
theorem V_corner1 :
    (Host.V m c main_v17 : S200000x3.Idx → EReal)
      = corner1 (m ((c : Thread nD τ).loc main_arg0)) (m ((c : Thread nD τ).loc main_arg6)) := by
  show StableHlo.after Gen.hostOps0 (fun b => m (c, b)) (Proc.devRef .tc main_v17) = _
  host_results
  rfl

/-- The buffer of the third gather holds corner 2's positions. -/
theorem V_corner2 :
    (Host.V m c main_v26 : S200000x3.Idx → EReal)
      = corner2 (m ((c : Thread nD τ).loc main_arg0)) (m ((c : Thread nD τ).loc main_arg6)) := by
  show StableHlo.after Gen.hostOps0 (fun b => m (c, b)) (Proc.devRef .tc main_v26) = _
  host_results
  rfl

/-! ## The eighteen edge columns, as the region finds them -/

/-- The buffer of the narrowed join holds the six differences of the gathered corners side by side. -/
theorem V_edges_fun :
    (Host.V m c main_v34 : S200000x18.Idx → EReal)
      = (truncf (F := Ideal) .bf16
          (concatenate S200000x18 1
            [⟨S200000x3, subf (corner1 (m ((c : Thread nD τ).loc main_arg0)) (m ((c : Thread nD τ).loc main_arg6)))
                (corner0 (m ((c : Thread nD τ).loc main_arg0)) (m ((c : Thread nD τ).loc main_arg6)))⟩,
             ⟨S200000x3, subf (corner2 (m ((c : Thread nD τ).loc main_arg0)) (m ((c : Thread nD τ).loc main_arg6)))
                (corner0 (m ((c : Thread nD τ).loc main_arg0)) (m ((c : Thread nD τ).loc main_arg6)))⟩,
             ⟨S200000x3, subf (corner2 (m ((c : Thread nD τ).loc main_arg0)) (m ((c : Thread nD τ).loc main_arg6)))
                (corner1 (m ((c : Thread nD τ).loc main_arg0)) (m ((c : Thread nD τ).loc main_arg6)))⟩,
             ⟨S200000x3, subf (corner0 (m ((c : Thread nD τ).loc main_arg0)) (m ((c : Thread nD τ).loc main_arg6)))
                (corner1 (m ((c : Thread nD τ).loc main_arg0)) (m ((c : Thread nD τ).loc main_arg6)))⟩,
             ⟨S200000x3, subf (corner0 (m ((c : Thread nD τ).loc main_arg0)) (m ((c : Thread nD τ).loc main_arg6)))
                (corner2 (m ((c : Thread nD τ).loc main_arg0)) (m ((c : Thread nD τ).loc main_arg6)))⟩,
             ⟨S200000x3, subf (corner1 (m ((c : Thread nD τ).loc main_arg0)) (m ((c : Thread nD τ).loc main_arg6)))
                (corner2 (m ((c : Thread nD τ).loc main_arg0)) (m ((c : Thread nD τ).loc main_arg6)))⟩]
            concatenates_S200000x3_S200000x3_S200000x3_S200000x3_S200000x3_S200000x3_S200000x18_d1)
          bitsLt_bf16_f32 : S200000x18.Idx → EReal) := by
  show StableHlo.after Gen.hostOps0 (fun b => m (c, b)) (Proc.devRef .tc main_v34) = _
  host_results
  rfl

/-- Column `k` of face `f` is the entry the specification names, over the gathered corners. -/
theorem V_edges (f : Fin 200000) (k : Fin 18) :
    (Host.V m c main_v34 : S200000x18.Idx → EReal) (ix2 f k)
      = FaceMlp.edges18
          (fun f e => corner0 (m ((c : Thread nD τ).loc main_arg0)) (m ((c : Thread nD τ).loc main_arg6)) (ix2 f e))
          (fun f e => corner1 (m ((c : Thread nD τ).loc main_arg0)) (m ((c : Thread nD τ).loc main_arg6)) (ix2 f e))
          (fun f e => corner2 (m ((c : Thread nD τ).loc main_arg0)) (m ((c : Thread nD τ).loc main_arg6)) (ix2 f e)) f k := by
  rw [V_edges_fun]
  exact edges_apply _ _ _ f k

/-! ## The weights and the biases, as the region finds them -/

/-- The buffer of the 18 × 384 weight holds the specification's diagonal matrix of the first weight's six edge rows. -/
theorem V_blockWeight (k : Fin 18) (n : Fin 384) :
    (Host.V m c main_v46 : S18x384.Idx → EReal) (ix2 k n)
      = FaceMlp.blockDiag (fun a n => (m ((c : Thread nD τ).loc main_arg2) : S134x128.Idx → EReal) (ix2 ⟨a.val, by omega⟩ n)) k n := by
  refine (congrFun ?_ (ix2 k n)).trans (blockWeight_apply (m ((c : Thread nD τ).loc main_arg2)) k n)
  show StableHlo.after Gen.hostOps0 (fun b => m (c, b)) (Proc.devRef .tc main_v46) = _
  host_results
  rfl

/-- The buffer of the feature rows holds rows 6 to 133 of the first weight. -/
theorem V_featureWeight (k j : Fin 128) :
    (Host.V m c main_v38 : S128x128.Idx → EReal) (ix2 k j)
      = (m ((c : Thread nD τ).loc main_arg2) : S134x128.Idx → EReal) (ix2 ⟨6 + k.val, by omega⟩ j) := by
  refine (congrFun ?_ (ix2 k j)).trans (featureWeight_apply (m ((c : Thread nD τ).loc main_arg2)) k j)
  show StableHlo.after Gen.hostOps0 (fun b => m (c, b)) (Proc.devRef .tc main_v38) = _
  host_results

/-- The buffer of the narrowed second weight holds the second weight. -/
theorem V_secondWeight (j : Fin 128) (o : Fin 32) :
    (Host.V m c main_v39 : S128x32.Idx → EReal) (ix2 j o)
      = (m ((c : Thread nD τ).loc main_arg4) : S128x32.Idx → EReal) (ix2 j o) := by
  refine (congrFun ?_ (ix2 j o)).trans (secondWeight_apply (m ((c : Thread nD τ).loc main_arg4)) (ix2 j o))
  show StableHlo.after Gen.hostOps0 (fun b => m (c, b)) (Proc.devRef .tc main_v39) = _
  host_results

/-- The buffer of the first bias as one row holds the first bias. -/
theorem V_firstBias (u : Fin 1) (j : Fin 128) :
    (Host.V m c main_v40 : S1x128.Idx → EReal) (ix2 u j)
      = (m ((c : Thread nD τ).loc main_arg3) : S128.Idx → EReal) (ix1 j) := by
  refine (congrFun ?_ (ix2 u j)).trans (firstBias_apply (m ((c : Thread nD τ).loc main_arg3)) u j)
  show StableHlo.after Gen.hostOps0 (fun b => m (c, b)) (Proc.devRef .tc main_v40) = _
  host_results
  rfl

/-- The buffer of the second bias as one row holds the second bias. -/
theorem V_secondBias (u : Fin 1) (o : Fin 32) :
    (Host.V m c main_v41 : S1x32.Idx → EReal) (ix2 u o)
      = (m ((c : Thread nD τ).loc main_arg5) : S32.Idx → EReal) (ix1 o) := by
  refine (congrFun ?_ (ix2 u o)).trans (secondBias_apply (m ((c : Thread nD τ).loc main_arg5)) u o)
  show StableHlo.after Gen.hostOps0 (fun b => m (c, b)) (Proc.devRef .tc main_v41) = _
  host_results
  rfl

end Cert.KernelIdeal.Prefix

end
-- ==== Proof.LibSumSplit.lean ====
/-
  A sum over `Fin n` with `n = a + b` is the sum of its first `a` terms plus the sum of its last `b` terms,
  with the two halves indexed by `Fin a` and `Fin b` through explicit bounds (no cast of the index type is left
  in the statement). It holds in any additive commutative monoid: only associativity and commutativity of
  addition are used, so it applies to the extended reals as it stands, infinities included.
-/
import Mathlib.Algebra.BigOperators.Fin

namespace Cert.LibSumSplit

/-- `∑ k < a + b, g k = ∑ k < a, g k + ∑ k < b, g (a + k)`, the index type of the whole sum being `Fin n` for
    any `n` equal to `a + b`. -/
theorem sum_split {M : Type*} [AddCommMonoid M] (a b n : ℕ) (h : a + b = n) (g : Fin n → M) :
    ∑ k : Fin n, g k
      = ∑ k : Fin a, g ⟨k.val, by have := k.isLt; omega⟩ + ∑ k : Fin b, g ⟨a + k.val, by have := k.isLt; omega⟩ := by
  subst h
  exact Fin.sum_univ_add g

end Cert.LibSumSplit
-- ==== Proof.FaceAlgebra.lean ====
/-
  The two ways of computing a corner's 32 outputs agree.

  The 134-term sum `x · W1` splits as its first six terms plus its last 128. The 18-term sum against the
  block-diagonal weight keeps only the six terms of the corner's own block, because every other term is a
  product with zero, and a product with zero is zero for every extended real. Only regrouping of sums is used,
  so there is no finiteness hypothesis.
-/
import proofs.«142834_j6528350290204_2_alg».proof.Proof.FaceMlp
import proofs.«142834_j6528350290204_2_alg».proof.Proof.LibSumSplit

noncomputable section

namespace FaceMlp

open scoped BigOperators

variable {α : Type}

/-- Column `128 c + j` of the block-diagonal matrix: row `k` carries `W (k mod 6) j` when `k` lies in
    block `c`, and zero otherwise. -/
theorem blockDiag_col (W : Fin 6 → Fin 128 → EReal) (k : Fin 18) (c : Fin 3) (j : Fin 128) :
    blockDiag W k ⟨128 * c.val + j.val, by omega⟩
      = if k.val / 6 = c.val then W ⟨k.val % 6, by omega⟩ j else 0 := by
  have h1 : (128 * c.val + j.val) / 128 = c.val := by omega
  have h2 : (⟨(128 * c.val + j.val) % 128, by omega⟩ : Fin 128) = j := Fin.ext (by simp only []; omega)
  simp only [blockDiag, h1, h2]

/-- A sum of 18 terms is the sum over its three blocks of the six terms of each block. -/
theorem sum18_blocks (g : Fin 18 → EReal) :
    ∑ k : Fin 18, g k = ∑ i : Fin 3, ∑ a : Fin 6, g ⟨6 * i.val + a.val, by omega⟩ := by
  rw [Cert.LibSumSplit.sum_split 6 12 18 rfl g,
    Cert.LibSumSplit.sum_split 6 6 12 rfl (fun k : Fin 12 => g ⟨6 + k.val, by omega⟩),
    Fin.sum_univ_three, add_assoc]
  simp only [Fin.val_zero, Fin.val_one, Fin.val_two, Nat.mul_zero, Nat.zero_add, Nat.mul_one,
    Nat.reduceMul, ← Nat.add_assoc, Nat.reduceAdd]

/-- Block `i` of the 18-term sum against column `128 c + j`: the whole six-term sum when `i = c`, and zero
    otherwise, every term then being a product with zero. -/
theorem block_sum (D : Fin 18 → EReal) (W : Fin 6 → Fin 128 → EReal) (j : Fin 128) (i c : Fin 3) :
    ∑ a : Fin 6, D ⟨6 * i.val + a.val, by omega⟩
        * (if (6 * i.val + a.val) / 6 = c.val then W ⟨(6 * i.val + a.val) % 6, by omega⟩ j else 0)
      = if i = c then ∑ a : Fin 6, D ⟨6 * i.val + a.val, by omega⟩ * W a j else 0 := by
  by_cases h : i = c
  · subst h
    rw [if_pos rfl]
    refine Finset.sum_congr rfl fun a _ => ?_
    have h1 : (6 * i.val + a.val) / 6 = i.val := by omega
    have h2 : (⟨(6 * i.val + a.val) % 6, by omega⟩ : Fin 6) = a := Fin.ext (by simp only []; omega)
    rw [if_pos h1, h2]
  · rw [if_neg h]
    refine Finset.sum_eq_zero fun a _ => ?_
    have h1 : ¬ (6 * i.val + a.val) / 6 = c.val := by
      intro e
      apply h
      apply Fin.ext
      omega
    rw [if_neg h1, mul_zero]

/-- The 18-term sum against column `128 c + j` of the block-diagonal matrix is the six-term sum of block `c`. -/
theorem sum18_blockDiag (D : Fin 18 → EReal) (W : Fin 6 → Fin 128 → EReal) (c : Fin 3) (j : Fin 128) :
    ∑ k : Fin 18, D k * blockDiag W k ⟨128 * c.val + j.val, by omega⟩
      = ∑ a : Fin 6, D ⟨6 * c.val + a.val, by omega⟩ * W a j := by
  simp only [blockDiag_col]
  rw [sum18_blocks]
  simp only [block_sum D W j _ c]
  rw [Finset.sum_ite_eq' Finset.univ c, if_pos (Finset.mem_univ c)]

/-- Entry `6 c + a` of the 18 edge numbers is entry `a` of corner `c`'s layer input. -/
theorem edges18_block (P0 P1 P2 : α → Fin 3 → EReal) (X : α → Fin 128 → EReal) (c : Fin 3) (f : α) (a : Fin 6) :
    edges18 P0 P1 P2 f ⟨6 * c.val + a.val, by omega⟩
      = input (edgeA P0 P1 P2 c) (edgeB P0 P1 P2 c) X f ⟨a.val, by omega⟩ := by
  have h1 : (6 * c.val + a.val) / 6 = c.val := by omega
  have h2 : (6 * c.val + a.val) % 6 = a.val := by omega
  have hc : (⟨(6 * c.val + a.val) / 6, by omega⟩ : Fin 3) = c := Fin.ext h1
  have h6 : a.val < 6 := a.isLt
  simp only [edges18, input, h2, hc]
  split_ifs <;> first | rfl | omega

/-- Past its first six entries the layer input is the face's features. -/
theorem input_tail (da db : α → Fin 3 → EReal) (X : α → Fin 128 → EReal) (f : α) (k : Fin 128) :
    input da db X f ⟨6 + k.val, by omega⟩ = X f k := by
  have h1 : ¬ (6 + k.val < 3) := by omega
  have h2 : ¬ (6 + k.val < 6) := by omega
  have h3 : (⟨6 + k.val - 6, by omega⟩ : Fin 128) = k := Fin.ext (by simp only []; omega)
  simp only [input, h1, h2, dite_false, h3]

/-- The 32 outputs of corner `c` computed through the block-diagonal 18-column product and the shared
    128-column product are the two layers applied to corner `c`'s 134-number input. -/
theorem outK_eq_mlp {α : Type} (P0 P1 P2 : α → Fin 3 → EReal) (X : α → Fin 128 → EReal) (W1 : Fin 134 → Fin 128 → EReal) (b1 : Fin 128 → EReal) (W2 : Fin 128 → Fin 32 → EReal) (b2 : Fin 32 → EReal) (c : Fin 3) (f : α) (o : Fin 32) :
    outK (edges18 P0 P1 P2) (blockDiag fun a n => W1 ⟨a.val, by omega⟩ n) X (fun k j => W1 ⟨6 + k.val, by omega⟩ j) b1 W2 b2 c f o
      = mlp (input (edgeA P0 P1 P2 c) (edgeB P0 P1 P2 c) X) W1 b1 W2 b2 f o := by
  have hj : ∀ j : Fin 128,
      (∑ k : Fin 18, edges18 P0 P1 P2 f k
            * blockDiag (fun a n => W1 ⟨a.val, by omega⟩ n) k ⟨128 * c.val + j.val, by omega⟩)
          + ∑ k : Fin 128, X f k * W1 ⟨6 + k.val, by omega⟩ j
        = ∑ k : Fin 134, input (edgeA P0 P1 P2 c) (edgeB P0 P1 P2 c) X f k * W1 k j := by
    intro j
    rw [sum18_blockDiag (edges18 P0 P1 P2 f), Cert.LibSumSplit.sum_split 6 128 134 rfl]
    simp only [edges18_block P0 P1 P2 X c f, input_tail]
  simp only [outK, mlp, hiddenK, hj]

end FaceMlp

end
-- ==== Proof.KernelIdealValue.lean ====
/-
  The two output arrays after the run, entry by entry, over the arguments.

  Row `f` of an output array is what the body wrote at the point that owns `f`, at the row of `f` inside that
  point's block. There the body computed, for each corner, the 32 outputs through the 18-column product and the
  shared 128-column product, over the blocks of the arrays the host prepared. Those blocks read the host's arrays
  at row `f`, the host's arrays are the specification's edge columns, diagonal matrix, feature rows, weights and
  biases over the arguments, and the 18-column form is the two layers on the corner's 134-number input. So the
  200000 × 9 array holds each corner's first three outputs and the 200000 × 29 array the mean over the corners
  of the other 29.
-/
import proofs.«142834_j6528350290204_2_alg».proof.Proof.KernelIdealBlocks
import proofs.«142834_j6528350290204_2_alg».proof.Proof.KernelIdealBlockEntry
import proofs.«142834_j6528350290204_2_alg».proof.Proof.KernelIdealPrefix
import proofs.«142834_j6528350290204_2_alg».proof.Proof.FaceAlgebra

set_option maxRecDepth 16384

noncomputable section

namespace Cert.KernelIdeal.Value

open Cert.KernelIdeal
open Idealize.ShloMosaic Idealize.ShloMosaic.TcCoe Idealize.ShloMosaic.ValueIdx

variable (m : (ℓ : Loc nD τ sig) → Buf (Elt Ideal) ℓ) (c : Dev nD)

/-! ## The arguments as plain functions -/

/-- Corner 0's position of face `f`, coordinate `e`. -/
abbrev P0 : Fin 200000 → Fin 3 → EReal := fun f e =>
  Prefix.corner0 (m ((c : Thread nD τ).loc main_arg0)) (m ((c : Thread nD τ).loc main_arg6)) (ix2 f e)
/-- Corner 1's position. -/
abbrev P1 : Fin 200000 → Fin 3 → EReal := fun f e =>
  Prefix.corner1 (m ((c : Thread nD τ).loc main_arg0)) (m ((c : Thread nD τ).loc main_arg6)) (ix2 f e)
/-- Corner 2's position. -/
abbrev P2 : Fin 200000 → Fin 3 → EReal := fun f e =>
  Prefix.corner2 (m ((c : Thread nD τ).loc main_arg0)) (m ((c : Thread nD τ).loc main_arg6)) (ix2 f e)
/-- The face features. -/
abbrev X : Fin 200000 → Fin 128 → EReal := fun f j => (m ((c : Thread nD τ).loc main_arg1) : S200000x128.Idx → EReal) (ix2 f j)
/-- The first weight. -/
abbrev W1 : Fin 134 → Fin 128 → EReal := fun a j => (m ((c : Thread nD τ).loc main_arg2) : S134x128.Idx → EReal) (ix2 a j)
/-- The first bias. -/
abbrev b1 : Fin 128 → EReal := fun j => (m ((c : Thread nD τ).loc main_arg3) : S128.Idx → EReal) (ix1 j)
/-- The second weight. -/
abbrev W2 : Fin 128 → Fin 32 → EReal := fun j o => (m ((c : Thread nD τ).loc main_arg4) : S128x32.Idx → EReal) (ix2 j o)
/-- The second bias. -/
abbrev b2 : Fin 32 → EReal := fun o => (m ((c : Thread nD τ).loc main_arg5) : S32.Idx → EReal) (ix1 o)
/-- Output `o` of corner `k` at face `f`: the two layers on the corner's 134-number input. -/
abbrev G (k : Fin 3) (f : Fin 200000) (o : Fin 32) : EReal :=
  FaceMlp.mlp (FaceMlp.input (FaceMlp.edgeA (P0 m c) (P1 m c) (P2 m c) k) (FaceMlp.edgeB (P0 m c) (P1 m c) (P2 m c) k) (X m c))
    (W1 m c) (b1 m c) (W2 m c) (b2 m c) f o

/-! ## A row, its owner and its place in the owner's block -/

/-- Row `f` is row `f mod 4000` of block `f / 4000`. -/
theorem row_eq (f : Fin 200000) : 4000 * (Blocks.owner f).val + (Blocks.inner f).val = f.val :=
  Nat.div_add_mod f.val 4000
theorem row_lt (f : Fin 200000) : 4000 * (Blocks.owner f).val + (Blocks.inner f).val < 200000 := by
  rw [row_eq]; exact f.isLt
theorem row_fin (f : Fin 200000) : (⟨4000 * (Blocks.owner f).val + (Blocks.inner f).val, row_lt f⟩ : Fin 200000) = f :=
  Fin.ext (row_eq f)

section Entries
-- the block functions, the blocks and the contents at region entry are compared as they stand, never opened
attribute [local irreducible] Run.posBlock Run.featBlock Host.iblk StableHlo.after

/-! ## The arrays at a row are the owner's blocks at the inner row -/

theorem posArr_at (f : Fin 200000) (q : Fin 9) :
    Blocks.posArr (F := Ideal) m c (ix2 f q)
      = Run.posBlock (Host.iblk m c 0 (Blocks.owner f)) (Host.iblk m c 1 (Blocks.owner f)) (Host.iblk m c 2 (Blocks.owner f))
          (Host.iblk m c 3 (Blocks.owner f)) (Host.iblk m c 4 (Blocks.owner f)) (Host.iblk m c 5 (Blocks.owner f))
          (Host.iblk m c 6 (Blocks.owner f)) (ix2 (Blocks.inner f) q) := by
  unfold Blocks.posArr
  exact Blocks.posBlock_congr m c (Blocks.owner f) _ rfl (ix2 (Blocks.inner f) q) _ rfl

theorem featArr_at (f : Fin 200000) (e : Fin 29) :
    Blocks.featArr (F := Ideal) m c (ix2 f e)
      = Run.featBlock (Host.iblk m c 0 (Blocks.owner f)) (Host.iblk m c 1 (Blocks.owner f)) (Host.iblk m c 2 (Blocks.owner f))
          (Host.iblk m c 3 (Blocks.owner f)) (Host.iblk m c 4 (Blocks.owner f)) (Host.iblk m c 5 (Blocks.owner f))
          (Host.iblk m c 6 (Blocks.owner f)) (ix2 (Blocks.inner f) e) := by
  unfold Blocks.featArr
  exact Blocks.featBlock_congr m c (Blocks.owner f) _ rfl (ix2 (Blocks.inner f) e) _ rfl

/-! ## The owner's blocks at the inner row are the host's arrays at the row -/

/-- A corner's outputs over the owner's blocks at the inner row are the two layers on the corner's input at the row. -/
theorem outK_blocks (f : Fin 200000) (k : Fin 3) (o : Fin 32) :
    FaceMlp.outK (fun r j => Host.iblk m c 0 (Blocks.owner f) (ix2 r j)) (fun a n => Host.iblk m c 2 (Blocks.owner f) (ix2 a n))
        (fun r j => Host.iblk m c 1 (Blocks.owner f) (ix2 r j)) (fun a j => Host.iblk m c 3 (Blocks.owner f) (ix2 a j))
        (fun j => Host.iblk m c 4 (Blocks.owner f) (ix2 0 j)) (fun j o => Host.iblk m c 5 (Blocks.owner f) (ix2 j o))
        (fun o => Host.iblk m c 6 (Blocks.owner f) (ix2 0 o)) k (Blocks.inner f) o
      = G m c k f o := by
  refine (FaceMlp.outK_congr _ (FaceMlp.edges18 (P0 m c) (P1 m c) (P2 m c)) _
    (FaceMlp.blockDiag fun a n => W1 m c ⟨a.val, by omega⟩ n) _ (X m c) _ (fun a j => W1 m c ⟨6 + a.val, by omega⟩ j)
    _ (b1 m c) _ (W2 m c) _ (b2 m c) k (Blocks.inner f) f o ?_ ?_ ?_ ?_ ?_ ?_ ?_).trans
    (FaceMlp.outK_eq_mlp (P0 m c) (P1 m c) (P2 m c) (X m c) (W1 m c) (b1 m c) (W2 m c) (b2 m c) k f o)
  · intro j
    exact (Blocks.blk0_apply m c (Blocks.owner f) (Blocks.inner f) j (row_lt f)).trans
      ((congrArg (fun i => Host.V m c main_v34 (ix2 i j)) (row_fin f)).trans (Prefix.V_edges m c f j))
  · intro a n
    exact (Blocks.blk2_apply m c (Blocks.owner f) a n).trans (Prefix.V_blockWeight m c a n)
  · intro j
    exact (Blocks.blk1_apply m c (Blocks.owner f) (Blocks.inner f) j (row_lt f)).trans
      ((congrArg (fun i => Host.V m c main_arg1 (ix2 i j)) (row_fin f)).trans (congrFun (Host.V_main_arg1 m c) (ix2 f j)))
  · intro a j
    exact (Blocks.blk3_apply m c (Blocks.owner f) a j).trans (Prefix.V_featureWeight m c a j)
  · intro j
    exact (Blocks.blk4_apply m c (Blocks.owner f) 0 j).trans (Prefix.V_firstBias m c 0 j)
  · intro j o
    exact (Blocks.blk5_apply m c (Blocks.owner f) j o).trans (Prefix.V_secondWeight m c j o)
  · intro o
    exact (Blocks.blk6_apply m c (Blocks.owner f) 0 o).trans (Prefix.V_secondBias m c 0 o)

/-! ## The two arrays, entry by entry -/

/-- Column `3 k + e` of row `f` of the 200000 × 9 array is output `e` of corner `k` at face `f`. -/
theorem posArr_entry (f : Fin 200000) (k e : Fin 3) :
    Blocks.posArr (F := Ideal) m c (ix2 f ⟨3 * k.val + e.val, by omega⟩) = G m c k f ⟨e.val, by omega⟩ :=
  (posArr_at m c f ⟨3 * k.val + e.val, by omega⟩).trans
    ((BlockEntry.posBlock_entry _ _ _ _ _ _ _ (Blocks.inner f) k e).trans (outK_blocks m c f k ⟨e.val, by omega⟩))

/-- Column `e` of row `f` of the 200000 × 29 array is the mean over the three corners of output `3 + e` at face `f`. -/
theorem featArr_entry (f : Fin 200000) (e : Fin 29) :
    Blocks.featArr (F := Ideal) m c (ix2 f e)
      = Ideal.div ((G m c 0 f ⟨3 + e.val, by omega⟩ + G m c 1 f ⟨3 + e.val, by omega⟩) + G m c 2 f ⟨3 + e.val, by omega⟩)
          (Ideal.ofBits .f32 0x40400000#32) := by
  rw [featArr_at, BlockEntry.featBlock_entry, outK_blocks m c f 0, outK_blocks m c f 1, outK_blocks m c f 2]

end Entries

end Cert.KernelIdeal.Value

end
-- ==== Proof.RefEntry.lean ====
/-
  The reference program read at an index.

  For each corner `c` of a face the reference joins the corner's two edge vectors with the face's 128 features into
  a row of 134 numbers, applies the two layers `relu (x · W1 + b1) · W2 + b2` to it, and so gets 32 numbers per face.
  Its face output is the sum of columns 3 … 31 of the three corners' results divided by the float literal 3.
  Here each of those values is read at an index from the reference's stage functions and stated through the plain
  functions of `FaceMlp`. The three corner positions of a face stay the opaque gathers the reference computes them by.
-/
import proofs.«142834_j6528350290204_2_alg».proof.Proof.Gen.ReferenceIdeal.Read
import proofs.«142834_j6528350290204_2_alg».proof.Proof.FaceMlp

noncomputable section

namespace Cert.ReferenceIdeal.Entry

open Cert.ReferenceIdeal Cert.ReferenceIdeal.Gen Cert.ReferenceIdeal.Read Idealize.ShloMosaic Idealize.ShloMosaic.ValueIdx

open scoped BigOperators

/-! ## The join of two edge arrays and the features, at an index -/

/-- Column `k` of the joined row is the first edge vector for `k < 3`, the second for `3 ≤ k < 6`, and feature
    `k - 6` from there on. -/
theorem concat3_apply (A B : S200000x3.Idx → EReal) (X : S200000x128.Idx → EReal)
    (h : Shape.Concatenates [S200000x3, S200000x3, S200000x128] S200000x134 1) (f : Fin 200000) (k : Fin 134) :
    concatenate S200000x134 1 [⟨S200000x3, A⟩, ⟨S200000x3, B⟩, ⟨S200000x128, X⟩] h (ix2 f k)
      = FaceMlp.input (fun f e => A (ix2 f e)) (fun f e => B (ix2 f e)) (fun f k => X (ix2 f k)) f k := by
  unfold FaceMlp.input
  by_cases h3 : k.val < 3
  · rw [dif_pos h3]
    exact concatenate_apply_piece (1 : Fin S200000x134.rank)
        ([⟨S200000x3, A⟩, ⟨S200000x3, B⟩, ⟨S200000x128, X⟩] : List ((s : Shape) × (s.Idx → EReal))) h (ix2 f k) 0 (by show 0 < 3; omega) S200000x3 A rfl rfl 0 rfl
      (ix2 f ⟨k.val, h3⟩)
      (fun b hb => match b, hb with
        | ⟨0, _⟩, _ => rfl
        | ⟨1, _⟩, hb => absurd rfl hb)
      (by show 0 + k.val = k.val; omega)
  · rw [dif_neg h3]
    by_cases h6 : k.val < 6
    · rw [dif_pos h6]
      exact concatenate_apply_piece (1 : Fin S200000x134.rank)
        ([⟨S200000x3, A⟩, ⟨S200000x3, B⟩, ⟨S200000x128, X⟩] : List ((s : Shape) × (s.Idx → EReal))) h (ix2 f k) 1 (by show 1 < 3; omega) S200000x3 B rfl rfl 3 rfl
        (ix2 f ⟨k.val - 3, by omega⟩)
        (fun b hb => match b, hb with
          | ⟨0, _⟩, _ => rfl
          | ⟨1, _⟩, hb => absurd rfl hb)
        (by show 3 + (k.val - 3) = k.val; omega)
    · rw [dif_neg h6]
      exact concatenate_apply_piece (1 : Fin S200000x134.rank)
        ([⟨S200000x3, A⟩, ⟨S200000x3, B⟩, ⟨S200000x128, X⟩] : List ((s : Shape) × (s.Idx → EReal))) h (ix2 f k) 2 (by show 2 < 3; omega) S200000x128 X rfl rfl 6 rfl
        (ix2 f ⟨k.val - 6, by omega⟩)
        (fun b hb => match b, hb with
          | ⟨0, _⟩, _ => rfl
          | ⟨1, _⟩, hb => absurd rfl hb)
        (by show 6 + (k.val - 6) = k.val; omega)

/-! ## The arguments as plain functions -/

variable (x0 : (⟨S100000x3, .f32⟩ : BufTy).Contents (Elt Ideal)) (x1 : (⟨S200000x128, .f32⟩ : BufTy).Contents (Elt Ideal))
  (x2 : (⟨S134x128, .f32⟩ : BufTy).Contents (Elt Ideal)) (x3 : (⟨S128, .f32⟩ : BufTy).Contents (Elt Ideal))
  (x4 : (⟨S128x32, .f32⟩ : BufTy).Contents (Elt Ideal)) (x5 : (⟨S32, .f32⟩ : BufTy).Contents (Elt Ideal))
  (x6 : (⟨S200000x3, .i32⟩ : BufTy).Contents (Elt Ideal))

/-- The position of corner 0 of each face, as the reference gathers it. -/
abbrev P0 : Fin 200000 → Fin 3 → EReal := fun f e => val_main_v8 (F := Ideal) x0 x6 (ix2 f e)
/-- The position of corner 1 of each face. -/
abbrev P1 : Fin 200000 → Fin 3 → EReal := fun f e => val_main_v17 (F := Ideal) x0 x6 (ix2 f e)
/-- The position of corner 2 of each face. -/
abbrev P2 : Fin 200000 → Fin 3 → EReal := fun f e => val_main_v26 (F := Ideal) x0 x6 (ix2 f e)

/-- The 32 numbers the reference computes for corner `c` of each face. -/
abbrev g (c : Fin 3) : Fin 200000 → Fin 32 → EReal :=
  FaceMlp.mlp (FaceMlp.input (FaceMlp.edgeA (P0 x0 x6) (P1 x0 x6) (P2 x0 x6) c) (FaceMlp.edgeB (P0 x0 x6) (P1 x0 x6) (P2 x0 x6) c)
      fun f k => x1 (ix2 f k))
    (fun k j => x2 (ix2 k j)) (fun j => x3 (ix1 j)) (fun j o => x4 (ix2 j o)) (fun o => x5 (ix1 o))

/-! ## Corner 0 -/

theorem lidx30 (f : Fin 200000) (j : Fin 128) (k : Fin 134) : lidx_main_v30 (ix2 f j) k = ix2 f k :=
  funext fun a => Fin.ext (by match a with | ⟨0, _⟩ => rfl | ⟨1, _⟩ => rfl)
theorem ridx30 (f : Fin 200000) (j : Fin 128) (k : Fin 134) : ridx_main_v30 (ix2 f j) k = ix2 k j :=
  funext fun a => Fin.ext (by match a with | ⟨0, _⟩ => rfl | ⟨1, _⟩ => rfl)
theorem idx32 (f : Fin 200000) (j : Fin 128) : idx_main_v31 (idx_main_v32 (ix2 f j)) = ix1 j :=
  funext fun a => Fin.ext (by match a with | ⟨0, _⟩ => rfl)
theorem lidx35 (f : Fin 200000) (o : Fin 32) (k : Fin 128) : lidx_main_v35 (ix2 f o) k = ix2 f k :=
  funext fun a => Fin.ext (by match a with | ⟨0, _⟩ => rfl | ⟨1, _⟩ => rfl)
theorem ridx35 (f : Fin 200000) (o : Fin 32) (k : Fin 128) : ridx_main_v35 (ix2 f o) k = ix2 k o :=
  funext fun a => Fin.ext (by match a with | ⟨0, _⟩ => rfl | ⟨1, _⟩ => rfl)
theorem idx37 (f : Fin 200000) (o : Fin 32) : idx_main_v36 (idx_main_v37 (ix2 f o)) = ix1 o :=
  funext fun a => Fin.ext (by match a with | ⟨0, _⟩ => rfl)

/-- The joined row of corner 0 is that corner's layer input. -/
theorem row0 (f : Fin 200000) (k : Fin 134) :
    val_main_v29 (F := Ideal) x0 x1 x6 (ix2 f k)
      = FaceMlp.input (FaceMlp.edgeA (P0 x0 x6) (P1 x0 x6) (P2 x0 x6) 0) (FaceMlp.edgeB (P0 x0 x6) (P1 x0 x6) (P2 x0 x6) 0)
          (fun f k => x1 (ix2 f k)) f k := by
  have hA : (fun (f : Fin 200000) (e : Fin 3) => val_main_v27 (F := Ideal) x0 x6 (ix2 f e))
      = FaceMlp.edgeA (P0 x0 x6) (P1 x0 x6) (P2 x0 x6) 0 := by
    funext f e; rfl
  have hB : (fun (f : Fin 200000) (e : Fin 3) => val_main_v28 (F := Ideal) x0 x6 (ix2 f e))
      = FaceMlp.edgeB (P0 x0 x6) (P1 x0 x6) (P2 x0 x6) 0 := by
    funext f e; rfl
  unfold val_main_v29
  rw [concat3_apply, hA, hB]

/-- The hidden layer of corner 0: the 134-term product, the bias, and the maximum with zero. -/
theorem hidden0 (f : Fin 200000) (j : Fin 128) :
    val_main_v34 (F := Ideal) x0 x1 x2 x3 x6 (ix2 f j)
      = max ((∑ k : Fin 134, val_main_v29 (F := Ideal) x0 x1 x6 (ix2 f k) * x2 (ix2 k j)) + x3 (ix1 j)) 0 := by
  rw [val_main_v34_apply, val_main_v33_apply, val_main_v30_apply, val_main_v32_apply, val_main_v31_apply,
    val_main_call0_v0_apply, val_main_call0_cst_apply]
  simp only [lidx30, ridx30, idx32, Ideal.addf_def, Ideal.maximumf_def, Ideal.ofBits_def, Ideal.ofBits_zero_f32]

/-- **Corner 0's 32 outputs, at an index.** -/
theorem corner0 (f : Fin 200000) (o : Fin 32) :
    val_main_v38 (F := Ideal) x0 x1 x2 x3 x4 x5 x6 (ix2 f o)
      = FaceMlp.mlp (FaceMlp.input (FaceMlp.edgeA (P0 x0 x6) (P1 x0 x6) (P2 x0 x6) 0) (FaceMlp.edgeB (P0 x0 x6) (P1 x0 x6) (P2 x0 x6) 0)
            fun f k => x1 (ix2 f k))
          (fun k j => x2 (ix2 k j)) (fun j => x3 (ix1 j)) (fun j o => x4 (ix2 j o)) (fun o => x5 (ix1 o)) f o := by
  rw [val_main_v38_apply, val_main_v35_apply, val_main_v37_apply, val_main_v36_apply]
  simp only [lidx35, ridx35, idx37, hidden0, row0, Ideal.addf_def]
  rfl

/-! ## Corner 1 -/

theorem lidx42 (f : Fin 200000) (j : Fin 128) (k : Fin 134) : lidx_main_v42 (ix2 f j) k = ix2 f k :=
  funext fun a => Fin.ext (by match a with | ⟨0, _⟩ => rfl | ⟨1, _⟩ => rfl)
theorem ridx42 (f : Fin 200000) (j : Fin 128) (k : Fin 134) : ridx_main_v42 (ix2 f j) k = ix2 k j :=
  funext fun a => Fin.ext (by match a with | ⟨0, _⟩ => rfl | ⟨1, _⟩ => rfl)
theorem idx44 (f : Fin 200000) (j : Fin 128) : idx_main_v43 (idx_main_v44 (ix2 f j)) = ix1 j :=
  funext fun a => Fin.ext (by match a with | ⟨0, _⟩ => rfl)
theorem lidx47 (f : Fin 200000) (o : Fin 32) (k : Fin 128) : lidx_main_v47 (ix2 f o) k = ix2 f k :=
  funext fun a => Fin.ext (by match a with | ⟨0, _⟩ => rfl | ⟨1, _⟩ => rfl)
theorem ridx47 (f : Fin 200000) (o : Fin 32) (k : Fin 128) : ridx_main_v47 (ix2 f o) k = ix2 k o :=
  funext fun a => Fin.ext (by match a with | ⟨0, _⟩ => rfl | ⟨1, _⟩ => rfl)
theorem idx49 (f : Fin 200000) (o : Fin 32) : idx_main_v48 (idx_main_v49 (ix2 f o)) = ix1 o :=
  funext fun a => Fin.ext (by match a with | ⟨0, _⟩ => rfl)

/-- The joined row of corner 1 is that corner's layer input. -/
theorem row1 (f : Fin 200000) (k : Fin 134) :
    val_main_v41 (F := Ideal) x0 x1 x6 (ix2 f k)
      = FaceMlp.input (FaceMlp.edgeA (P0 x0 x6) (P1 x0 x6) (P2 x0 x6) 1) (FaceMlp.edgeB (P0 x0 x6) (P1 x0 x6) (P2 x0 x6) 1)
          (fun f k => x1 (ix2 f k)) f k := by
  have hA : (fun (f : Fin 200000) (e : Fin 3) => val_main_v39 (F := Ideal) x0 x6 (ix2 f e))
      = FaceMlp.edgeA (P0 x0 x6) (P1 x0 x6) (P2 x0 x6) 1 := by
    funext f e; rfl
  have hB : (fun (f : Fin 200000) (e : Fin 3) => val_main_v40 (F := Ideal) x0 x6 (ix2 f e))
      = FaceMlp.edgeB (P0 x0 x6) (P1 x0 x6) (P2 x0 x6) 1 := by
    funext f e; rfl
  unfold val_main_v41
  rw [concat3_apply, hA, hB]

/-- The hidden layer of corner 1: the 134-term product, the bias, and the maximum with zero. -/
theorem hidden1 (f : Fin 200000) (j : Fin 128) :
    val_main_v46 (F := Ideal) x0 x1 x2 x3 x6 (ix2 f j)
      = max ((∑ k : Fin 134, val_main_v41 (F := Ideal) x0 x1 x6 (ix2 f k) * x2 (ix2 k j)) + x3 (ix1 j)) 0 := by
  rw [val_main_v46_apply, val_main_v45_apply, val_main_v42_apply, val_main_v44_apply, val_main_v43_apply,
    val_main_call1_v0_apply, val_main_call1_cst_apply]
  simp only [lidx42, ridx42, idx44, Ideal.addf_def, Ideal.maximumf_def, Ideal.ofBits_def, Ideal.ofBits_zero_f32]

/-- **Corner 1's 32 outputs, at an index.** -/
theorem corner1 (f : Fin 200000) (o : Fin 32) :
    val_main_v50 (F := Ideal) x0 x1 x2 x3 x4 x5 x6 (ix2 f o)
      = FaceMlp.mlp (FaceMlp.input (FaceMlp.edgeA (P0 x0 x6) (P1 x0 x6) (P2 x0 x6) 1) (FaceMlp.edgeB (P0 x0 x6) (P1 x0 x6) (P2 x0 x6) 1)
            fun f k => x1 (ix2 f k))
          (fun k j => x2 (ix2 k j)) (fun j => x3 (ix1 j)) (fun j o => x4 (ix2 j o)) (fun o => x5 (ix1 o)) f o := by
  rw [val_main_v50_apply, val_main_v47_apply, val_main_v49_apply, val_main_v48_apply]
  simp only [lidx47, ridx47, idx49, hidden1, row1, Ideal.addf_def]
  rfl

/-! ## Corner 2 -/

theorem lidx54 (f : Fin 200000) (j : Fin 128) (k : Fin 134) : lidx_main_v54 (ix2 f j) k = ix2 f k :=
  funext fun a => Fin.ext (by match a with | ⟨0, _⟩ => rfl | ⟨1, _⟩ => rfl)
theorem ridx54 (f : Fin 200000) (j : Fin 128) (k : Fin 134) : ridx_main_v54 (ix2 f j) k = ix2 k j :=
  funext fun a => Fin.ext (by match a with | ⟨0, _⟩ => rfl | ⟨1, _⟩ => rfl)
theorem idx56 (f : Fin 200000) (j : Fin 128) : idx_main_v55 (idx_main_v56 (ix2 f j)) = ix1 j :=
  funext fun a => Fin.ext (by match a with | ⟨0, _⟩ => rfl)
theorem lidx59 (f : Fin 200000) (o : Fin 32) (k : Fin 128) : lidx_main_v59 (ix2 f o) k = ix2 f k :=
  funext fun a => Fin.ext (by match a with | ⟨0, _⟩ => rfl | ⟨1, _⟩ => rfl)
theorem ridx59 (f : Fin 200000) (o : Fin 32) (k : Fin 128) : ridx_main_v59 (ix2 f o) k = ix2 k o :=
  funext fun a => Fin.ext (by match a with | ⟨0, _⟩ => rfl | ⟨1, _⟩ => rfl)
theorem idx61 (f : Fin 200000) (o : Fin 32) : idx_main_v60 (idx_main_v61 (ix2 f o)) = ix1 o :=
  funext fun a => Fin.ext (by match a with | ⟨0, _⟩ => rfl)

/-- The joined row of corner 2 is that corner's layer input. -/
theorem row2 (f : Fin 200000) (k : Fin 134) :
    val_main_v53 (F := Ideal) x0 x1 x6 (ix2 f k)
      = FaceMlp.input (FaceMlp.edgeA (P0 x0 x6) (P1 x0 x6) (P2 x0 x6) 2) (FaceMlp.edgeB (P0 x0 x6) (P1 x0 x6) (P2 x0 x6) 2)
          (fun f k => x1 (ix2 f k)) f k := by
  have hA : (fun (f : Fin 200000) (e : Fin 3) => val_main_v51 (F := Ideal) x0 x6 (ix2 f e))
      = FaceMlp.edgeA (P0 x0 x6) (P1 x0 x6) (P2 x0 x6) 2 := by
    funext f e; rfl
  have hB : (fun (f : Fin 200000) (e : Fin 3) => val_main_v52 (F := Ideal) x0 x6 (ix2 f e))
      = FaceMlp.edgeB (P0 x0 x6) (P1 x0 x6) (P2 x0 x6) 2 := by
    funext f e; rfl
  unfold val_main_v53
  rw [concat3_apply, hA, hB]

/-- The hidden layer of corner 2: the 134-term product, the bias, and the maximum with zero. -/
theorem hidden2 (f : Fin 200000) (j : Fin 128) :
    val_main_v58 (F := Ideal) x0 x1 x2 x3 x6 (ix2 f j)
      = max ((∑ k : Fin 134, val_main_v53 (F := Ideal) x0 x1 x6 (ix2 f k) * x2 (ix2 k j)) + x3 (ix1 j)) 0 := by
  rw [val_main_v58_apply, val_main_v57_apply, val_main_v54_apply, val_main_v56_apply, val_main_v55_apply,
    val_main_call2_v0_apply, val_main_call2_cst_apply]
  simp only [lidx54, ridx54, idx56, Ideal.addf_def, Ideal.maximumf_def, Ideal.ofBits_def, Ideal.ofBits_zero_f32]

/-- **Corner 2's 32 outputs, at an index.** -/
theorem corner2 (f : Fin 200000) (o : Fin 32) :
    val_main_v62 (F := Ideal) x0 x1 x2 x3 x4 x5 x6 (ix2 f o)
      = FaceMlp.mlp (FaceMlp.input (FaceMlp.edgeA (P0 x0 x6) (P1 x0 x6) (P2 x0 x6) 2) (FaceMlp.edgeB (P0 x0 x6) (P1 x0 x6) (P2 x0 x6) 2)
            fun f k => x1 (ix2 f k))
          (fun k j => x2 (ix2 k j)) (fun j => x3 (ix1 j)) (fun j o => x4 (ix2 j o)) (fun o => x5 (ix1 o)) f o := by
  rw [val_main_v62_apply, val_main_v59_apply, val_main_v61_apply, val_main_v60_apply]
  simp only [lidx59, ridx59, idx61, hidden2, row2, Ideal.addf_def]
  rfl

/-! ## The face output -/

theorem idx63 (f : Fin 200000) (e : Fin 29) : idx_main_v63 (ix2 f e) = ix2 f (⟨3 + e.val, by omega⟩ : Fin 32) :=
  funext fun a => Fin.ext (by match a with | ⟨0, _⟩ => rfl | ⟨1, _⟩ => rfl)
theorem idx64 (f : Fin 200000) (e : Fin 29) : idx_main_v64 (ix2 f e) = ix2 f (⟨3 + e.val, by omega⟩ : Fin 32) :=
  funext fun a => Fin.ext (by match a with | ⟨0, _⟩ => rfl | ⟨1, _⟩ => rfl)
theorem idx66 (f : Fin 200000) (e : Fin 29) : idx_main_v66 (ix2 f e) = ix2 f (⟨3 + e.val, by omega⟩ : Fin 32) :=
  funext fun a => Fin.ext (by match a with | ⟨0, _⟩ => rfl | ⟨1, _⟩ => rfl)

/-- **The face output at an index**: columns 3 … 31 of the three corners' outputs added up, divided by the float 3. -/
theorem faceOut (f : Fin 200000) (e : Fin 29) :
    val_main_v69 (F := Ideal) x0 x1 x2 x3 x4 x5 x6 (ix2 f e)
      = Ideal.div ((g x0 x1 x2 x3 x4 x5 x6 0 f ⟨3 + e.val, by omega⟩ + g x0 x1 x2 x3 x4 x5 x6 1 f ⟨3 + e.val, by omega⟩)
            + g x0 x1 x2 x3 x4 x5 x6 2 f ⟨3 + e.val, by omega⟩) (Ideal.ofBits .f32 0x40400000#32) := by
  rw [val_main_v69_apply, val_main_v67_apply, val_main_v65_apply, val_main_v63_apply, val_main_v64_apply,
    val_main_v66_apply, val_main_v68_apply, val_main_cst_apply, idx63, idx64, idx66, corner0, corner1, corner2]
  simp only [Ideal.addf_def, Ideal.hostDivf_def, Ideal.ofBits_def]

end Cert.ReferenceIdeal.Entry

end
-- ==== Proof.MeetEntry.lean ====
/-
  Where the two programs meet.

  Both programs gather the three corner positions of every face by the same operations, so the gathered arrays
  are the same functions of the positions and the faces' table. The reference applies the two layers to each
  corner's 134-number input; the kernel's two output arrays, entry by entry, hold the same numbers: the first
  three outputs of each corner in the 200000 × 9 array, and the mean over the corners of the other 29 in the
  200000 × 29 array. Here the kernel's arrays after its run are set equal to the reference's stage functions at
  the kernel's own arguments.
-/
import proofs.«142834_j6528350290204_2_alg».proof.Proof.KernelIdealValue
import proofs.«142834_j6528350290204_2_alg».proof.Proof.RefEntry
import proofs.«142834_j6528350290204_2_alg».proof.Proof.Gen.ReferenceIdeal.Read

set_option maxRecDepth 16384

noncomputable section

namespace Cert.Meet

open Idealize.ShloMosaic Idealize.ShloMosaic.TcCoe Idealize.ShloMosaic.ValueIdx
open Cert.KernelIdeal (nD τ sig main_arg0 main_arg1 main_arg2 main_arg3 main_arg4 main_arg5 main_arg6)

variable (m : (ℓ : Loc nD τ sig) → Buf (Elt Ideal) ℓ) (c : Dev nD)

/-! ## The gathered corners are the same arrays in the two programs -/

/-- Corner 0's positions: the reference's gather and the kernel's are the same operations on the same operands. -/
theorem corner0_eq (x0 : FVec Ideal Cert.KernelIdeal.S100000x3 .f32) (x6 : IVec Cert.KernelIdeal.S200000x3 32) :
    Cert.ReferenceIdeal.Read.val_main_v8 (F := Ideal) x0 x6 = Cert.KernelIdeal.Prefix.corner0 x0 x6 := rfl
/-- Corner 1's positions. -/
theorem corner1_eq (x0 : FVec Ideal Cert.KernelIdeal.S100000x3 .f32) (x6 : IVec Cert.KernelIdeal.S200000x3 32) :
    Cert.ReferenceIdeal.Read.val_main_v17 (F := Ideal) x0 x6 = Cert.KernelIdeal.Prefix.corner1 x0 x6 := rfl
/-- Corner 2's positions. -/
theorem corner2_eq (x0 : FVec Ideal Cert.KernelIdeal.S100000x3 .f32) (x6 : IVec Cert.KernelIdeal.S200000x3 32) :
    Cert.ReferenceIdeal.Read.val_main_v26 (F := Ideal) x0 x6 = Cert.KernelIdeal.Prefix.corner2 x0 x6 := rfl

section Meet
-- the kernel's block functions and region-entry contents, and the reference's stage functions, stay closed
attribute [local irreducible] Cert.KernelIdeal.Run.posBlock Cert.KernelIdeal.Run.featBlock Cert.KernelIdeal.Host.iblk
  Idealize.ShloMosaic.StableHlo.after Cert.ReferenceIdeal.Read.val_main_v38 Cert.ReferenceIdeal.Read.val_main_v50
  Cert.ReferenceIdeal.Read.val_main_v62 Cert.ReferenceIdeal.Read.val_main_v69

/-! ## The two layers on a corner's input, as each side spells them -/

/-- The reference's spelling of a corner's outputs, at the kernel's arguments, is the kernel side's. -/
theorem out_eq (k : Fin 3) (f : Fin 200000) (o : Fin 32) :
    Cert.ReferenceIdeal.Entry.g (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) k f o
      = Cert.KernelIdeal.Value.G m c k f o := rfl

/-! ## The 200000 × 9 array against the three corners' outputs -/

/-- Columns 0 to 2: corner 0's first three outputs. -/
theorem pos_meet_0 (f : Fin 200000) (e : Fin 3) :
    Cert.KernelIdeal.Blocks.posArr (F := Ideal) m c (ix2 f ⟨3 * 0 + e.val, by omega⟩)
      = Cert.ReferenceIdeal.Read.val_main_v38 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix2 f ⟨e.val, by omega⟩) :=
  (Cert.KernelIdeal.Value.posArr_entry m c f 0 e).trans
    ((out_eq m c 0 f ⟨e.val, by omega⟩).symm.trans (Cert.ReferenceIdeal.Entry.corner0 _ _ _ _ _ _ _ f ⟨e.val, by omega⟩).symm)

/-- Columns 3 to 5: corner 1's first three outputs. -/
theorem pos_meet_1 (f : Fin 200000) (e : Fin 3) :
    Cert.KernelIdeal.Blocks.posArr (F := Ideal) m c (ix2 f ⟨3 * 1 + e.val, by omega⟩)
      = Cert.ReferenceIdeal.Read.val_main_v50 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix2 f ⟨e.val, by omega⟩) :=
  (Cert.KernelIdeal.Value.posArr_entry m c f 1 e).trans
    ((out_eq m c 1 f ⟨e.val, by omega⟩).symm.trans (Cert.ReferenceIdeal.Entry.corner1 _ _ _ _ _ _ _ f ⟨e.val, by omega⟩).symm)

/-- Columns 6 to 8: corner 2's first three outputs. -/
theorem pos_meet_2 (f : Fin 200000) (e : Fin 3) :
    Cert.KernelIdeal.Blocks.posArr (F := Ideal) m c (ix2 f ⟨3 * 2 + e.val, by omega⟩)
      = Cert.ReferenceIdeal.Read.val_main_v62 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix2 f ⟨e.val, by omega⟩) :=
  (Cert.KernelIdeal.Value.posArr_entry m c f 2 e).trans
    ((out_eq m c 2 f ⟨e.val, by omega⟩).symm.trans (Cert.ReferenceIdeal.Entry.corner2 _ _ _ _ _ _ _ f ⟨e.val, by omega⟩).symm)

/-! ## The 200000 × 29 array against the reference's mean over the corners -/

/-- The reference's feature output at the kernel's arguments is the kernel's 200000 × 29 array after its run. -/
theorem feat_meet :
    Cert.ReferenceIdeal.Read.val_main_v69 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      = Cert.KernelIdeal.Blocks.featArr (F := Ideal) m c := by
  funext i
  obtain ⟨f, e, rfl⟩ : ∃ (f : Fin 200000) (e : Fin 29), i = ix2 f e := ⟨i 0, i 1, eq_ix2 i⟩
  rw [Cert.ReferenceIdeal.Entry.faceOut, Cert.KernelIdeal.Value.featArr_entry, out_eq m c 0, out_eq m c 1, out_eq m c 2]

end Meet

end Cert.Meet

end
-- ==== Proof.FaceClaims.lean ====
/-
  The claims. The idealized kernel's run ends with three results named: the node displacement (the per-corner
  position updates of all faces, scattered onto the nodes and divided by the clipped counts), the new positions, and
  the face features. The reference's generated run ends with its three results at its own stages. Entry by entry the
  kernel's per-corner outputs are the reference's (the 18-column block-diagonal product plus the shared 128-column
  product against one 134-column product: a regrouping of sums), so the stacked updates are one array, the two
  programs' later host operations are the same function of it, and the face features agree; with memories that agree
  on the arguments both runs end at the same values. Nothing here uses that the inputs are finite.
-/
import proofs.«142834_j6528350290204_2_alg».proof.Defs
import proofs.«142834_j6528350290204_2_alg».proof.Proof.KernelRun
import proofs.«142834_j6528350290204_2_alg».proof.Proof.KernelIdealRun
import proofs.«142834_j6528350290204_2_alg».proof.Proof.KernelIdealBlocks
import proofs.«142834_j6528350290204_2_alg».proof.Proof.KernelIdealTail
import proofs.«142834_j6528350290204_2_alg».proof.Proof.MeetEntry
import proofs.«142834_j6528350290204_2_alg».proof.Proof.Gen.ReferenceIdeal.Run
import proofs.«142834_j6528350290204_2_alg».proof.Proof.Gen.ReferenceIdeal.Read
import proofs.«142834_j6528350290204_2_alg».proof.Proof.Gen.Kernel
import proofs.«142834_j6528350290204_2_alg».proof.Proof.Gen.KernelIdeal
import proofs.«142834_j6528350290204_2_alg».proof.Proof.Gen.ReferenceIdeal
import proofs.«142834_j6528350290204_2_alg».proof.Proof.Gen.Pre_finite_inputs
import Idealize.ShloMosaic.Lib.ValueIdx
import Idealize.ShloMosaic.Lib.Pipeline.Value

set_option maxRecDepth 16384

noncomputable section

namespace Cert.Proof.Face

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## The idealized kernel's results -/

/-- The per-corner position updates of all faces, corner 0's on top of corner 1's on top of corner 2's. -/
def stacked : FVec Ideal S600000x3 .f32 :=
  Tail.stack3 (Tail.cut0 (Blocks.posArr (F := Ideal) m c)) (Tail.cut3 (Blocks.posArr (F := Ideal) m c)) (Tail.cut6 (Blocks.posArr (F := Ideal) m c))

/-- The node displacement. -/
def delta : FVec Ideal S100000x3 .f32 := Tail.nodeDelta (stacked m c) (m ((c : Thread nD τ).loc main_arg6))

section KernelRun
attribute [local irreducible] Run.posBlock Run.featBlock Host.iblk StableHlo.after

/-- The idealized kernel's run, its three results named and its arguments unchanged. -/
theorem kernel_run : θ_run defs (onTc (τ := τ) (main (F := Ideal))) ⟨m, fun _ => 0, ρ⟩ (fun r => ∀ c : Dev nD,
      r.2.mem ((c.tc : Thread nD τ).loc main_v69) = delta m c
      ∧ r.2.mem ((c.tc : Thread nD τ).loc main_v70) = addf (m ((c : Thread nD τ).loc main_arg0)) (delta m c)
      ∧ r.2.mem ((c.tc : Thread nD τ).loc main_v47_1) = Blocks.featArr (F := Ideal) m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v69 (Pipeline.mem_restRefs_of main_v69 (by decide) (by decide))).trans (Tail.tail_delta m c _ (Blocks.final7 m c)),
     ((h c).2 main_v70 (Pipeline.mem_restRefs_of main_v70 (by decide) (by decide))).trans (Tail.tail_newpos m c _ (Blocks.final7 m c)),
     ((h c).1 8).trans (Blocks.final8 m c),
     ((h c).2 main_arg0 (Pipeline.mem_restRefs_of main_arg0 (by decide) (by decide))).trans (Host.W_main_arg0 m (Run.dats m) c),
     (((h c).1 1).trans ((Run.dats m 0 c).arrAt_in 1 rfl _)).trans ((Run.A_eq m c 1).trans (Host.V_main_arg1 m c)),
     ((h c).2 main_arg2 (Pipeline.mem_restRefs_of main_arg2 (by decide) (by decide))).trans (Host.W_main_arg2 m (Run.dats m) c),
     ((h c).2 main_arg3 (Pipeline.mem_restRefs_of main_arg3 (by decide) (by decide))).trans (Host.W_main_arg3 m (Run.dats m) c),
     ((h c).2 main_arg4 (Pipeline.mem_restRefs_of main_arg4 (by decide) (by decide))).trans (Host.W_main_arg4 m (Run.dats m) c),
     ((h c).2 main_arg5 (Pipeline.mem_restRefs_of main_arg5 (by decide) (by decide))).trans (Host.W_main_arg5 m (Run.dats m) c),
     ((h c).2 main_arg6 (Pipeline.mem_restRefs_of main_arg6 (by decide) (by decide))).trans (Host.W_main_arg6 m (Run.dats m) c)⟩)
    (Run.run_main m ρ)

end KernelRun

/-! ## Where the two programs meet -/

section Meet
attribute [local irreducible] Run.posBlock Run.featBlock Host.iblk StableHlo.after Blocks.posArr

/-- Columns `0 … 2` of the kernel's 200000 × 9 array are the first three columns of the reference's corner-0 output. -/
theorem cut_meet0 : Tail.cut0 (Blocks.posArr (F := Ideal) m c) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨f, e, rfl⟩ : ∃ (f : Fin 200000) (e : Fin 3), i = ix2 f e := ⟨i 0, i 1, eq_ix2 i⟩
  have hk : Tail.cut0 (Blocks.posArr (F := Ideal) m c) (ix2 f e) = Blocks.posArr (F := Ideal) m c (ix2 f ⟨3 * 0 + e.val, by omega⟩) := by
    unfold Tail.cut0
    exact extractStridedSlice_apply ![0, 0] (Blocks.posArr (F := Ideal) m c) slices_S200000x9_S200000x3_0_0 (ix2 f e) (ix2 f ⟨3 * 0 + e.val, by omega⟩) (fun a => match a with
      | ⟨0, _⟩ => by show f.val = 0 + f.val; omega
      | ⟨1, _⟩ => by show 3 * 0 + e.val = 0 + e.val; omega)
  have hr : Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 f e)
      = Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 f ⟨e.val, by omega⟩) := by
    rw [Cert.ReferenceIdeal.Read.val_main_v70_apply]
    refine congrArg _ (funext fun a => Fin.ext ?_)
    match a with
    | ⟨0, _⟩ => rfl
    | ⟨1, _⟩ => rfl
  rw [hk, hr]
  exact Cert.Meet.pos_meet_0 m c f e

/-- Columns `3 … 5` of the kernel's 200000 × 9 array are the first three columns of the reference's corner-1 output. -/
theorem cut_meet1 : Tail.cut3 (Blocks.posArr (F := Ideal) m c) = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨f, e, rfl⟩ : ∃ (f : Fin 200000) (e : Fin 3), i = ix2 f e := ⟨i 0, i 1, eq_ix2 i⟩
  have hk : Tail.cut3 (Blocks.posArr (F := Ideal) m c) (ix2 f e) = Blocks.posArr (F := Ideal) m c (ix2 f ⟨3 * 1 + e.val, by omega⟩) := by
    unfold Tail.cut3
    exact extractStridedSlice_apply ![0, 3] (Blocks.posArr (F := Ideal) m c) slices_S200000x9_S200000x3_0_3 (ix2 f e) (ix2 f ⟨3 * 1 + e.val, by omega⟩) (fun a => match a with
      | ⟨0, _⟩ => by show f.val = 0 + f.val; omega
      | ⟨1, _⟩ => by show 3 * 1 + e.val = 3 + e.val; omega)
  have hr : Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 f e)
      = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 f ⟨e.val, by omega⟩) := by
    rw [Cert.ReferenceIdeal.Read.val_main_v71_apply]
    refine congrArg _ (funext fun a => Fin.ext ?_)
    match a with
    | ⟨0, _⟩ => rfl
    | ⟨1, _⟩ => rfl
  rw [hk, hr]
  exact Cert.Meet.pos_meet_1 m c f e

/-- Columns `6 … 8` of the kernel's 200000 × 9 array are the first three columns of the reference's corner-2 output. -/
theorem cut_meet2 : Tail.cut6 (Blocks.posArr (F := Ideal) m c) = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨f, e, rfl⟩ : ∃ (f : Fin 200000) (e : Fin 3), i = ix2 f e := ⟨i 0, i 1, eq_ix2 i⟩
  have hk : Tail.cut6 (Blocks.posArr (F := Ideal) m c) (ix2 f e) = Blocks.posArr (F := Ideal) m c (ix2 f ⟨3 * 2 + e.val, by omega⟩) := by
    unfold Tail.cut6
    exact extractStridedSlice_apply ![0, 6] (Blocks.posArr (F := Ideal) m c) slices_S200000x9_S200000x3_0_6 (ix2 f e) (ix2 f ⟨3 * 2 + e.val, by omega⟩) (fun a => match a with
      | ⟨0, _⟩ => by show f.val = 0 + f.val; omega
      | ⟨1, _⟩ => by show 3 * 2 + e.val = 6 + e.val; omega)
  have hr : Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 f e)
      = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 f ⟨e.val, by omega⟩) := by
    rw [Cert.ReferenceIdeal.Read.val_main_v72_apply]
    refine congrArg _ (funext fun a => Fin.ext ?_)
    match a with
    | ⟨0, _⟩ => rfl
    | ⟨1, _⟩ => rfl
  rw [hk, hr]
  exact Cert.Meet.pos_meet_2 m c f e

/-- The reference's node displacement is the same later host operations applied to ITS stacked updates. -/
theorem ref_delta : Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    = Tail.nodeDelta (Tail.stack3 (Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))))
        (m ((c : Thread nD τ).loc main_arg6)) := by
  unfold Cert.ReferenceIdeal.Read.val_main_v91 Cert.ReferenceIdeal.Read.val_main_v83 Cert.ReferenceIdeal.Read.val_main_v73
  rfl

/-- So the two node displacements are one array, -/
theorem delta_meet : Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = delta m c := by
  rw [ref_delta, ← cut_meet0, ← cut_meet1, ← cut_meet2]
  rfl

/-- and the new positions. -/
theorem newpos_meet : Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    = addf (m ((c : Thread nD τ).loc main_arg0)) (delta m c) := by
  unfold Cert.ReferenceIdeal.Read.val_main_v92
  rw [delta_meet]

end Meet

/-! ## The five conjuncts -/

theorem frame_k : Cert.frame_Kernel (hKernel := Cert.Kernel.Gen.facts) (hPre_finite_inputs := Cert.Pre_finite_inputs.Gen.facts) :=
  fun m ρ _ => Cert.Kernel.Run.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ

/-- The reference is host operations only: its generated run, the results forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

section Algebraic
attribute [local irreducible] Run.posBlock Run.featBlock Host.iblk StableHlo.after Blocks.posArr Blocks.featArr

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, _, kernel_run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v91_eq, (hagree c).1, (hagree c).2.1, (hagree c).2.2.1, (hagree c).2.2.2.1, (hagree c).2.2.2.2.1, (hagree c).2.2.2.2.2.1, (hagree c).2.2.2.2.2.2]
    exact delta_meet m c
  · rw [Cert.ReferenceIdeal.Read.val_main_v92_eq, (hagree c).1, (hagree c).2.1, (hagree c).2.2.1, (hagree c).2.2.2.1, (hagree c).2.2.2.2.1, (hagree c).2.2.2.2.2.1, (hagree c).2.2.2.2.2.2]
    exact newpos_meet m c
  · rw [Cert.ReferenceIdeal.Read.val_main_v69_eq, (hagree c).1, (hagree c).2.1, (hagree c).2.2.1, (hagree c).2.2.2.1, (hagree c).2.2.2.2.1, (hagree c).2.2.2.2.2.1, (hagree c).2.2.2.2.2.2]
    exact Cert.Meet.feat_meet m c

end Algebraic

end Cert.Proof.Face

end
-- ==== Proof.lean ====
/-
  The certificate of the face-to-node message step: a Pallas kernel that runs one two-layer network on each of the
  three corners of 200000 triangles, fifty blocks of 4000 faces at a time, against its plain jnp reference.

  The kernel shares the face-feature part of the first layer between the corners and computes the three corners'
  edge parts by one product with a block-diagonal weight; the reference multiplies each corner's 134-wide row by the
  whole first-layer weight. On the extended reals the two are the same numbers (a regrouping of sums; a product with
  zero is zero), so the per-corner position updates scattered onto the nodes, the new positions and the averaged face
  features all agree. Both kernel programs run to the end, fault nowhere and leave their arguments unchanged (their
  frames are proved at any float instance: Proof/KernelRun.lean, Proof/KernelIdealRun.lean); the ideal pass rewrote
  nothing. The claims are assembled in Proof/FaceClaims.lean.
-/
import proofs.«142834_j6528350290204_2_alg».proof.Defs
import proofs.«142834_j6528350290204_2_alg».proof.Proof.FaceClaims
import proofs.«142834_j6528350290204_2_alg».proof.Proof.Gen.Kernel
import proofs.«142834_j6528350290204_2_alg».proof.Proof.Gen.KernelIdeal
import proofs.«142834_j6528350290204_2_alg».proof.Proof.Gen.ReferenceIdeal
import proofs.«142834_j6528350290204_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Face.frame_k, Face.frame_ki, Face.frame_ri, Face.preserves, Face.algebraic⟩

end Cert.Proof

end
